-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x2048 : Shape := ⟨2, ![1, 2048]⟩
abbrev S50257x128 : Shape := ⟨2, ![50257, 128]⟩
abbrev S2048x128 : Shape := ⟨2, ![2048, 128]⟩
abbrev S_ : Shape := ⟨0, ![]⟩

class Facts : Prop where
  bcast_S_S50257x128 : S_.BroadcastsInDim S50257x128 (![] : Fin 0 → Fin S50257x128.rank)
  reducesTo_S50257x128_S_d0_1 : S50257x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg0 : IVec S1x2048 32) (main_v13 : IVec S_ 1) (main_v15 : IVec S1x2048 1) (main_c_5 : IVec S_ 32) : IVec S_ 1 :=
  let main_v16 : IVec S1x2048 32 := broadcastInDim S1x2048 ![] bcast_S_S1x2048 main_c_5
  let main_v17 : IVec S1x2048 1 := cmpi .sle main_arg0 main_v16
  let main_v18 : IVec S1x2048 1 := andi main_v15 main_v17
  let main_c_6 : IVec S_ 1 := constantI S_ 1 1#1
  let main_v19 : IVec S_ 1 := (fun x v => Host.reduce IntOp.andi x v reducesTo_S1x2048_S_d0_1 h_S_) main_v18 main_c_6
  let main_v20 : IVec S_ 1 := andi main_v13 main_v19
  main_v20

def fn {F : FTy → Type} [FloatOps F] (main_arg0 : IVec S1x2048 32) (main_arg1 : FVec F S50257x128 .f32) (main_arg2 : FVec F S2048x128 .f32) (main_arg3 : FVec F S50257x128 .f32) : IVec S_ 1 :=
  let main_v0 : FVec F S50257x128 .f32 := Host.absf main_arg1
  let main_cst : FVec F S_ .f32 := constant S_ .f32 0x7F800000#32
  let main_v1 : FVec F S50257x128 .f32 := broadcastInDim S50257x128 ![] bcast_S_S50257x128 main_cst
  let main_v2 : IVec S50257x128 1 := cmpf .olt main_v0 main_v1
  let main_c : IVec S_ 1 := constantI S_ 1 1#1
  let main_v3 : IVec S_ 1 := (fun x v => Host.reduce IntOp.andi x v reducesTo_S50257x128_S_d0_1 h_S_) main_v2 main_c
  let main_v4 : FVec F S2048x128 .f32 := Host.absf main_arg2
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S50257x128 .f32 := Host.absf main_arg3
  let main_cst_2 : FVec F S_ .f32 := constant S_ .f32 0x7F800000#32
  let main_v10 : FVec F S50257x128 .f32 := broadcastInDim S50257x128 ![] bcast_S_S50257x128 main_cst_2
  let main_v11 : IVec S50257x128 1 := cmpf .olt main_v9 main_v10
  let main_c_3 : IVec S_ 1 := constantI S_ 1 1#1
  let main_v12 : IVec S_ 1 := (fun x v => Host.reduce IntOp.andi x v reducesTo_S50257x128_S_d0_1 h_S_) main_v11 main_c_3
  let main_v13 : IVec S_ 1 := andi main_v8 main_v12
  let main_c_4 : IVec S_ 32 := constantI S_ 32 0#32
  let main_v14 : IVec S1x2048 32 := broadcastInDim S1x2048 ![] bcast_S_S1x2048 main_c_4
  let main_v15 : IVec S1x2048 1 := cmpi .sge main_arg0 main_v14
  let main_c_5 : IVec S_ 32 := constantI S_ 32 50256#32
  fn_part1 (F := F) main_arg0 main_v13 main_v15 main_c_5
-- ==== Kernel.lean ====
abbrev S1x2048 : Shape := ⟨2, ![1, 2048]⟩
abbrev S50257x128 : Shape := ⟨2, ![50257, 128]⟩
abbrev S2048x128 : Shape := ⟨2, ![2048, 128]⟩
abbrev S2048 : Shape := ⟨1, ![2048]⟩
abbrev S64 : Shape := ⟨1, ![64]⟩
abbrev S64x128 : Shape := ⟨2, ![64, 128]⟩
abbrev S_ : Shape := ⟨0, ![]⟩
abbrev S2048x50257 : Shape := ⟨2, ![2048, 50257]⟩
abbrev S2048x2048 : Shape := ⟨2, ![2048, 2048]⟩
abbrev S1x2048x50257 : Shape := ⟨3, ![1, 2048, 50257]⟩

abbrev nBuf : Table → Nat
  | .hbm => 8
  | .local .tc .vmem => 6
  | .local .scVector .vmem => 2
  | _ => 0

abbrev bufTy : (tb : Table) → Fin (nBuf tb) → BufTy
  | .hbm, ⟨0, _⟩ => ⟨S1x2048, .i32⟩
  | .hbm, ⟨1, _⟩ => ⟨S50257x128, .f32⟩
  | .hbm, ⟨2, _⟩ => ⟨S2048x128, .f32⟩
  | .hbm, ⟨3, _⟩ => ⟨S50257x128, .f32⟩
  | .hbm, ⟨4, _⟩ => ⟨S2048, .i32⟩
  | .hbm, ⟨5, _⟩ => ⟨S2048x128, .f32⟩
  | .hbm, ⟨6, _⟩ => ⟨S2048x50257, .f32⟩
  | .hbm, ⟨7, _⟩ => ⟨S1x2048x50257, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x2048, .f32⟩
  | .local .tc .vmem, ⟨5, _⟩ => ⟨S2048x2048, .f32⟩
  | .local .scVector .vmem, ⟨0, _⟩ => ⟨S64, .i32⟩
  | .local .scVector .vmem, ⟨1, _⟩ => ⟨S64x128, .f32⟩
  | _, _ => ⟨S1x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x2048_S2048 : S1x2048.ShapeCasts S2048
  inb_S50257x128_S50257x128_0_0 : ∀ a, (![0, 0] : Fin 2 → Nat) a + S50257x128.size a ≤ S50257x128.size a
  gathers_S50257x128_S64x128 : S50257x128.Gathers 0 S64x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x50257_S1x2048x50257 : S2048x50257.ShapeCasts S1x2048x50257
  dot_S2048x128_S2048x128_S2048x2048_1_1_0_0_n_n_wf : DotDims.WF S2048x128 S2048x128 S2048x2048 [1] [1] [0] [0] [] []
  hcc0_scratch2 : 0 + S_.numel ≤ 9
  hcc0_scoped0 : 1 + S_.numel ≤ 9
  hcc0_scoped1 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S2048.size a
  k0_off2_inb : ∀ i : grid0.Coords, ∀ a, (k0_off2 i) a + S64x128.size a ≤ S2048x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .f32 = 32 ∨ (Rect.block (s := S2048x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048x128.size a < S50257x128.size a
  hwx1_2 : ∀ i : grid1.Coords, EltTy.bits .f32 = 32 ∨ (Rect.unit (s := S50257x128) (fun a => cc1_transform_2 i a * S2048x128.size a) (fun a => (Pipeline.Clip.of (cc1_transform_2 i a) (S2048x128.size a) (S50257x128.size a)).extent (S2048x128.size a)) fun a => Pipeline.Clip.inb (Pipeline.Clip.ok_of (hstart1_2 i a))).WholeWords (EltTy.packing .f32)
  hwxs1_2 : ∀ i : grid1.Coords, EltTy.bits .f32 = 32 ∨ (Rect.unit (s := S2048x128) (fun _ => 0) (fun a => (Pipeline.Clip.of (cc1_transform_2 i a) (S2048x128.size a) (S50257x128.size a)).extent (S2048x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x2048.size a < S2048x50257.size a
  hwx1_3 : ∀ i : grid1.Coords, EltTy.bits .f32 = 32 ∨ (Rect.unit (s := S2048x50257) (fun a => cc1_transform_3 i a * S2048x2048.size a) (fun a => (Pipeline.Clip.of (cc1_transform_3 i a) (S2048x2048.size a) (S2048x50257.size a)).extent (S2048x2048.size a)) fun a => Pipeline.Clip.inb (Pipeline.Clip.ok_of (hstart1_3 i a))).WholeWords (EltTy.packing .f32)
  hwxs1_3 : ∀ i : grid1.Coords, EltTy.bits .f32 = 32 ∨ (Rect.unit (s := S2048x2048) (fun _ => 0) (fun a => (Pipeline.Clip.of (cc1_transform_3 i a) (S2048x2048.size a) (S2048x50257.size a)).extent (S2048x2048.size a)) fun a => (Nat.zero_add _).trans_le (Pipeline.Clip.extent_le (Pipeline.Clip.ok_of (hstart1_3 i a)))).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win1_0 : Pipeline.Window sig grid1 :=
  Pipeline.Window.ofSpec (Memref.whole main_v1) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_arg3) S2048x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v2) S2048x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x2048 : Shape := ⟨2, ![1, 2048]⟩
abbrev S50257x128 : Shape := ⟨2, ![50257, 128]⟩
abbrev S2048x128 : Shape := ⟨2, ![2048, 128]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x128 : Shape := ⟨3, ![1, 2048, 128]⟩
abbrev S2048 : Shape := ⟨1, ![2048]⟩
abbrev S2048x1 : Shape := ⟨2, ![2048, 1]⟩
abbrev S1x1 : Shape := ⟨2, ![1, 1]⟩
abbrev S128x50257 : Shape := ⟨2, ![128, 50257]⟩
abbrev S1x2048x50257 : Shape := ⟨3, ![1, 2048, 50257]⟩

abbrev nBuf : Space → Nat
  | .hbm => 55
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S50257x128, .f32⟩
  | .hbm, ⟨2, _⟩ => ⟨S2048x128, .f32⟩
  | .hbm, ⟨3, _⟩ => ⟨S50257x128, .f32⟩
  | .hbm, ⟨4, _⟩ => ⟨S_, .i32⟩
  | .hbm, ⟨5, _⟩ => ⟨S1x2048, .i32⟩
  | .hbm, ⟨6, _⟩ => ⟨S1x2048, .i1⟩
  | .hbm, ⟨7, _⟩ => ⟨S_, .i32⟩
  | .hbm, ⟨8, _⟩ => ⟨S1x2048, .i32⟩
  | .hbm, ⟨9, _⟩ => ⟨S1x2048, .i32⟩
  | .hbm, ⟨10, _⟩ => ⟨S1x2048, .i32⟩
  | .hbm, ⟨11, _⟩ => ⟨S1x2048x1, .i32⟩
  | .hbm, ⟨12, _⟩ => ⟨S1, .i32⟩
  | .hbm, ⟨13, _⟩ => ⟨S_, .i32⟩
  | .hbm, ⟨14, _⟩ => ⟨S1x2048x1, .i32⟩
  | .hbm, ⟨15, _⟩ => ⟨S1x2048x1, .i1⟩
  | .hbm, ⟨16, _⟩ => ⟨S1x1x1, .i32⟩
  | .hbm, ⟨17, _⟩ => ⟨S1x2048x1, .i32⟩
  | .hbm, ⟨18, _⟩ => ⟨S1x2048x1, .i1⟩
  | .hbm, ⟨19, _⟩ => ⟨S1x2048x1, .i1⟩
  | .hbm, ⟨20, _⟩ => ⟨S_, .i1⟩
  | .hbm, ⟨21, _⟩ => ⟨S1x2048, .i1⟩
  | .hbm, ⟨22, _⟩ => ⟨S1x2048x128, .f32⟩
  | .hbm, ⟨23, _⟩ => ⟨S1x2048x128, .i1⟩
  | .hbm, ⟨24, _⟩ => ⟨S_, .f32⟩
  | .hbm, ⟨25, _⟩ => ⟨S1x2048x128, .f32⟩
  | .hbm, ⟨26, _⟩ => ⟨S1x2048x128, .f32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S1, .i32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S1x1, .i32⟩
  | .hbm, ⟨41, _⟩ => ⟨S2048x1, .i32⟩
  | .hbm, ⟨42, _⟩ => ⟨S2048x1, .i1⟩
  | .hbm, ⟨43, _⟩ => ⟨S2048x1, .i1⟩
  | .hbm, ⟨44, _⟩ => ⟨S_, .i1⟩
  | .hbm, ⟨45, _⟩ => ⟨S2048, .i1⟩
  | .hbm, ⟨46, _⟩ => ⟨S2048x128, .f32⟩
  | .hbm, ⟨47, _⟩ => ⟨S2048x128, .i1⟩
  | .hbm, ⟨48, _⟩ => ⟨S_, .f32⟩
  | .hbm, ⟨49, _⟩ => ⟨S2048x128, .f32⟩
  | .hbm, ⟨50, _⟩ => ⟨S2048x128, .f32⟩
  | .hbm, ⟨51, _⟩ => ⟨S1x2048x128, .f32⟩
  | .hbm, ⟨52, _⟩ => ⟨S1x2048x128, .f32⟩
  | .hbm, ⟨53, _⟩ => ⟨S128x50257, .f32⟩
  | .hbm, ⟨54, _⟩ => ⟨S1x2048x50257, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩

abbrev nD : Nat := 1
abbrev τ : Topo := Topo.v7x

variable {F : FTy → Type} [FloatOps F]

class Facts₀ : Prop where
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1_S1x1x1_2 : S1.BroadcastsInDim S1x1x1 (![2] : Fin 1 → Fin S1x1x1.rank)
  bcast_S1x1x1_S1x2048x1_0_1_2 : S1x1x1.BroadcastsInDim S1x2048x1 (![0, 1, 2] : Fin 3 → Fin S1x2048x1.rank)
  reducesTo_S1x2048x1_S1x2048_d2 : S1x2048x1.ReducesTo [2] S1x2048
  h_S_ : 0 < S_.numel
  bcast_S1x2048_S1x2048x128_0_1 : S1x2048.BroadcastsInDim S1x2048x128 (![0, 1] : Fin 2 → Fin S1x2048x128.rank)
  bcast_S_S1x2048x128 : S_.BroadcastsInDim S1x2048x128 (![] : Fin 0 → Fin S1x2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S2048x128_0 : S2048.BroadcastsInDim S2048x128 (![0] : Fin 1 → Fin S2048x128.rank)
  bcast_S_S2048x128 : S_.BroadcastsInDim S2048x128 (![] : Fin 0 → Fin S2048x128.rank)
  bcast_S2048x128_S1x2048x128_1_2 : S2048x128.BroadcastsInDim S1x2048x128 (![1, 2] : Fin 2 → Fin S1x2048x128.rank)
  transposes_S50257x128_S128x50257_1_0 : S50257x128.Transposes [1, 0] S128x50257
  gather_S50257x128_S1x2048x1_S1x2048x128_2_0_n_n_0_2_1128_wf : GatherDims.WF S50257x128 S1x2048x1 S1x2048x128 [2] [0] [] [0] [] 2 ![1, 128]
  gather_S2048x128_S2048x1_S2048x128_1_0_n_n_0_1_1128_wf : GatherDims.WF S2048x128 S2048x1 S2048x128 [1] [0] [] [0] [] 1 ![1, 128]
  dot_S1x2048x128_S128x50257_S1x2048x50257_2_0_01_1_n_n_wf : DotDims.WF S1x2048x128 S128x50257 S1x2048x50257 [2] [0] [0, 1] [1] [] []

variable [Facts₀]

def gather_S50257x128_S1x2048x1_S1x2048x128_2_0_n_n_0_2_1128 : GatherDims S50257x128 S1x2048x1 S1x2048x128 where
  offsetDims := [2]
  collapsedSliceDims := [0]
  operandBatchingDims := []
  startIndicesBatchingDims := []
  startIndexMap := [0]
  indexVectorDim := 2
  sliceSizes := ![1, 128]
  wf := gather_S50257x128_S1x2048x1_S1x2048x128_2_0_n_n_0_2_1128_wf
def gather_S2048x128_S2048x1_S2048x128_1_0_n_n_0_1_1128 : GatherDims S2048x128 S2048x1 S2048x128 where
  offsetDims := [1]
  collapsedSliceDims := [0]
  operandBatchingDims := []
  startIndicesBatchingDims := []
  startIndexMap := [0]
  indexVectorDim := 1
  sliceSizes := ![1, 128]
  wf := gather_S2048x128_S2048x1_S2048x128_1_0_n_n_0_1_1128_wf
def dot_S1x2048x128_S128x50257_S1x2048x50257_2_0_01_1_n_n : DotDims S1x2048x128 S128x50257 S1x2048x50257 where
  lhsContracting := [2]
  rhsContracting := [0]
  lhsNonContracting := [0, 1]
  rhsNonContracting := [1]
  lhsBatch := []
  rhsBatch := []
  wf := dot_S1x2048x128_S128x50257_S1x2048x50257_2_0_01_1_n_n_wf

class Facts : Prop extends Facts₀ where

variable [Facts]
-- ==== Proof.Algebra.lean ====
/-
  What the parts of the proof share: the program as the launch theorem of a SparseCore program sees it, the resource
  algebra (the handshakes' rounds, the pipeline's rounds, the transfers' counters, side by side), and the names of the
  arrays. Generic in the float instance.
-/
import proofs.«205851_g1529008357945_cont_week2b_587_25_alg».proof.Proof.Gen.KernelIdeal
import proofs.«205851_g1529008357945_cont_week2b_587_25_alg».proof.Proof.Gen.KernelIdeal.Skeleton
import proofs.«205851_g1529008357945_cont_week2b_587_25_alg».proof.Proof.Gen.KernelIdeal.Launch
import proofs.«205851_g1529008357945_cont_week2b_587_25_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature of the kernels lifted through the one TensorCore pipeline. -/
abbrev ΛP : Labels := Pipeline.Sig Λ₀ (Fin 1) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The kernels' body table, lifted. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The prefetched tables' admissible contents: no table. -/
abbrev adm : (p : Fin 1) → (pcfgs (F := F) p).Adm := fun p => (cfgs p).toPCfg_adm

/-- The arrays, as locations of device `d`: the index words, the token table, the position table, the output matrix;
    the reshaped index list, the gathered rows, the logits as a matrix, the result. -/
abbrev idxLoc (d : Dev nD) : Loc nD τ sig := (SparseCore.T d).loc main_arg0
abbrev tokLoc (d : Dev nD) : Loc nD τ sig := (SparseCore.T d).loc main_arg1
abbrev posLoc (d : Dev nD) : Loc nD τ sig := (SparseCore.T d).loc main_arg2
abbrev wLoc (d : Dev nD) : Loc nD τ sig := (SparseCore.T d).loc main_arg3
abbrev lstLoc (d : Dev nD) : Loc nD τ sig := (SparseCore.T d).loc main_v0
abbrev rowsLoc (d : Dev nD) : Loc nD τ sig := (SparseCore.T d).loc main_v1
abbrev matLoc (d : Dev nD) : Loc nD τ sig := (SparseCore.T d).loc main_v2
abbrev resLoc (d : Dev nD) : Loc nD τ sig := (SparseCore.T d).loc main_v3

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.KernelIdeal.Pf

end
-- ==== Proof.TileRes.lean ====
/-
  What one tile of the lookup kernel is handed and hands back.

  Tile `(c, s)` has worker number `2 s + c` and owns the 64 list positions and the 64 result rows from `64 (2 s + c)`
  on. It reads the whole token table (a share of it), its 64 index words, and writes its 64 rows: row `r` of the
  result is the table's row named by index word `r`.
-/
import proofs.«205851_g1529008357945_cont_week2b_587_25_alg».proof.Proof.Algebra
import Idealize.ShloMosaic.Lib.ValueIdx

noncomputable section

namespace Cert.KernelIdeal.Pf

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A tile's coordinates from its SparseCore and vector subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The arrays as a vector subcore names them. -/
abbrev tokM : Memref sig .scVector .hbm S50257x128 .f32 := Memref.whole main_arg1_scv
abbrev lstM : Memref sig .scVector .hbm S2048 .i32 := Memref.whole main_v0_scv
abbrev rowsM : Memref sig .scVector .hbm S2048x128 .f32 := Memref.whole main_v1_scv

/-- The tile's 64 list positions and its 64 result rows, as the kernel slices them. -/
abbrev lstSl (L : grid0.Coords) : Memref sig .scVector .hbm S64 .i32 :=
  lstM.slice (Rect.unit (s := S2048) (k0_off1 L) S64.size (k0_off1_inb L)) (fun _ => rfl)
abbrev rowsSl (L : grid0.Coords) : Memref sig .scVector .hbm S64x128 .f32 :=
  rowsM.slice (Rect.unit (s := S2048x128) (k0_off2 L) S64x128.size (k0_off2_inb L)) (fun _ => rfl)
abbrev idxSet (L : grid0.Coords) : Finset S2048.Idx := (lstSl L).view.set
abbrev rowSet (L : grid0.Coords) : Finset S2048x128.Idx := (rowsSl L).view.set

/-- The gathered rows as ONE whole-array function: entry `(r, f)` is the table's entry `(lst r, f)` (the index word read
    unsigned and clamped to the last row, so that the function is total). -/
def gathered (tok : S50257x128.Idx → Elt F .f32) (lst : S2048.Idx → BitVec 32) : S2048x128.Idx → Elt F .f32 :=
  fun j => tok (ix2 (⟨min (lst (ix1 (j 0))).toNat 50256, by omega⟩ : Fin 50257) (j 1))

variable (m : (ℓ : Loc nD τ sig) → Buf (Elt F) ℓ)

/-- What a tile is handed: a share `q` of the whole table, its list positions, its rows as launched; -/
def tileIn (d : Dev nD) (lst : Buf (Elt F) (lstLoc d)) (q : PosShare TreeShare) (L : grid0.Coords) : sProp 𝕄 :=
  iprop((tokLoc d ↦{q} m (tokLoc d)) ∗ (lstLoc d ↦[idxSet L]{fullShare} lst) ∗ rowsLoc d ↦[rowSet L]{fullShare} m (rowsLoc d))
/-- and what it hands back: the same, its rows holding the gathered rows. -/
def tileOut (d : Dev nD) (lst : Buf (Elt F) (lstLoc d)) (q : PosShare TreeShare) (L : grid0.Coords) : sProp 𝕄 :=
  iprop((tokLoc d ↦{q} m (tokLoc d)) ∗ (lstLoc d ↦[idxSet L]{fullShare} lst) ∗ rowsLoc d ↦[rowSet L]{fullShare} (gathered (m (tokLoc d)) lst : Buf (Elt F) (rowsLoc d)))

instance tileIn_storable (d : Dev nD) (lst : Buf (Elt F) (lstLoc d)) (q : PosShare TreeShare) (L : grid0.Coords) :
    BI.Storable (upEmb : UEmb _ 𝕄) (tileIn m d lst q L) := by unfold tileIn; infer_instance
instance tileOut_storable (d : Dev nD) (lst : Buf (Elt F) (lstLoc d)) (q : PosShare TreeShare) (L : grid0.Coords) :
    BI.Storable (upEmb : UEmb _ 𝕄) (tileOut m d lst q L) := by unfold tileOut; infer_instance

end Cert.KernelIdeal.Pf

end
-- ==== Proof.LibScSplit.lean ====
/-
  Cutting a points-to among the tiles of two SparseCores, and joining it again.

  Three ways an array held whole is cut, each an equation between the whole and the parts side by side:
  along the share (the share halved n times has 2 ^ n leaves; the full share halved five times gives one leaf per
  tile, numbered 16 * core + subcore); along a finite family of pairwise disjoint sets of elements that cover the array;
  and, for a rectangle's n equal parts along one axis, along any numbering of the parts by a finite type. Joining
  parts held at different contents gives the whole at some contents.
-/
import Idealize.ShloMosaic.Lib.SparseCore.Launch
import Idealize.ShloMosaic.Lib.Tactic

noncomputable section

namespace Cert.Lib.ScSplit

open Idealize.ShloMosaic
open Idealize.SL Idealize.SL.RA Idealize.SL.BI
open scoped Idealize.SL.BI
open Idealize.SL.BI.BIBase Idealize.SL.BI.Laws Idealize.SL.ProofMode Idealize.SL.Sem

/-! ## Sums over places -/

section BigSep

universe u
variable {M : Type u} [URA M]

/-- A sum over the numbers below 32 is a sum over core and subcore, number 16 * core + subcore. -/
theorem bigSep_range_places (Φ : ℕ → sProp M) :
    bigSep (Finset.range 32) Φ
      = bigSep Finset.univ fun c : Fin 2 => bigSep Finset.univ fun s : Fin 16 => Φ (16 * c.val + s.val) := by
  rw [← bigSep_univ_prod (fun p : Fin 2 × Fin 16 => Φ (16 * p.1.val + p.2.val))]
  have hinj : Function.Injective fun p : Fin 2 × Fin 16 => 16 * p.1.val + p.2.val := by
    rintro ⟨c, s⟩ ⟨c', s'⟩ h
    have h' : 16 * c.val + s.val = 16 * c'.val + s'.val := h
    have hc : c = c' := Fin.ext (by omega)
    have hs : s = s' := Fin.ext (by omega)
    rw [hc, hs]
  have hr : Finset.range 32 = (Finset.univ : Finset (Fin 2 × Fin 16)).map ⟨_, hinj⟩ := by
    ext i
    simp only [Finset.mem_range, Finset.mem_map, Finset.mem_univ, true_and, Function.Embedding.coeFn_mk, Prod.exists]
    constructor
    · intro hi
      exact ⟨⟨i / 16, by omega⟩, ⟨i % 16, by omega⟩, by simp only []; omega⟩
    · rintro ⟨c, s, rfl⟩
      omega
  rw [hr, bigSep_map]
  rfl

/-- A sum over two indices of a product is the product of the sums. -/
theorem bigSep2_sep {α β : Type} [Fintype α] [Fintype β] (Φ Ψ : α → β → sProp M) :
    (bigSep Finset.univ fun a => bigSep Finset.univ fun b => iprop(Φ a b ∗ Ψ a b))
      = iprop((bigSep Finset.univ fun a => bigSep Finset.univ fun b => Φ a b)
          ∗ bigSep Finset.univ fun a => bigSep Finset.univ fun b => Ψ a b) :=
  (bigSep_congr fun a _ => bigSep_sep' Finset.univ (Φ a) (Ψ a)).trans (bigSep_sep' Finset.univ _ _)

/-- A sum over ten indices, written out. -/
theorem bigSep_univ_ten (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

end BigSep

/-! ## The share halved n times -/

/-- Leaf i of the share q halved n times: the lower half of the numbers lies in the left half of q. -/
def leaf : ℕ → PosShare TreeShare → ℕ → PosShare TreeShare
  | 0, q, _ => q
  | n + 1, q, i => if i < 2 ^ n then leaf n q.left i else leaf n q.right (i - 2 ^ n)

/-- The share of the tile on core c, subcore s: leaf 16 * c + s of the full share halved five times. -/
def sh (c s : ℕ) : PosShare TreeShare := leaf 5 fullShare (16 * c + s)

section PointsTo

variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

variable {ℓ : Loc nD τ sig}

/-- A points-to at a share is its 2 ^ n leaves' side by side. -/
theorem pointsTo_leaves (I : Finset (Idx ℓ)) (f : Buf Val ℓ) :
    ∀ (n : ℕ) (q : PosShare TreeShare),
      (ℓ ↦[I]{q} f : sProp 𝕄) = bigSep (Finset.range (2 ^ n)) fun i => ℓ ↦[I]{leaf n q i} f
  | 0, q => by
    rw [show Finset.range (2 ^ 0) = {0} from rfl, bigSep_singleton]
    rfl
  | n + 1, q => by
    have hq : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hr : Finset.range (2 ^ (n + 1)) = Finset.range (2 ^ n) ∪ (Finset.range (2 ^ n)).map (addLeftEmbedding (2 ^ n)) := by
      rw [← Finset.range_add_eq_union, pow_succ, Nat.mul_two]
    have hd : Disjoint (Finset.range (2 ^ n)) ((Finset.range (2 ^ n)).map (addLeftEmbedding (2 ^ n))) := by
      rw [Finset.disjoint_left]
      intro i hi hi'
      obtain ⟨j, -, rfl⟩ := Finset.mem_map.mp hi'
      have hlt := Finset.mem_range.mp hi
      have e : (addLeftEmbedding (2 ^ n)) j = 2 ^ n + j := rfl
      omega
    rw [hq, pointsTo_leaves I f n q.left, pointsTo_leaves I f n q.right, hr, bigSep_union hd, bigSep_map]
    congr 1 <;> refine bigSep_congr fun i hi => ?_
    · rw [leaf, if_pos (Finset.mem_range.mp hi)]
    · have e : (addLeftEmbedding (2 ^ n)) i = 2 ^ n + i := rfl
      rw [e, leaf, if_neg (by omega), Nat.add_sub_cancel_left]

/-- The full share is the thirty-two tiles' shares side by side. -/
theorem pointsTo_sh (I : Finset (Idx ℓ)) (f : Buf Val ℓ) :
    (ℓ ↦[I]{fullShare} f : sProp 𝕄)
      = bigSep Finset.univ fun c : Fin 2 => bigSep Finset.univ fun s : Fin 16 => ℓ ↦[I]{sh c.val s.val} f :=
  (pointsTo_leaves I f 5 fullShare).trans (bigSep_range_places fun i => (ℓ ↦[I]{leaf 5 fullShare i} f : sProp 𝕄))

/-- A points-to on the whole array is the points-tos on a family of pairwise disjoint sets that cover it. -/
theorem pointsTo_cut {T : Type} [Fintype T] (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f : Buf Val ℓ) :
    (ℓ ↦[Finset.univ]{q} f : sProp 𝕄) = bigSep Finset.univ fun t => ℓ ↦[K t]{q} f := by
  rw [← pointsTo_biUnion Finset.univ K hd, hc]

/-- Points-tos on such a family, each at some contents, join to one on the whole array at some contents. -/
theorem pointsTo_glue {T : Type} [Fintype T] [DecidableEq T] (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f₀ : Buf Val ℓ) :
    (bigSep Finset.univ fun t => iprop(∃ f, ℓ ↦[K t]{q} f)) ⊢ (iprop(∃ f, ℓ ↦[Finset.univ]{q} f) : sProp 𝕄) := by
  have : Nonempty (Buf Val ℓ) := ⟨f₀⟩
  refine (bigSep_exists_pi Finset.univ (fun t (f : Buf Val ℓ) => (ℓ ↦[K t]{q} f : sProp 𝕄))).trans ?_
  iintro ⟨%fs, H⟩
  ihave H' := (pointsTo_biUnion_join (ℓ := ℓ) (q := q) (Val := Val) Finset.univ K fs f₀ hd) $$ H
  icases H' with ⟨%g, -, Hg⟩
  rw [hc]
  iexists g; iexact Hg

end PointsTo

/-! ## A rectangle's parts along an axis, numbered by a finite type -/

section Parts

variable {s : Shape} {a₀ : Fin s.rank} {n : ℕ} (hn : n ∣ s.size a₀) {T : Type} [Fintype T] (num : T → Fin n)

/-- Two unit-stride rectangles of equal offsets and sizes are one. -/
theorem unit_congr {off size off' size' : Fin s.rank → ℕ} {inb : ∀ a, off a + size a ≤ s.size a}
    {inb' : ∀ a, off' a + size' a ≤ s.size a} (ho : off = off') (hs : size = size') :
    Rect.unit off size inb = Rect.unit off' size' inb' := by
  subst ho; subst hs; rfl

/-- Parts of different numbers are disjoint. -/
theorem parts_disjoint (hinj : Function.Injective num) :
    ∀ t ∈ (Finset.univ : Finset T), ∀ t' ∈ (Finset.univ : Finset T), t ≠ t' →
      Disjoint (Rect.part hn (num t)).set (Rect.part hn (num t')).set :=
  fun _ _ _ _ h => Rect.part_disjoint hn fun e => h (hinj e)

/-- Every element lies in a part. -/
theorem parts_cover (hsurj : Function.Surjective num) :
    (Finset.univ : Finset T).biUnion (fun t => (Rect.part hn (num t)).set) = Finset.univ := by
  ext i
  simp only [Finset.mem_biUnion, Finset.mem_univ, true_and, iff_true]
  obtain ⟨j, hj⟩ := Rect.exists_mem_part hn i
  obtain ⟨t, rfl⟩ := hsurj j
  exact ⟨t, hj⟩

end Parts

end Cert.Lib.ScSplit

end
-- ==== Proof.Pay.lean ====
/-
  What the handshakes of the one SparseCore call carry, how a SparseCore's operands split among its tiles, and the
  launch element of the ghost state.

  The call takes, per SparseCore, its sixteen tiles' operands side by side — for tile `(c, s)` a leaf share of the
  whole token table, its 64 list positions, its 64 result rows — and brings the same back, the rows gathered. So the
  split of a SparseCore's operands into its tasks' is the identity, and @main does the cutting.
-/
import proofs.«205851_g1529008357945_cont_week2b_587_25_alg».proof.Proof.TileRes
import proofs.«205851_g1529008357945_cont_week2b_587_25_alg».proof.Proof.LibScSplit

noncomputable section

namespace Cert.KernelIdeal.Pf

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.ScSplit (sh)

variable {F : FTy → Type} [FloatOps F]

local notation "𝕄" => MT nD τ sig (HIx 1) (Elt F) ℕ UU ℕ

variable (m : (ℓ : Loc nD τ sig) → Buf (Elt F) ℓ) (ρ : Dev nD → PrngReg)

/-- The reshaped index words: what the list holds when the call starts. -/
def lstOf (d : Dev nD) : Buf (Elt F) (lstLoc d) :=
  (shapeCast S2048 (m (idxLoc d) : IVec S1x2048 32) shapeCasts_S1x2048_S2048 : IVec S2048 32)

/-- Tile `(c, s)`'s operands and results. -/
abbrev tIn (d : Dev nD) (c : Fin 2) (s : Fin 16) : sProp 𝕄 := tileIn m d (lstOf m d) (sh c.val s.val) (coordsV c s)
abbrev tOut (d : Dev nD) (c : Fin 2) (s : Fin 16) : sProp 𝕄 := tileOut m d (lstOf m d) (sh c.val s.val) (coordsV c s)

instance tIn_storable (d : Dev nD) (c : Fin 2) (s : Fin 16) : BI.Storable (upEmb : UEmb _ 𝕄) (tIn m d c s) := tileIn_storable m d _ _ _
instance tOut_storable (d : Dev nD) (c : Fin 2) (s : Fin 16) : BI.Storable (upEmb : UEmb _ 𝕄) (tOut m d c s) := tileOut_storable m d _ _ _

/-- The payloads: per SparseCore its sixteen tiles' operands, per tile its own; nothing of the launch's consumed. -/
def P : (K (F := F)).Pay (nD := nD) (Val := Elt F) (Name := ℕ) (U := UU) where
  st := fun q d c => match q with | 0 => bigSep Finset.univ fun s : Fin 16 => tIn m d (Fin.cast nCore_zero c) s
  dn := fun q d c => match q with | 0 => bigSep Finset.univ fun s : Fin 16 => tOut m d (Fin.cast nCore_zero c) s
  go := fun q d c i => match q with | 0 => tIn m d (Fin.cast nCore_zero c) (Fin.cast nSub_zero i)
  td := fun q d c i => match q with | 0 => tOut m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => tIn m d (Fin.cast nCore_zero c) s))
  dn q d c := match q with
    | 0 => (inferInstance : BI.Storable (upEmb : UEmb _ 𝕄) (bigSep Finset.univ fun s : Fin 16 => tOut m d (Fin.cast nCore_zero c) s))
  go q d c i := match q with
    | 0 => (inferInstance : BI.Storable (upEmb : UEmb _ 𝕄) (tIn m d (Fin.cast nCore_zero c) (Fin.cast nSub_zero i)))
  td q d c i := match q with
    | 0 => (inferInstance : BI.Storable (upEmb : UEmb _ 𝕄) (tOut m d (Fin.cast nCore_zero c) (Fin.cast nSub_zero i)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands ARE its tasks' operands side by side. -/
theorem vecSplit : (K (F := F)).VecSplit' (P m) 0 := by
  intro d c
  show (bigSep Finset.univ fun s : Fin 16 => tIn m d (Fin.cast nCore_zero c) s) ⊢ |={Set.univ}=> iprop(
      (bigSep Finset.univ fun i : Fin ((K (F := F)).nSub 0) => tIn m d (Fin.cast nCore_zero c) (Fin.cast nSub_zero i))
      ∗ ((bigSep Finset.univ fun i : Fin ((K (F := F)).nSub 0) => tOut m d (Fin.cast nCore_zero c) (Fin.cast nSub_zero i))
          -∗ bigSep Finset.univ fun s : Fin 16 => tOut m d (Fin.cast nCore_zero c) s))
  rw [bigSep_tasks (F := F) (fun s => tIn m d (Fin.cast nCore_zero c) s), bigSep_tasks (F := F) (fun s => tOut m d (Fin.cast nCore_zero c) s)]
  iintro H; imodintro
  isplitl [H]; · iexact H
  iintro H; iexact H

/-! ## The launch element -/

/-- The handshakes' rounds, the pipeline's rounds at its staging cells, no counter yet. -/
def u₀ : UU := (initOf (K (F := F)).hsCells (K (F := F)).hsToks,
  (initOf (Pipeline.cells cfgs cellOf_inj) (Pipeline.launchToks cfgs cellOf_inj), 1))

/-- What @main's proof starts from, per device: the pipeline's cells' ghost state and its transfers' duty tokens. -/
def G (d : Dev nD) : sProp 𝕄 :=
  iprop(Pipeline.cellsGhost (nD := nD) (τ := τ) cfgs EP (0 : Fin 1) d ∗ Pipeline.toksInit (nD := nD) (τ := τ) cfgs EP (0 : Fin 1) d)

omit [FloatOps F] in
theorem bigSep_emp' {I : Type} (s : Finset I) : (bigSep s fun _ => iprop(emp)) = (iprop(emp) : sProp 𝕄) := bigSep_emp_const s

omit [FloatOps F] in
theorem ownU_split (a : UH) (b : UP) (c : Counters) :
    (ownU ((a, (b, c)) : UU) : sProp 𝕄) ⊢ iprop(BI.own (EH a) ∗ BI.own (EP b)) := by
  iintro Hu
  ihave H := (ownU_pair _ _) $$ Hu
  icases H with ⟨HH, HR⟩
  isplitl [HH]; · iexact HH
  ihave H2 := (own_pair_emb (embR (A := UH) (B := UP × Counters)) b c) $$ HR
  icases H2 with ⟨HP, -⟩
  iexact HP

omit [FloatOps F] in
theorem ghost_eq : (bigSep Finset.univ fun c : Dev nD => bigSep Finset.univ fun p : Fin 1 => (Pipeline.cellsGhost (nD := nD) (τ := τ) cfgs EP p c : sProp 𝕄))
    = bigSep Finset.univ fun d : Dev nD => Pipeline.cellsGhost (nD := nD) (τ := τ) cfgs EP (0 : Fin 1) d :=
  bigSep_congr fun d _ => bigSep_univ_of_subsingleton (0 : Fin 1)
omit [FloatOps F] in
theorem toks_eq : (bigSep Finset.univ fun c : Dev nD => bigSep Finset.univ fun p : Fin 1 => (Pipeline.toksInit (nD := nD) (τ := τ) cfgs EP p c : sProp 𝕄))
    = bigSep Finset.univ fun d : Dev nD => Pipeline.toksInit (nD := nD) (τ := τ) cfgs EP (0 : Fin 1) d :=
  bigSep_congr fun d _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost (nD := nD) (τ := τ) cfgs EP cellOf_inj) $$ HP with ⟨Hg, Ht⟩
  imodintro
  isplitl [HH]; · iexact HH
  isplitl [Hg Ht]
  · unfold G
    rw [bigSep_sep']
    isplitl [Hg]
    · iapply (Entails.of_eq (ghost_eq (F := F))); iexact Hg
    · iapply (Entails.of_eq (toks_eq (F := F))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Pf

end
-- ==== Proof.PipeData.lean ====
/-
  The proof data of the one pipelined matrix product: what each window's staging buffer holds after the body at each
  of the twenty-five points. The two whole-array operands hold the arrays; the weight window holds block `t` of the
  weight matrix, filled out past the matrix's last row with the zero word; the result window holds what the caller
  names. No invariant, nothing owed, full shares; the recorded wait pairs bounded by what the caller names.
-/
import proofs.«205851_g1529008357945_cont_week2b_587_25_alg».proof.Proof.Algebra

noncomputable section

namespace Cert.KernelIdeal.Pf

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-- Block `t` of the weight matrix as the fetch reads it: its rows inside the matrix (2048 of them at points 0‥23,
    1105 at point 24). -/
def wblk (Vv : (c : Dev nD) → (b : Ref sig .tc) → Buf (Elt F) ((c.tc : Thread nD τ).loc b)) (c : Dev nD) (t : Fin cfg1.N) :
    (win1_2.xblock (grid1.coords t)).Idx → Elt F .f32 :=
  (win1_2.blk t).view.read (Elt F) (Vv c main_arg3)

/-- The same filled out to the staging buffer's 2048 rows with the zero word (nothing reads the filler). -/
def wblkF (Vv : (c : Dev nD) → (b : Ref sig .tc) → Buf (Elt F) ((c.tc : Thread nD τ).loc b)) (c : Dev nD) (t : Fin cfg1.N) :
    S2048x128.Idx → Elt F .f32 :=
  win1_2.fill (grid1.coords t) (fun _ => Scalar.ofBits .f32 0#32) (wblk Vv c t)

/-- The proof data of the pipeline on device `c`'s TensorCore. -/
def dats (Vv : (c : Dev nD) → (b : Ref sig .tc) → Buf (Elt F) ((c.tc : Thread nD τ).loc b))
    (aft3 : (c : Dev nD) → Fin cfg1.N → (S2048x2048.Idx → Elt F .f32))
    (rcd : (c : Dev nD) → Set (SemLoc sig × HIx 1)) (_ : Fin 1) (c : Dev nD) :
    Pipeline.Dat τ (Elt F) (HIx 1) ℕ UU ℕ cfg1 c where
  A w := Vv c (Pipeline.arrRef spec1 w)
  after w t := match w with
    | ⟨0, _⟩ => Vv c main_v1
    | ⟨1, _⟩ => Vv c main_arg2
    | ⟨2, _⟩ => wblkF Vv c t
    | ⟨3, _⟩ => aft3 c t
  Φ _ := iprop(emp)
  q _ := fullShare
  owed _ := 0
  recorded _ := rcd c

end Cert.KernelIdeal.Pf

end
-- ==== Proof.Region.lean ====
/-
  The pipelined matrix product as one region of @main, entered on the TensorCore in the middle of a program that also
  runs a SparseCore call: from the core's unscoped buffers at a valuation `Vv` and what the core owes (nothing), the
  custom call runs the twenty-five points and leaves the four windowed arrays at contents they may hold after every
  write-back, the other buffers as they were, and the core owing nothing still.

  The proof data is read relationally, with the windows a mask marks forgotten: the frame forgets the result window,
  the value claim forgets none.
-/
import proofs.«205851_g1529008357945_cont_week2b_587_25_alg».proof.Proof.Pay
import proofs.«205851_g1529008357945_cont_week2b_587_25_alg».proof.Proof.PipeData

noncomputable section

namespace Cert.KernelIdeal.Pf

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F] [∀ e, Nonempty (Elt F e)]

local notation "𝕄" => MT nD τ sig (HIx 1) (Elt F) ℕ UU ℕ

variable (Vv : (c : Dev nD) → (b : Ref sig .tc) → Buf (Elt F) ((c.tc : Thread nD τ).loc b))
  (aft3 : (c : Dev nD) → Fin cfg1.N → (S2048x2048.Idx → Elt F .f32))
  (rcd : (c : Dev nD) → Set (SemLoc sig × HIx 1)) (fgt : Fin 4 → Bool)

/-- The proof data read relationally, the masked windows forgotten. -/
abbrev rd (p : Fin 1) (c : Dev nD) : RDat τ (Elt F) (HIx 1) ℕ UU ℕ (Pipeline.pin (pcfgs (F := F)) adm p) c :=
  (dats Vv aft3 rcd p c).toRForget fgt

/-- The levels of the whole program's handshakes: the region's waits sit at index `none`, below all of them. -/
abbrev LL : GSem nD τ sig → Finset (HIx 1) := (K (F := F)).L
abbrev lvv : GSem nD τ sig → HIx 1 → ℕ := (K (F := F)).lev

theorem share_full (c : Dev nD) (w : Fin 4) : (rd Vv aft3 rcd fgt 0 c).share w = fullShare :=
  (dats Vv aft3 rcd 0 c).share_full (fun _ => rfl) w

-- the region record's fields are stated over `pin pcfgs adm 0`, which is `cfg1` by unfolding plain definitions
set_option backward.isDefEq.respectTransparency.types false in
/-- The region. -/
def reg (hbody : ∀ c, BodyObligationLoose (dats Vv aft3 rcd 0 c) (defs₀ (F := F)) 𝒱₀ (none : HIx 1) Set.univ fgt) :
    Pipeline.RDat.RegionSeg (pcfgs (F := F)) adm (rd Vv aft3 rcd fgt) (none : HIx 1) defs₀ 𝒱₀ (LL (F := F)) (lvv (F := F)) 0 where
  win := launch1.win.to₀
  block_pos := launch1.block_pos
  stage_whole := launch1.stage_whole
  K := PEmpty
  osem k := k.elim
  ho := Pipeline.OwnSemFacts.none _
  hbody c := (hbody c).toRForget
  hwaits := Pipeline.RDat.hwaits_of_owed_zero _ _ _ _ (LL (F := F)) (lvv (F := F)) 0 fun _ _ => rfl
  pre c := iprop(unscopedBufs c (Vv c) ∗ ∃ W : Waits sig (HIx 1), ⌜(↑W : Set (SemLoc sig × HIx 1)) ⊆ rcd c⌝ ∗ owes (c.tc : Thread nD τ) (0 : CellTallies nD τ sig (HIx 1)) W)
  post c := iprop((rd Vv aft3 rcd fgt 0 c).arraysAt cfg1.N ∗ Pipeline.unscopedRest spec1 c (Vv c)
    ∗ (rd Vv aft3 rcd fgt 0 c).owesAt (none : HIx 1) (Fin.last cfg1.N))
  X _ := iprop(emp)
  Y _ := iprop(emp)
  Z c := Pipeline.unscopedRest spec1 c (Vv c)
  hentry c := by
    rw [Pipeline.ownSems0_none]
    iintro ⟨⟨Hub, HO⟩, -, -⟩
    ihave H := (Pipeline.RDat.arrays_of_unscopedBufs (pcfgs (F := F)) adm (rd Vv aft3 rcd fgt) launch1.win launch1.arr_whole c
      (share_full Vv aft3 rcd fgt c) (Vv c) (fun _ => rfl)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW hp)
      iexact HO
    isplitr; · iempintro
    iexact Hrest
  hin c := by
    rw [show (rd Vv aft3 rcd fgt 0 c).Φ 0 = iprop(emp) from rfl]
    iintro -; iempintro
  hout c := by
    rw [Pipeline.ownSems0_none, scopedRest1_eq]
    iintro -
    isplitr; · iempintro
    isplitr <;> iempintro
  hexit c := by
    iintro ⟨Ha, HO, -, HZ⟩
    imodintro
    isplitl [Ha]; · iexact Ha
    isplitl [HZ]; · iexact HZ
    iexact HO

end Cert.KernelIdeal.Pf

end
-- ==== Proof.Split.lean ====
/-
  @main's cutting of the call's operands: the whole token table as thirty-two leaf shares, the index list and the result
  rows each as the thirty-two tiles' own 64 positions — and the gluing back, the rows holding the gathered rows.

  Tile `(c, s)` takes the 64 list positions (and the 64 rows) from `128 s + 64 c` on: part number `2 s + c` of the 32
  equal parts along the first axis.  The numbering is a bijection from the 2 × 16 tiles to the 32 parts, so the tiles'
  sets are pairwise disjoint and cover the array, and a points-to on the whole array is the tiles' points-tos side by
  side.  The table is cut along its share instead.  Each cut is an equation, read one way to hand the operands out and
  the other way to take the results back.
-/
import proofs.«205851_g1529008357945_cont_week2b_587_25_alg».proof.Proof.Pay

noncomputable section

namespace Cert.KernelIdeal.Pf

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.ScSplit (sh)

variable {F : FTy → Type} [FloatOps F]

local notation "𝕄" => MT nD τ sig (HIx 1) (Elt F) ℕ UU ℕ

/-! ## The tiles' numbering of the 32 parts -/

/-- Tile `(c, s)` owns part `2 s + c`. -/
def num (p : Fin 2 × Fin 16) : Fin 32 := ⟨2 * p.2.val + p.1.val, by have := p.1.isLt; have := p.2.isLt; omega⟩

theorem num_inj : Function.Injective num := by
  rintro ⟨c, s⟩ ⟨c', s'⟩ h
  have h' : 2 * s.val + c.val = 2 * s'.val + c'.val := congrArg Fin.val h
  have hc : c = c' := Fin.ext (by omega)
  have hs : s = s' := Fin.ext (by omega)
  rw [hc, hs]

theorem num_surj : Function.Surjective num := fun j =>
  ⟨(⟨j.val % 2, by omega⟩, ⟨j.val / 2, by omega⟩), Fin.ext (by show 2 * (j.val / 2) + j.val % 2 = j.val; omega)⟩

theorem hdiv1 : 32 ∣ S2048.size 0 := ⟨64, rfl⟩
theorem hdiv2 : 32 ∣ S2048x128.size 0 := ⟨64, rfl⟩

/-- The tile's list positions are its part of the list. -/
theorem idxRect_eq (p : Fin 2 × Fin 16) :
    Rect.unit (s := S2048) (k0_off1 (coordsV p.1 p.2)) S64.size (k0_off1_inb (coordsV p.1 p.2))
      = Rect.part (s := S2048) (a₀ := 0) hdiv1 (num p) := by
  refine Cert.Lib.ScSplit.unit_congr ?_ ?_
  · rw [k0_off1_eq]
    funext a
    match a with
    | 0 => simp [Shape.partIx, Shape.partSize, num, coordsV]; omega
  · funext a
    match a with
    | 0 => simp [Shape.partSize]

/-- The tile's rows are its part of the rows. -/
theorem rowRect_eq (p : Fin 2 × Fin 16) :
    Rect.unit (s := S2048x128) (k0_off2 (coordsV p.1 p.2)) S64x128.size (k0_off2_inb (coordsV p.1 p.2))
      = Rect.part (s := S2048x128) (a₀ := 0) hdiv2 (num p) := by
  refine Cert.Lib.ScSplit.unit_congr ?_ ?_
  · rw [k0_off2_eq]
    funext a
    match a with
    | 0 => simp [Shape.partIx, Shape.partSize, num, coordsV]; omega
    | 1 => simp [Shape.partIx, Shape.partSize]
  · funext a
    match a with
    | 0 => simp [Shape.partSize]
    | 1 => simp [Shape.partSize]

theorem idxSet_part (p : Fin 2 × Fin 16) :
    idxSet (coordsV p.1 p.2) = (Rect.part (s := S2048) (a₀ := 0) hdiv1 (num p)).set := by
  show ((View.whole (main_v0_scv : Ref sig .scVector)).slice
      (Rect.unit (s := S2048) (k0_off1 (coordsV p.1 p.2)) S64.size (k0_off1_inb (coordsV p.1 p.2)))).set = _
  rw [View.set_slice, idxRect_eq]; exact Finset.map_refl

theorem rowSet_part (p : Fin 2 × Fin 16) :
    rowSet (coordsV p.1 p.2) = (Rect.part (s := S2048x128) (a₀ := 0) hdiv2 (num p)).set := by
  show ((View.whole (main_v1_scv : Ref sig .scVector)).slice
      (Rect.unit (s := S2048x128) (k0_off2 (coordsV p.1 p.2)) S64x128.size (k0_off2_inb (coordsV p.1 p.2)))).set = _
  rw [View.set_slice, rowRect_eq]; exact Finset.map_refl

theorem idx_disjoint : ∀ t ∈ (Finset.univ : Finset (Fin 2 × Fin 16)), ∀ t' ∈ (Finset.univ : Finset (Fin 2 × Fin 16)), t ≠ t' →
    Disjoint (idxSet (coordsV t.1 t.2)) (idxSet (coordsV t'.1 t'.2)) := by
  intro t ht t' ht' h
  rw [idxSet_part, idxSet_part]
  exact Cert.Lib.ScSplit.parts_disjoint hdiv1 num num_inj t ht t' ht' h

theorem idx_cover : (Finset.univ : Finset (Fin 2 × Fin 16)).biUnion (fun p => idxSet (coordsV p.1 p.2)) = Finset.univ :=
  (Finset.biUnion_congr rfl fun p _ => idxSet_part p).trans (Cert.Lib.ScSplit.parts_cover hdiv1 num num_surj)

theorem row_disjoint : ∀ t ∈ (Finset.univ : Finset (Fin 2 × Fin 16)), ∀ t' ∈ (Finset.univ : Finset (Fin 2 × Fin 16)), t ≠ t' →
    Disjoint (rowSet (coordsV t.1 t.2)) (rowSet (coordsV t'.1 t'.2)) := by
  intro t ht t' ht' h
  rw [rowSet_part, rowSet_part]
  exact Cert.Lib.ScSplit.parts_disjoint hdiv2 num num_inj t ht t' ht' h

theorem row_cover : (Finset.univ : Finset (Fin 2 × Fin 16)).biUnion (fun p => rowSet (coordsV p.1 p.2)) = Finset.univ :=
  (Finset.biUnion_congr rfl fun p _ => rowSet_part p).trans (Cert.Lib.ScSplit.parts_cover hdiv2 num num_surj)

/-! ## The three cuts -/

omit [FloatOps F] in
/-- The list whole is the tiles' positions side by side. -/
theorem lst_cut (d : Dev nD) (f : Buf (Elt F) (lstLoc d)) :
    (lstLoc d ↦{fullShare} f : sProp 𝕄)
      = bigSep Finset.univ fun c : Fin 2 => bigSep Finset.univ fun s : Fin 16 => lstLoc d ↦[idxSet (coordsV c s)]{fullShare} f := by
  rw [Cert.Lib.ScSplit.pointsTo_cut (ℓ := lstLoc d) (fun p : Fin 2 × Fin 16 => idxSet (coordsV p.1 p.2)) idx_disjoint idx_cover
    fullShare f, bigSep_univ_prod]

omit [FloatOps F] in
/-- The rows whole are the tiles' rows side by side. -/
theorem rows_cut (d : Dev nD) (f : Buf (Elt F) (rowsLoc d)) :
    (rowsLoc d ↦{fullShare} f : sProp 𝕄)
      = bigSep Finset.univ fun c : Fin 2 => bigSep Finset.univ fun s : Fin 16 => rowsLoc d ↦[rowSet (coordsV c s)]{fullShare} f := by
  rw [Cert.Lib.ScSplit.pointsTo_cut (ℓ := rowsLoc d) (fun p : Fin 2 × Fin 16 => rowSet (coordsV p.1 p.2)) row_disjoint row_cover
    fullShare f, bigSep_univ_prod]

omit [FloatOps F] in
/-- The table at the full share is the table at the tiles' shares side by side. -/
theorem tok_cut (d : Dev nD) (f : Buf (Elt F) (tokLoc d)) :
    (tokLoc d ↦{fullShare} f : sProp 𝕄)
      = bigSep Finset.univ fun c : Fin 2 => bigSep Finset.univ fun s : Fin 16 => tokLoc d ↦{sh c.val s.val} f :=
  Cert.Lib.ScSplit.pointsTo_sh Finset.univ f

omit [FloatOps F] in
/-- The three arrays whole are the tiles' triples side by side, whatever the rows hold. -/
theorem split_eq (d : Dev nD) (ft : Buf (Elt F) (tokLoc d)) (fl : Buf (Elt F) (lstLoc d)) (fr : Buf (Elt F) (rowsLoc d)) :
    (iprop((tokLoc d ↦{fullShare} ft) ∗ (lstLoc d ↦{fullShare} fl) ∗ (rowsLoc d ↦{fullShare} fr)) : sProp 𝕄)
      = bigSep Finset.univ fun c : Fin 2 => bigSep Finset.univ fun s : Fin 16 =>
          iprop((tokLoc d ↦{sh c.val s.val} ft) ∗ (lstLoc d ↦[idxSet (coordsV c s)]{fullShare} fl)
            ∗ rowsLoc d ↦[rowSet (coordsV c s)]{fullShare} fr) := by
  rw [Cert.Lib.ScSplit.bigSep2_sep (fun (c : Fin 2) (s : Fin 16) => (tokLoc d ↦{sh c.val s.val} ft : sProp 𝕄))
      (fun (c : Fin 2) (s : Fin 16) => iprop((lstLoc d ↦[idxSet (coordsV c s)]{fullShare} fl)
        ∗ rowsLoc d ↦[rowSet (coordsV c s)]{fullShare} fr)),
    Cert.Lib.ScSplit.bigSep2_sep (fun (c : Fin 2) (s : Fin 16) => (lstLoc d ↦[idxSet (coordsV c s)]{fullShare} fl : sProp 𝕄))
      (fun (c : Fin 2) (s : Fin 16) => (rowsLoc d ↦[rowSet (coordsV c s)]{fullShare} fr : sProp 𝕄)),
    ← tok_cut, ← lst_cut, ← rows_cut]

omit [FloatOps F] in
/-- A sum over the call's SparseCores is a sum over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ)

/-- The three arrays whole are every tile's operands. -/
theorem st_intro (d : Dev nD) :
    iprop((tokLoc d ↦{fullShare} m (tokLoc d)) ∗ (lstLoc d ↦{fullShare} lstOf m d) ∗ (rowsLoc d ↦{fullShare} m (rowsLoc d)))
      ⊢ (bigSep Finset.univ fun c : Fin ((K (F := F)).nCore 0) => (P m).st 0 d c : sProp 𝕄) := by
  show _ ⊢ (bigSep Finset.univ fun c : Fin ((K (F := F)).nCore 0) =>
    bigSep Finset.univ fun s : Fin 16 => tIn m d (Fin.cast nCore_zero c) s)
  rw [bigSep_cores (F := F) (fun c => bigSep Finset.univ fun s : Fin 16 => tIn m d c s)]
  exact Entails.of_eq (split_eq d (m (tokLoc d)) (lstOf m d) (m (rowsLoc d)))

/-- Every tile's results are the three arrays whole, the rows gathered. -/
theorem dn_elim (d : Dev nD) :
    (bigSep Finset.univ fun c : Fin ((K (F := F)).nCore 0) => (P m).dn 0 d c : sProp 𝕄)
      ⊢ iprop((tokLoc d ↦{fullShare} m (tokLoc d)) ∗ (lstLoc d ↦{fullShare} lstOf m d)
          ∗ (rowsLoc d ↦{fullShare} (gathered (m (tokLoc d)) (lstOf m d) : Buf (Elt F) (rowsLoc d)))) := by
  show (bigSep Finset.univ fun c : Fin ((K (F := F)).nCore 0) =>
    bigSep Finset.univ fun s : Fin 16 => tOut m d (Fin.cast nCore_zero c) s) ⊢ _
  rw [bigSep_cores (F := F) (fun c => bigSep Finset.univ fun s : Fin 16 => tOut m d c s)]
  exact Entails.of_eq (split_eq d (m (tokLoc d)) (lstOf m d) (gathered (m (tokLoc d)) (lstOf m d) : Buf (Elt F) (rowsLoc d))).symm

end Cert.KernelIdeal.Pf

end
-- ==== Proof.MainAux.lean ====
/-
  Bookkeeping for @main on the TensorCore: the eight arrays of the program one by one, the valuations the two
  reshapes and the region run at, and what each reshape leaves.
-/
import proofs.«205851_g1529008357945_cont_week2b_587_25_alg».proof.Proof.Region
import proofs.«205851_g1529008357945_cont_week2b_587_25_alg».proof.Proof.Split

noncomputable section

namespace Cert.KernelIdeal.Pf

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ)

/-- The arrays as device buffers. -/
abbrev idx' : DevRef τ sig := Proc.devRef .tc (main_arg0 : Ref sig .tc)
abbrev tok' : DevRef τ sig := Proc.devRef .tc (main_arg1 : Ref sig .tc)
abbrev pos' : DevRef τ sig := Proc.devRef .tc (main_arg2 : Ref sig .tc)
abbrev w' : DevRef τ sig := Proc.devRef .tc (main_arg3 : Ref sig .tc)
abbrev lst' : DevRef τ sig := Proc.devRef .tc (main_v0 : Ref sig .tc)
abbrev rows' : DevRef τ sig := Proc.devRef .tc (main_v1 : Ref sig .tc)
abbrev mat' : DevRef τ sig := Proc.devRef .tc (main_v2 : Ref sig .tc)
abbrev res' : DevRef τ sig := Proc.devRef .tc (main_v3 : Ref sig .tc)

/-- The two reshapes. -/
abbrev op1 : HloOp τ sig (Elt F) := StableHlo.reshape main_arg0 main_v0 rfl shapeCasts_S1x2048_S2048
abbrev op2 : HloOp τ sig (Elt F) := StableHlo.reshape main_v2 main_v3 rfl shapeCasts_S2048x50257_S1x2048x50257

omit [FloatOps F] in
/-- The TensorCore's unscoped buffers are the program's eight arrays. -/
theorem unscopedBufs_eq (d : Dev nD) (W : (b : Ref sig .tc) → Buf (Elt F) ((d.tc : Thread nD τ).loc b)) :
    (unscopedBufs d W : sProp 𝕄) = iprop((idxLoc d ↦{fullShare} W main_arg0) ∗ (tokLoc d ↦{fullShare} W main_arg1)
      ∗ (posLoc d ↦{fullShare} W main_arg2) ∗ (wLoc d ↦{fullShare} W main_arg3) ∗ (lstLoc d ↦{fullShare} W main_v0)
      ∗ (rowsLoc d ↦{fullShare} W main_v1) ∗ (matLoc d ↦{fullShare} W main_v2) ∗ resLoc d ↦{fullShare} W main_v3) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation of device `d`. -/
def V0 (d : Dev nD) : Valuation τ sig (Elt F) := fun b => m (d, b)

omit [FloatOps F] in
theorem held_two (d : Dev nD) (a b : DevRef τ sig) (hab : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (by simpa using hab), bigSep_singleton]

end Cert.KernelIdeal.Pf

end
-- ==== Proof.Main.lean ====
/-
  @main on the TensorCore: the reshape of the index words, the SparseCore call (the operands cut among the tiles, the
  gathered rows glued back), the pipelined matrix product as a region, the reshape of the result.
-/
import proofs.«205851_g1529008357945_cont_week2b_587_25_alg».proof.Proof.MainAux

noncomputable section

namespace Cert.KernelIdeal.Pf

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat RDat BodyObligationLoose)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The valuation the region is entered at: the list reshaped, the rows gathered, the rest as launched. -/
def Vent (d : Dev nD) : Valuation τ sig (Elt F) :=
  Function.update (Function.update (V0 m d) lst' (lstOf m d)) rows' (gathered (m (tokLoc d)) (lstOf m d) : Buf (Elt F) (rowsLoc d))
abbrev Vv (d : Dev nD) (b : Ref sig .tc) : Buf (Elt F) ((d.tc : Thread nD τ).loc b) := Vent m d b

theorem Vent_idx (d : Dev nD) : Vent m d idx' = m (idxLoc d) := (Function.update_of_ne (by decide) _ _).trans (Function.update_of_ne (by decide) _ _)
theorem Vent_tok (d : Dev nD) : Vent m d tok' = m (tokLoc d) := (Function.update_of_ne (by decide) _ _).trans (Function.update_of_ne (by decide) _ _)
theorem Vent_pos (d : Dev nD) : Vent m d pos' = m (posLoc d) := (Function.update_of_ne (by decide) _ _).trans (Function.update_of_ne (by decide) _ _)
theorem Vent_w (d : Dev nD) : Vent m d w' = m (wLoc d) := (Function.update_of_ne (by decide) _ _).trans (Function.update_of_ne (by decide) _ _)
theorem Vent_mat (d : Dev nD) : Vent m d mat' = m (matLoc d) := (Function.update_of_ne (by decide) _ _).trans (Function.update_of_ne (by decide) _ _)
theorem Vent_res (d : Dev nD) : Vent m d res' = m (resLoc d) := (Function.update_of_ne (by decide) _ _).trans (Function.update_of_ne (by decide) _ _)
theorem Vent_lst (d : Dev nD) : Vent m d lst' = lstOf m d := (Function.update_of_ne (by decide) _ _).trans (Function.update_self _ _ _)
theorem Vent_rows (d : Dev nD) : Vent m d rows' = (gathered (m (tokLoc d)) (lstOf m d) : Buf (Elt F) (rowsLoc d)) := Function.update_self _ _ _

/-- The bound on the TensorCore's recorded wait pairs across the region: at or below the level the one call's round
    closes at. -/
def rcd (d : Dev nD) : Set (SemLoc sig × HIx 1) := {p | (K (F := F)).lev (T d, p.1) p.2 ≤ 8}

/-- The TensorCore's state before call `n`, its `owes` apart. -/
theorem tcSt_open (d : Dev nD) (n : ℕ) : ∃ R : sProp 𝕄, (K (F := F)).tcSt EH d n
    = iprop((∃ W, ⌜(K (F := F)).WBelow (T d) W (8 * n)⌝ ∗ owes (T d) ((K (F := F)).Otc d n) W) ∗ R) := ⟨_, rfl⟩

section Run

variable (aft3 : (c : Dev nD) → Fin cfg1.N → (S2048x2048.Idx → Elt F .f32)) (fgt : Fin 4 → Bool)

/-- What @main leaves the claim: the four arguments as launched, and the result the reshape of contents the matrix may
    hold after every write-back. -/
def FIN (d : Dev nD) : sProp 𝕄 :=
  iprop((idxLoc d ↦{fullShare} m (idxLoc d)) ∗ (tokLoc d ↦{fullShare} m (tokLoc d)) ∗ (posLoc d ↦{fullShare} m (posLoc d))
    ∗ (wLoc d ↦{fullShare} m (wLoc d))
    ∗ ∃ f : Buf (Elt F) (matLoc d), ⌜(rd (Vv m) aft3 (rcd (F := F)) fgt 0 d).ArrAt (3 : Fin 4) cfg1.N f⌝
        ∗ resLoc d ↦{fullShare} ((shapeCast S1x2048x50257 (f : FVec F S2048x50257 .f32) shapeCasts_S2048x50257_S1x2048x50257 : FVec F S1x2048x50257 .f32) : Buf (Elt F) (resLoc d)))

end Run

section Run2

variable (aft3 : (c : Dev nD) → Fin cfg1.N → (S2048x2048.Idx → Elt F .f32)) (fgt : Fin 4 → Bool)
  (hbody : ∀ c, BodyObligationLoose (dats (Vv m) aft3 (rcd (F := F)) 0 c) (defs₀ (F := F)) 𝒱₀ (none : HIx 1) Set.univ fgt)

omit [∀ e, Nonempty (Elt F e)] in
theorem op1_sub : (op1 (F := F)).bufs ⊆ ({idx', lst'} : Finset (DevRef τ sig)) := by
  rw [StableHlo.reshape_bufs]
omit [∀ e, Nonempty (Elt F e)] in
theorem op2_sub : (op2 (F := F)).bufs ⊆ ({mat', res'} : Finset (DevRef τ sig)) := by
  rw [StableHlo.reshape_bufs]

omit [∀ e, Nonempty (Elt F e)] in
/-- After the first reshape: the index words as launched, the list their reshape. -/
theorem held_op1 (d : Dev nD) :
    (held (T d) {idx', lst'} ((op1 (F := F)).result (V0 m d)) : sProp 𝕄)
      = iprop((idxLoc d ↦{fullShare} m (idxLoc d)) ∗ lstLoc d ↦{fullShare} lstOf m d) := by
  rw [held_two d idx' lst' (by decide),
    show (op1 (F := F)).result (V0 m d) idx' = m (idxLoc d) from StableHlo.reshape_result_ne _ _ _ _ _ _ (V0 m d) (r := main_arg0) (by decide),
    show (op1 (F := F)).result (V0 m d) lst' = lstOf m d from StableHlo.reshape_result _ _ _ _ _ _ (V0 m d)]

/-- The valuation the second reshape runs at: the matrix at `f`. -/
def V2 (d : Dev nD) (f : Buf (Elt F) (matLoc d)) : Valuation τ sig (Elt F) := Function.update (V0 m d) mat' f

omit [∀ e, Nonempty (Elt F e)] in
theorem held_V2 (d : Dev nD) (f : Buf (Elt F) (matLoc d)) :
    (held (T d) {mat', res'} (V2 m d f) : sProp 𝕄) = iprop((matLoc d ↦{fullShare} f) ∗ resLoc d ↦{fullShare} m (resLoc d)) := by
  rw [held_two d mat' res' (by decide), show V2 m d f mat' = f from Function.update_self _ _ _,
    show V2 m d f res' = m (resLoc d) from Function.update_of_ne (by decide) _ _]

omit [∀ e, Nonempty (Elt F e)] in
/-- After the second reshape: the matrix as it was, the result its reshape. -/
theorem held_op2 (d : Dev nD) (f : Buf (Elt F) (matLoc d)) :
    (held (T d) {mat', res'} ((op2 (F := F)).result (V2 m d f)) : sProp 𝕄)
      = iprop((matLoc d ↦{fullShare} f) ∗ resLoc d ↦{fullShare}
          ((shapeCast S1x2048x50257 (f : FVec F S2048x50257 .f32) shapeCasts_S2048x50257_S1x2048x50257 : FVec F S1x2048x50257 .f32) : Buf (Elt F) (resLoc d))) := by
  rw [held_two d mat' res' (by decide),
    show (op2 (F := F)).result (V2 m d f) mat' = f from
      (StableHlo.reshape_result_ne _ _ _ _ _ _ (V2 m d f) (r := main_v2) (by decide)).trans (Function.update_self _ _ _),
    show (op2 (F := F)).result (V2 m d f) res' = _ from StableHlo.reshape_result _ _ _ _ _ _ (V2 m d f)]
  rw [show V2 m d f (main_v2 : Ref sig .tc) = f from Function.update_self _ _ _]
  rfl

omit [∀ e, Nonempty (Elt F e)] in
/-- The eight arrays one by one, at the contents the call left, are the region's unscoped buffers at `Vv`. -/
theorem bufs_intro (d : Dev nD) :
    iprop((idxLoc d ↦{fullShare} m (idxLoc d)) ∗ (tokLoc d ↦{fullShare} m (tokLoc d)) ∗ (posLoc d ↦{fullShare} m (posLoc d))
        ∗ (wLoc d ↦{fullShare} m (wLoc d)) ∗ (lstLoc d ↦{fullShare} lstOf m d)
        ∗ (rowsLoc d ↦{fullShare} (gathered (m (tokLoc d)) (lstOf m d) : Buf (Elt F) (rowsLoc d)))
        ∗ (matLoc d ↦{fullShare} m (matLoc d)) ∗ resLoc d ↦{fullShare} m (resLoc d))
      ⊢ (unscopedBufs d (Vv m d) : sProp 𝕄) := by
  rw [unscopedBufs_eq]
  show _ ⊢ iprop((idxLoc d ↦{fullShare} Vent m d idx') ∗ (tokLoc d ↦{fullShare} Vent m d tok') ∗ (posLoc d ↦{fullShare} Vent m d pos')
      ∗ (wLoc d ↦{fullShare} Vent m d w') ∗ (lstLoc d ↦{fullShare} Vent m d lst') ∗ (rowsLoc d ↦{fullShare} Vent m d rows')
      ∗ (matLoc d ↦{fullShare} Vent m d mat') ∗ resLoc d ↦{fullShare} Vent m d res')
  rw [Vent_idx, Vent_tok, Vent_pos, Vent_w, Vent_lst, Vent_rows, Vent_mat, Vent_res]

/-- What the region leaves, one array at a time: the inputs as they were, the matrix at contents it may hold after every
    write-back, the core owing nothing with its recorded pairs still at or below the call's level. -/
theorem post_elim (d : Dev nD) :
    iprop((rd (Vv m) aft3 (rcd (F := F)) fgt 0 d).arraysAt cfg1.N ∗ Pipeline.unscopedRest spec1 d (Vv m d)
        ∗ (rd (Vv m) aft3 (rcd (F := F)) fgt 0 d).owesAt (none : HIx 1) (Fin.last cfg1.N))
      ⊢ iprop((idxLoc d ↦{fullShare} m (idxLoc d)) ∗ (tokLoc d ↦{fullShare} m (tokLoc d)) ∗ (posLoc d ↦{fullShare} m (posLoc d))
        ∗ (wLoc d ↦{fullShare} m (wLoc d)) ∗ (resLoc d ↦{fullShare} m (resLoc d))
        ∗ (∃ f : Buf (Elt F) (matLoc d), ⌜(rd (Vv m) aft3 (rcd (F := F)) fgt 0 d).ArrAt (3 : Fin 4) cfg1.N f⌝ ∗ matLoc d ↦{fullShare} f)
        ∗ ∃ W, ⌜(K (F := F)).WBelow (T d) W 8⌝ ∗ owes (T d) (0 : CellTallies nD τ sig (HIx 1)) W) := by
  unfold Pipeline.RDat.arraysAt
  rw [bigSep_W1, unscopedRest1_eq]
  unfold Pipeline.RDat.owesAt Pipeline.owesWithin
  iintro ⟨⟨-, ⟨%F1, %hF1, HP⟩, ⟨%F2, %hF2, HW⟩, ⟨%F3, %hF3, HM⟩⟩, ⟨HI, HT, -, HR⟩, ⟨%W, %hW, HO⟩⟩
  rw [(rd (Vv m) aft3 (rcd (F := F)) fgt 0 d).ArrAt_in (1 : Fin 4) rfl] at hF1
  rw [(rd (Vv m) aft3 (rcd (F := F)) fgt 0 d).ArrAt_in (2 : Fin 4) rfl] at hF2
  subst hF1; subst hF2
  isplitl [HI]; · iapply (Entails.of_eq (congrArg (fun v => (idxLoc d ↦{fullShare} v : sProp 𝕄)) (Vent_idx m d))); iexact HI
  isplitl [HT]; · iapply (Entails.of_eq (congrArg (fun v => (tokLoc d ↦{fullShare} v : sProp 𝕄)) (Vent_tok m d))); iexact HT
  isplitl [HP]
  · iapply (Entails.of_eq (congrArg (fun v => (posLoc d ↦{fullShare} v : sProp 𝕄)) (Vent_pos m d)))
    simp only [Memref.view_whole, View.set_whole]; iexact HP
  isplitl [HW]
  · iapply (Entails.of_eq (congrArg (fun v => (wLoc d ↦{fullShare} v : sProp 𝕄)) (Vent_w m d)))
    simp only [Memref.view_whole, View.set_whole]; iexact HW
  isplitl [HR]; · iapply (Entails.of_eq (congrArg (fun v => (resLoc d ↦{fullShare} v : sProp 𝕄)) (Vent_res m d))); iexact HR
  isplitl [HM]
  · iexists F3; isplitr; · ipureintro; exact hF3
    simp only [Memref.view_whole, View.set_whole]; iexact HM
  iexists W; isplitr
  · ipureintro
    intro p hp
    rcases hW hp with h | ⟨w, s, rfl⟩
    · exact h
    · show (K (F := F)).lev _ none ≤ 8
      rw [SparseCore.Cfg.lev_none]; omega
  iexact HO

-- the record's fields read back, as equations to rewrite by
set_option backward.isDefEq.respectTransparency.types false in
theorem reg_pre (d : Dev nD) : (reg (Vv m) aft3 (rcd (F := F)) fgt hbody).pre d
    = iprop(unscopedBufs d (Vv m d) ∗ ∃ W : Waits sig (HIx 1), ⌜(↑W : Set (SemLoc sig × HIx 1)) ⊆ rcd (F := F) d⌝ ∗ owes (d.tc : Thread nD τ) (0 : CellTallies nD τ sig (HIx 1)) W) := rfl
set_option backward.isDefEq.respectTransparency.types false in
theorem reg_post (d : Dev nD) : (reg (Vv m) aft3 (rcd (F := F)) fgt hbody).post d
    = iprop((rd (Vv m) aft3 (rcd (F := F)) fgt 0 d).arraysAt cfg1.N ∗ Pipeline.unscopedRest spec1 d (Vv m d)
        ∗ (rd (Vv m) aft3 (rcd (F := F)) fgt 0 d).owesAt (none : HIx 1) (Fin.last cfg1.N)) := rfl

-- the region record's statement over `pin pcfgs adm 0` meets `cfg1` by unfolding plain definitions
set_option backward.isDefEq.respectTransparency.types false in
include hbody in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m aft3 fgt d) := by
  obtain ⟨R1, hR1⟩ := tcSt_open (F := F) d 1
  rw [(K (F := F)).Otc_end d (le_refl 1)] at hR1
  have hR1s : (K (F := F)).tcSt EH d ((0 : Fin 1).val + 1) = _ := hR1
  unfold SparseCore.Cfg.tcRes G
  rw [unscopedBufs_eq]
  simp only [main, wp_bind, wp_pure]
  iintro ⟨#Hctx, Hst, ⟨Hb, ⟨H0, H1, H2, H3, Hv0, Hv1, Hv2, Hv3⟩, -, -⟩, ⟨Hcg, Htk⟩⟩
  -- the reshape of the index words
  iapply (wp_hlo_within 𝒱 (T d) none Set.univ (op := op1 (F := F)) (S := {idx', lst'}) op1_sub (V := V0 m d)) $$ [Hb H0 Hv0]
  · isplitl [Hb]; · iexact Hb
    rw [held_two d idx' lst' (by decide)]
    isplitl [H0]; · iexact H0
    iexact Hv0
  iintro ⟨Hb, Hheld⟩
  ihave Hh := (Entails.of_eq (held_op1 m d)) $$ Hheld
  icases Hh with ⟨H0, Hv0⟩
  rw [wp_ret]; imodintro
  -- the SparseCore call: the table, the list and the rows cut among the tiles, and glued back
  iapply ((K (F := F)).wp_run (D (F := F)) 𝒱 (EH := EH) (P := P m) κ d 0) $$ [Hst H1 Hv0 Hv1 Hb H0 H2 H3 Hv2 Hv3 Hcg Htk]
  isplitr; · iexact Hctx
  isplitl [Hst]; · iexact Hst
  isplitl [H1 Hv0 Hv1]
  · iapply (st_intro m d)
    isplitl [H1]; · iexact H1
    isplitl [Hv0]; · iexact Hv0
    iexact Hv1
  iintro ⟨Hst, Hdn⟩
  ihave Hdn' := (dn_elim m d) $$ Hdn
  icases Hdn' with ⟨H1, Hv0, Hv1⟩
  -- the TensorCore owes nothing now; its recorded pairs sit at or below the call's level
  ihave Hst' := (Entails.of_eq hR1s) $$ Hst
  icases Hst' with ⟨⟨%W, %hW, HO⟩, HR1⟩
  -- the region
  iapply ((K (F := F)).wp_liftProg (D (F := F)) 𝒱 (T d) Set.univ none (Prog.lift (.customCall (Pipeline.entry (0 : Fin 1)) ())) _)
  iapply (Pipeline.RDat.RegionSeg.wp (pcfgs (F := F)) adm (rd (Vv m) aft3 (rcd (F := F)) fgt) (none : HIx 1) cellOf_inj EP defs₀ 𝒱₀
    (LL (F := F)) (lvv (F := F)) (reg (Vv m) aft3 (rcd (F := F)) fgt hbody) d none (fun u h => nomatch h) (fun x => .ret x) _) $$ [Hb HO H0 H1 H2 H3 Hv0 Hv1 Hv2 Hv3 Hcg Htk HR1]
  isplitr [Hb HO H0 H1 H2 H3 Hv0 Hv1 Hv2 Hv3 Hcg Htk]
  swap
  · isplitl [Hb]; · iexact Hb
    isplitl [HO H0 H1 H2 H3 Hv0 Hv1 Hv2 Hv3]
    · rw [reg_pre m aft3 fgt hbody d]
      isplitr [HO]
      · iapply (bufs_intro m d)
        isplitl [H0]; · iexact H0
        isplitl [H1]; · iexact H1
        isplitl [H2]; · iexact H2
        isplitl [H3]; · iexact H3
        isplitl [Hv0]; · iexact Hv0
        isplitl [Hv1]; · iexact Hv1
        isplitl [Hv2]; · iexact Hv2
        iexact Hv3
      · iexists W; isplitr; · ipureintro; exact fun p hp => hW p hp
        iexact HO
    isplitr; · iapply ((K (F := F)).ctx_levAts κ); iexact Hctx
    isplitl [Hcg]; · iexact Hcg
    iexact Htk
  iintro ⟨Hb, Hpost⟩
  rw [wp_ret]; imodintro
  ihave Hpost' := (Entails.of_eq (reg_post m aft3 fgt hbody d)) $$ Hpost
  ihave Hp := (post_elim m aft3 fgt d) $$ Hpost'
  icases Hp with ⟨H0, H1, H2, H3, Hv3, ⟨%f, %hf, Hv2⟩, ⟨%W', %hW', HO⟩⟩
  -- the reshape of the result
  iapply (wp_hlo_within 𝒱 (T d) none Set.univ (op := op2 (F := F)) (S := {mat', res'}) op2_sub (V := V2 m d f)) $$ [Hb Hv2 Hv3]
  · isplitl [Hb]; · iexact Hb
    rw [held_V2 m d f]
    isplitl [Hv2]; · iexact Hv2
    iexact Hv3
  iintro ⟨Hb, Hheld⟩
  ihave Hh := (Entails.of_eq (held_op2 m d f)) $$ Hheld
  icases Hh with ⟨Hv2, Hv3⟩
  rw [wp_ret]; imodintro; imodintro
  rw [hR1]
  isplitl [HO HR1]
  · isplitl [HO]
    · iexists W'; isplitr; · ipureintro; exact hW'
      iexact HO
    iexact HR1
  unfold FIN
  isplitl [H0]; · iexact H0
  isplitl [H1]; · iexact H1
  isplitl [H2]; · iexact H2
  isplitl [H3]; · iexact H3
  iexists f; isplitr; · ipureintro; exact hf
  iexact Hv3

end Run2

end Cert.KernelIdeal.Pf

end
-- ==== Proof.Spec.lean ====
/-
  The function both programs compute, stated once over the extended reals.

  A token index word `w` names the table row `row w`: the word read as a signed integer, clamped into
  `[0, 50256]`.  For a sequence position `s` and a vocabulary entry `v` the logit is the inner product, over the
  128 embedding features `f`, of the embedded token plus its position row with row `v` of the output matrix:
  `logit s v = ∑ f, (tok[row idx[s], f] + pos[s, f]) · W[v, f]`.
-/
import Idealize.ShloMosaic.PureOps.Ideal
import Idealize.ShloMosaic.Lib.ValueIdx

noncomputable section

namespace Cert.Spec

open Idealize.ShloMosaic Idealize.ShloMosaic.ValueIdx

/-- The table row an index word names: its signed value clamped into `[0, 50256]`. -/
def row (w : BitVec 32) : Fin 50257 := ⟨min w.toInt.toNat 50256, by omega⟩

/-- An index word inside `[0, 50256]` names the row of its unsigned value. -/
theorem row_val_of_range (w : BitVec 32) (h0 : 0 ≤ w.toInt) (h1 : w.toInt ≤ 50256) : (row w).val = w.toNat := by
  have h2 : w.toInt = (w.toNat : Int) := by
    rw [BitVec.toInt_eq_toNat_cond] at h0 ⊢
    split at h0 <;> simp_all <;> omega
  simp only [row]
  omega

/-- The embedded input: token row plus position row, at sequence position `s` and feature `f`. -/
def embed (idx : (⟨2, ![1, 2048]⟩ : Shape).Idx → BitVec 32) (tok : (⟨2, ![50257, 128]⟩ : Shape).Idx → EReal)
    (pos : (⟨2, ![2048, 128]⟩ : Shape).Idx → EReal) (s : Fin 2048) (f : Fin 128) : EReal :=
  tok (ix2 (row (idx (ix2 (0 : Fin 1) s))) f) + pos (ix2 s f)

/-- One logit: the embedded input at `s` against row `v` of the output matrix. -/
def logit (idx : (⟨2, ![1, 2048]⟩ : Shape).Idx → BitVec 32) (tok : (⟨2, ![50257, 128]⟩ : Shape).Idx → EReal)
    (pos : (⟨2, ![2048, 128]⟩ : Shape).Idx → EReal) (W : (⟨2, ![50257, 128]⟩ : Shape).Idx → EReal)
    (s : Fin 2048) (v : Fin 50257) : EReal :=
  ∑ f : Fin 128, embed idx tok pos s f * W (ix2 v f)

/-- The whole result array `[1, 2048, 50257]`. -/
def logits (idx : (⟨2, ![1, 2048]⟩ : Shape).Idx → BitVec 32) (tok : (⟨2, ![50257, 128]⟩ : Shape).Idx → EReal)
    (pos : (⟨2, ![2048, 128]⟩ : Shape).Idx → EReal) (W : (⟨2, ![50257, 128]⟩ : Shape).Idx → EReal) :
    (⟨3, ![1, 2048, 50257]⟩ : Shape).Idx → EReal :=
  fun i => logit idx tok pos W (i 1) (i 2)

end Cert.Spec

end
-- ==== Proof.PreRange.lean ====
/-
  The input-domain predicate, read back at one token index.

  The predicate is a conjunction of four "all entries" tests folded by `and` from the constant one; its last conjunct
  tests `0 ≤ idx` and `idx ≤ 50256` (both signed) at every position.  When the whole predicate is one, the last
  conjunct is one, so the and-fold over the positions is one, so the test at each single position is one, which says
  the signed value of that index word lies in `[0, 50256]`.
-/
import proofs.«205851_g1529008357945_cont_week2b_587_25_alg».proof.Pre_input_domain
import proofs.«205851_g1529008357945_cont_week2b_587_25_alg».proof.Proof.Gen.Pre_input_domain
import Idealize.ShloMosaic.Lib.ReduceAll
import Idealize.ShloMosaic.Lib.ValueIdx

namespace Cert.PreRange

open Idealize.ShloMosaic

/-- The rank-0 shape has one index. -/
instance subsingleton_scalar_idx : Subsingleton Cert.Pre_input_domain.S_.Idx := ⟨fun a b => funext fun d => d.elim0⟩

/-- Under the input-domain predicate every token index word, read signed, lies in `[0, 50256]`. -/
theorem idx_range {F : FTy → Type} [FloatOps F] (a0 : IVec Cert.Pre_input_domain.S1x2048 32)
    (a1 : FVec F Cert.Pre_input_domain.S50257x128 .f32) (a2 : FVec F Cert.Pre_input_domain.S2048x128 .f32)
    (a3 : FVec F Cert.Pre_input_domain.S50257x128 .f32)
    (h : Cert.Pre_input_domain.fn (F := F) a0 a1 a2 a3 = fun _ => 1#1) (j : Cert.Pre_input_domain.S1x2048.Idx) :
    0 ≤ (a0 j).toInt ∧ (a0 j).toInt ≤ 50256 := by
  have h0 := congrFun h ValueIdx.ix0
  dsimp only [Cert.Pre_input_domain.fn, Cert.Pre_input_domain.fn_part1] at h0
  -- the outer conjunction: its right half is the and-fold of the per-position range test
  have h1 := (IntOp.andi_eq_one.1 h0).2
  -- the and-fold is one, so the test at position `j` is one
  have h2 := Host.reduce_andi_all _ _ _ _ _ h1 j
  obtain ⟨hge, hle⟩ := IntOp.andi_eq_one.1 h2
  have hge' := IntOp.cmpi_sge.1 hge
  have hle' := IntOp.cmpi_sle.1 hle
  have z0 : (0#32 : BitVec 32).toInt = 0 := by decide
  have z1 : (50256#32 : BitVec 32).toInt = 50256 := by decide
  exact ⟨z0 ▸ hge', z1 ▸ hle'⟩

end Cert.PreRange
-- ==== Proof.KernelValue.lean ====
/-
  The kernel's result, as a pure function of its four argument arrays, is the specification's logits.

  The kernel reshapes the `[1, 2048]` index words to a list of 2048, gathers the token rows the list names (each word
  read unsigned and clamped to the last row), adds the position rows, contracts the 128 features with the rows of the
  output matrix, and reshapes the `[2048, 50257]` matrix to `[1, 2048, 50257]`.  Both reshapes keep the row-major
  position, so entry `(0, s, v)` of the result is entry `(s, v)` of the matrix and list entry `s` is index word
  `(0, s)`.  For a word whose signed value is in `[0, 50256]` the unsigned value is the signed one and the clamp does
  nothing, so the gathered row is the specification's `row`.
-/
import proofs.«205851_g1529008357945_cont_week2b_587_25_alg».proof.Proof.TileRes
import proofs.«205851_g1529008357945_cont_week2b_587_25_alg».proof.Proof.Spec
import proofs.«205851_g1529008357945_cont_week2b_587_25_alg».proof.Proof.PreRange
import proofs.«205851_g1529008357945_cont_week2b_587_25_alg».proof.Defs
import Idealize.ShloMosaic.Lib.Pipeline.Value

open scoped BigOperators

noncomputable section

namespace Cert.KernelIdeal.Pf

open Cert.KernelIdeal Idealize.ShloMosaic Idealize.ShloMosaic.ValueIdx Idealize.ShloMosaic.TcCoe
open Cert.KernelIdeal.Facts₀

/-- The index list at position `s` is the index word at `(0, s)`. -/
theorem lst_apply (idx : IVec S1x2048 32) (s : Fin 2048) :
    shapeCast S2048 idx shapeCasts_S1x2048_S2048 (ix1 s) = idx (ix2 (0 : Fin 1) s) :=
  shapeCast_apply idx _ (ix1 s) (ix2 (0 : Fin 1) s) (by
    rw [Shape.rowMajor_val_two, Shape.rowMajor_val_one]
    show (0 : ℕ) * 2048 + s.val = s.val
    omega)

/-- With every index word in `[0, 50256]` signed, every list entry read unsigned is below the row count. -/
theorem lst_range (idx : S1x2048.Idx → BitVec 32) (hr : ∀ j, 0 ≤ (idx j).toInt ∧ (idx j).toInt ≤ 50256) (j : S2048.Idx) :
    ((shapeCast S2048 (idx : IVec S1x2048 32) shapeCasts_S1x2048_S2048 : IVec S2048 32) j).toNat < 50257 := by
  obtain ⟨s, rfl⟩ : ∃ s : Fin 2048, j = ix1 s := ⟨j 0, eq_ix1 j⟩
  rw [lst_apply, ← Cert.Spec.row_val_of_range _ (hr _).1 (hr _).2]
  exact (Cert.Spec.row _).isLt

/-- The gathered rows at `(s, f)`: the token table at the specification's row of index word `(0, s)`. -/
theorem gathered_apply (tok : FVec Ideal S50257x128 .f32) (idx : S1x2048.Idx → BitVec 32)
    (hr : ∀ j, 0 ≤ (idx j).toInt ∧ (idx j).toInt ≤ 50256) (s : Fin 2048) (f : Fin 128) :
    gathered (F := Ideal) tok (shapeCast S2048 (idx : IVec S1x2048 32) shapeCasts_S1x2048_S2048) (ix2 s f)
      = tok (ix2 (Cert.Spec.row (idx (ix2 (0 : Fin 1) s))) f) := by
  unfold gathered
  refine congrArg tok (congrArg (fun a => ix2 a f) (Fin.ext ?_))
  show min (shapeCast S2048 (idx : IVec S1x2048 32) shapeCasts_S1x2048_S2048 (ix1 s)).toNat 50256
      = (Cert.Spec.row (idx (ix2 (0 : Fin 1) s))).val
  rw [lst_apply]
  have h1 := Cert.Spec.row_val_of_range _ (hr (ix2 (0 : Fin 1) s)).1 (hr (ix2 (0 : Fin 1) s)).2
  have h2 := (Cert.Spec.row (idx (ix2 (0 : Fin 1) s))).isLt
  omega

/-- The kernel's result is the specification's logits. -/
theorem kernel_logits (idx : S1x2048.Idx → BitVec 32) (tok : FVec Ideal S50257x128 .f32) (pos : FVec Ideal S2048x128 .f32)
    (W : FVec Ideal S50257x128 .f32) (hr : ∀ j, 0 ≤ (idx j).toInt ∧ (idx j).toInt ≤ 50256) :
    (shapeCast S1x2048x50257
        (fun i : S2048x50257.Idx => ∑ f : Fin 128,
          (gathered (F := Ideal) tok (shapeCast S2048 (idx : IVec S1x2048 32) shapeCasts_S1x2048_S2048) (ix2 (i 0) f)
            + pos (ix2 (i 0) f)) * W (ix2 (i 1) f))
        shapeCasts_S2048x50257_S1x2048x50257 : FVec Ideal S1x2048x50257 .f32)
      = Cert.Spec.logits idx tok pos W := by
  funext i
  obtain ⟨r, s, v, rfl⟩ : ∃ (r : Fin 1) (s : Fin 2048) (v : Fin 50257), i = ix3 r s v := ⟨i 0, i 1, i 2, eq_ix3 i⟩
  obtain rfl : r = 0 := Subsingleton.elim _ _
  rw [shapeCast_apply _ _ (ix3 (0 : Fin 1) s v) (ix2 s v) (by
    rw [Shape.rowMajor_val_two, Shape.rowMajor_val_three]
    show s.val * 50257 + v.val = ((0 : ℕ) * 2048 + s.val) * 50257 + v.val
    omega)]
  show (∑ f : Fin 128,
      (gathered (F := Ideal) tok (shapeCast S2048 (idx : IVec S1x2048 32) shapeCasts_S1x2048_S2048) (ix2 s f)
        + pos (ix2 s f)) * W (ix2 v f))
    = ∑ f : Fin 128, (tok (ix2 (Cert.Spec.row (idx (ix2 (0 : Fin 1) s))) f) + pos (ix2 s f)) * W (ix2 v f)
  refine Finset.sum_congr rfl fun f _ => ?_
  rw [gathered_apply tok idx hr]

/-- The product matrix `[2048, 50257]`: entry `(s, v)` is the sum over the 128 features of row `s` of `A + B` against row
    `v` of the output matrix. -/
def kmat (A B : FVec Ideal S2048x128 .f32) (Wm : FVec Ideal S50257x128 .f32) : FVec Ideal S2048x50257 .f32 :=
  fun i => ∑ f : Fin 128, (A (ix2 (i 0) f) + B (ix2 (i 0) f)) * Wm (ix2 (i 1) f)

theorem kmat_apply (A B : FVec Ideal S2048x128 .f32) (Wm : FVec Ideal S50257x128 .f32) (i : S2048x50257.Idx) :
    kmat A B Wm i = ∑ f : Fin 128, (A (ix2 (i 0) f) + B (ix2 (i 0) f)) * Wm (ix2 (i 1) f) := rfl

/-- The kernel's result, with the matrix named. -/
theorem kernel_logits_kmat (idx : S1x2048.Idx → BitVec 32) (tok : FVec Ideal S50257x128 .f32) (pos : FVec Ideal S2048x128 .f32)
    (W : FVec Ideal S50257x128 .f32) (hr : ∀ j, 0 ≤ (idx j).toInt ∧ (idx j).toInt ≤ 50256) :
    (shapeCast S1x2048x50257
        (kmat (gathered (F := Ideal) tok (shapeCast S2048 (idx : IVec S1x2048 32) shapeCasts_S1x2048_S2048)) pos W)
        shapeCasts_S2048x50257_S1x2048x50257 : FVec Ideal S1x2048x50257 .f32)
      = Cert.Spec.logits idx tok pos W :=
  kernel_logits idx tok pos W hr

/-! ## The index range from the input-domain predicate -/

/-- The predicate at one device, for any float instance, puts every index word of that device in `[0, 50256]`. -/
theorem pre_range_kernel {F : FTy → Type} [FloatOps F] (m : (ℓ : Loc nD τ sig) → Buf (Elt F) ℓ) (c : Dev nD)
    (h : Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ j : S1x2048.Idx, 0 ≤ ((m ((c.tc : Thread nD τ).loc main_arg0) : IVec S1x2048 32) j).toInt
      ∧ ((m ((c.tc : Thread nD τ).loc main_arg0) : IVec S1x2048 32) j).toInt ≤ 50256 :=
  fun j => Cert.PreRange.idx_range (F := F) _ _ _ _ h j

/-- The same from the idealized kernel's precondition. -/
theorem pre_range_ideal (m : (ℓ : Loc nD τ sig) → Buf (Elt Ideal) ℓ) (hpre : Cert.Pre_KernelIdeal m) (c : Dev nD) :
    ∀ j : S1x2048.Idx, 0 ≤ ((m ((c.tc : Thread nD τ).loc main_arg0) : IVec S1x2048 32) j).toInt
      ∧ ((m ((c.tc : Thread nD τ).loc main_arg0) : IVec S1x2048 32) j).toInt ≤ 50256 :=
  pre_range_kernel m c (hpre c)

/-- The same from the bit-exact kernel's precondition, over that program's own names. -/
theorem pre_range_bits (m : (ℓ : Loc Cert.Kernel.nD Cert.Kernel.τ Cert.Kernel.sig) → Buf (Elt Bits) ℓ)
    (hpre : Cert.Pre_Kernel m) (c : Dev Cert.Kernel.nD) :
    ∀ j : Cert.Kernel.S1x2048.Idx,
      0 ≤ ((m ((c.tc : Thread Cert.Kernel.nD Cert.Kernel.τ).loc Cert.Kernel.main_arg0) : IVec Cert.Kernel.S1x2048 32) j).toInt
      ∧ ((m ((c.tc : Thread Cert.Kernel.nD Cert.Kernel.τ).loc Cert.Kernel.main_arg0) : IVec Cert.Kernel.S1x2048 32) j).toInt ≤ 50256 :=
  fun j => Cert.PreRange.idx_range (F := Bits) _ _ _ _ (hpre c) j

end Cert.KernelIdeal.Pf

end
-- ==== Proof.Run.lean ====
/-
  The kernel program's run, and what the claims read off it.

  @main's proof leaves, per device, the four argument arrays at their launch contents and the result buffer at the
  reshape of some contents the product matrix may hold after every write-back (taken here as a hypothesis of that exact
  shape, as the launch theorem asks it).  Read against the physical state this
  is a statement about the final memory; the launch theorem of a program with a SparseCore call turns the per-thread
  proofs into the run of the whole program.  The frame claim keeps the four arguments.  At the extended reals with no
  window forgotten the matrix is the one the proof data names; with that matrix the sums of products, the gathered rows
  the specification's rows and the index words in range, the result buffer holds the specification's logits.
-/
import proofs.«205851_g1529008357945_cont_week2b_587_25_alg».proof.Proof.Main
import proofs.«205851_g1529008357945_cont_week2b_587_25_alg».proof.Proof.KernelValue
import proofs.«205851_g1529008357945_cont_week2b_587_25_alg».proof.Defs

open scoped BigOperators

noncomputable section

namespace Cert.KernelIdeal.Pf

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

section Run

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)
  (aft3 : (c : Dev nD) → Fin cfg1.N → (S2048x2048.Idx → Elt F .f32)) (fgt : Fin 4 → Bool)

/-- What the final memory of device `d` satisfies: the four arguments as launched, the result the reshape of contents
    the matrix may hold after every write-back. -/
def fq (d : Dev nD) (s' : Phys nD τ sig (Elt F)) : Prop :=
  s'.mem.mem (idxLoc d) = m (idxLoc d) ∧ s'.mem.mem (tokLoc d) = m (tokLoc d) ∧ s'.mem.mem (posLoc d) = m (posLoc d)
    ∧ s'.mem.mem (wLoc d) = m (wLoc d)
    ∧ ∃ f : Buf (Elt F) (matLoc d), (rd (Vv m) aft3 (rcd (F := F)) fgt 0 d).ArrAt (3 : Fin 4) cfg1.N f
        ∧ s'.mem.mem (resLoc d) = ((shapeCast S1x2048x50257 (f : FVec F S2048x50257 .f32) shapeCasts_S2048x50257_S1x2048x50257
            : FVec F S1x2048x50257 .f32) : Buf (Elt F) (resLoc d))

omit [FloatOps F] [∀ e, Nonempty (Elt F e)] in
/-- What a full points-to says of the physical state. -/
theorem agree_full (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro ⟨HSI, H⟩
  ihave H' := (SI_pointsTo_agree (st := s') (ℓ := ℓ) (I := Finset.univ) (q := fullShare) (f := f)) $$ [HSI H]
  · isplitl [HSI] <;> iassumption
  icases H' with %h
  ipureintro; exact funext fun i => h i (Finset.mem_univ i)

/-- @main's leavings read against the physical state. -/
theorem hfin (d : Dev nD) (s' : Phys nD τ sig (Elt F)) :
    iprop(FIN m aft3 fgt d ∗ SI s') ⊢ (⌜fq m aft3 fgt d s'⌝ : sProp 𝕄) := by
  unfold FIN
  iintro ⟨⟨H0, H1, H2, H3, %f, %hf, Hr⟩, HSI⟩
  ihave H := (persistent_entails_right (agree_full s' (idxLoc d) (m (idxLoc d)))) $$ [HSI H0]
  · isplitl [HSI] <;> iassumption
  icases H with ⟨%h0, HSI, -⟩
  ihave H := (persistent_entails_right (agree_full s' (tokLoc d) (m (tokLoc d)))) $$ [HSI H1]
  · isplitl [HSI] <;> iassumption
  icases H with ⟨%h1, HSI, -⟩
  ihave H := (persistent_entails_right (agree_full s' (posLoc d) (m (posLoc d)))) $$ [HSI H2]
  · isplitl [HSI] <;> iassumption
  icases H with ⟨%h2, HSI, -⟩
  ihave H := (persistent_entails_right (agree_full s' (wLoc d) (m (wLoc d)))) $$ [HSI H3]
  · isplitl [HSI] <;> iassumption
  icases H with ⟨%h3, HSI, -⟩
  ihave H := (agree_full s' (resLoc d) _) $$ [HSI Hr]
  · isplitl [HSI] <;> iassumption
  icases H with %h4
  ipureintro; exact ⟨h0, h1, h2, h3, f, hf, h4⟩

/-- The same of the program's final memory, on every device. -/
def QC : PUnit × MemSt nD τ sig (Elt F) → Prop := fun r => ∀ d : Dev nD,
  r.2.mem (idxLoc d) = m (idxLoc d) ∧ r.2.mem (tokLoc d) = m (tokLoc d) ∧ r.2.mem (posLoc d) = m (posLoc d)
    ∧ r.2.mem (wLoc d) = m (wLoc d)
    ∧ ∃ f : Buf (Elt F) (matLoc d), (rd (Vv m) aft3 (rcd (F := F)) fgt 0 d).ArrAt (3 : Fin 4) cfg1.N f
        ∧ r.2.mem (resLoc d) = ((shapeCast S1x2048x50257 (f : FVec F S2048x50257 .f32) shapeCasts_S2048x50257_S1x2048x50257
            : FVec F S1x2048x50257 .f32) : Buf (Elt F) (resLoc d))

/-- Every weakly fair execution of the program terminates, nothing faulting, in a memory of that kind. -/
theorem run_main
    (hmainH : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m aft3 fgt d))
    (htile : (K (F := F)).TileObl (D (F := F)) 𝒱 (P m) v₀ 0) :
    θ_run (Cert.KernelIdeal.defs (F := F)) (Cert.KernelIdeal.threads (F := F)) ⟨m, fun _ => 0, ρ⟩ (QC m aft3 fgt) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m aft3 fgt) (u₀ (F := F)) (sep_elim_left.trans (hu₀ m)) hmainH
    (fq m aft3 fgt) (hfin m aft3 fgt) (QC m aft3 fgt) (fun _ h => h)

/-- The frame: the four arguments end unchanged. -/
theorem frame_run
    (hmainH : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m aft3 fgt d))
    (htile : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono
    (fun _ h c => ⟨(h c).1, (h c).2.1, (h c).2.2.1, (h c).2.2.2.1⟩) (run_main m ρ aft3 fgt hmainH htile)

end Run

/-! ## The value at the extended reals -/

section Value

variable (m : (ℓ : Loc nD τ sig) → Buf (Elt Ideal) ℓ) (ρ : Dev nD → PrngReg)
  (aft3 : (c : Dev nD) → Fin cfg1.N → (S2048x2048.Idx → Elt Ideal .f32))

-- the relational data is stated over the pinned configuration, which is the pipeline's own by unfolding plain definitions
set_option backward.isDefEq.respectTransparency.types false in
/-- With no window forgotten, contents the matrix may hold after every write-back are the contents the data names. -/
theorem mat_eq (d : Dev nD) (f : Buf (Elt Ideal) (matLoc d))
    (hf : (rd (Vv m) aft3 (rcd (F := Ideal)) (fun _ => false) 0 d).ArrAt (3 : Fin 4) cfg1.N f) :
    f = (dats (F := Ideal) (Vv m) aft3 (rcd (F := Ideal)) 0 d).arrAt (3 : Fin 4) cfg1.N :=
  (Pipeline.Dat.toRForget_arrAt_iff (dat := dats (F := Ideal) (Vv m) aft3 (rcd (F := Ideal)) 0 d) (fgt := fun _ => false)
    (w := (3 : Fin 4)) rfl cfg1.N f).mp hf

-- the data's array type is stated over the pipeline's window record; it is the matrix's by unfolding plain definitions
set_option backward.isDefEq.respectTransparency.types false in
/-- Under the input-domain predicate the result buffer ends at the specification's logits of the four arguments, which
    end unchanged. -/
theorem value_ideal
    (hmainH : ∀ (κ : GSem nD τ sig → ℕ) (d : Dev nD),
      iprop((K (F := Ideal)).ctx EH (P m) κ ∗ (K (F := Ideal)).tcSt EH d 0 ∗ (K (F := Ideal)).tcRes m ρ d ∗ G (F := Ideal) d)
        ⊢ wp frame (wpE ((K (F := Ideal)).defs (D (F := Ideal))) 𝒱 (SparseCore.T d) none) Set.univ (main d)
            fun _ => iprop((K (F := Ideal)).tcSt EH d 1 ∗ FIN m aft3 (fun _ => false) d))
    (htile : (K (F := Ideal)).TileObl (D (F := Ideal)) 𝒱 (P m) v₀ 0)
    (hmat : ∀ c : Dev nD, ((dats (F := Ideal) (Vv m) aft3 (rcd (F := Ideal)) 0 c).arrAt (3 : Fin 4) cfg1.N
        : FVec Ideal S2048x50257 .f32) = kmat (Vv m c main_v1) (Vv m c main_arg2) (Vv m c main_arg3))
    (hpre : Cert.Pre_KernelIdeal m) :
    θ_run (Cert.KernelIdeal.defs (F := Ideal)) (Cert.KernelIdeal.threads (F := Ideal)) ⟨m, fun _ => 0, ρ⟩ (fun r => ∀ c : Dev nD,
      r.2.mem ((c.tc : Thread nD τ).loc main_v3)
          = Cert.Spec.logits (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (Cert.KernelIdeal.defs (F := Ideal)) _ _).mono (fun r h c => ?_)
    (run_main (F := Ideal) m ρ aft3 (fun _ => false) hmainH htile)
  obtain ⟨h0, h1, h2, h3, f, hf, hres⟩ := h c
  refine ⟨?_, h0, h1, h2, h3⟩
  refine hres.trans ?_
  have e0 : (f : FVec Ideal S2048x50257 .f32) = kmat (Vv m c main_v1) (Vv m c main_arg2) (Vv m c main_arg3) :=
    (mat_eq m aft3 c f hf).trans (hmat c)
  have e1 : (Vv m c main_v1 : FVec Ideal S2048x128 .f32) = gathered (F := Ideal) (m (tokLoc c))
      (shapeCast S2048 (m (idxLoc c) : IVec S1x2048 32) shapeCasts_S1x2048_S2048) := Vent_rows m c
  have e2 : (Vv m c main_arg2 : FVec Ideal S2048x128 .f32) = m (posLoc c) := Vent_pos m c
  have e3 : (Vv m c main_arg3 : FVec Ideal S50257x128 .f32) = m (wLoc c) := Vent_w m c
  rw [e0, e1, e2, e3]
  exact kernel_logits_kmat (m (idxLoc c)) (m (tokLoc c)) (m (posLoc c)) (m (wLoc c)) (pre_range_ideal m hpre c)

end Value

end Cert.KernelIdeal.Pf

end
-- ==== Proof.PipeBody.lean ====
/-
  The matrix-product body on any of the staging buffers its four windows may be on: three whole loads, the product of
  the sum of the first two with the third (contracted on the second axis of both), the dead load of the result's
  buffer, one whole store. The three operand buffers are left as found; the result's buffer ends holding the product.
-/
import proofs.«205851_g1529008357945_cont_week2b_587_25_alg».proof.Proof.Algebra
import proofs.«205851_g1529008357945_cont_week2b_587_25_alg».proof.Proof.PipeData

noncomputable section

namespace Cert.KernelIdeal.Pf

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

theorem sound_body (c : Dev nD) (E : Set ℕ) (i : grid1.Coords) (s0 : Fin 1) (s1 : Fin 1) (s2 : Fin 2) (s3 : Fin 2)
    (X0 X1 X2 : S2048x128.Idx → Elt F .f32) (X3 : S2048x2048.Idx → Elt F .f32) (K : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
                  ∗ owns (c : Thread nD τ) (stage1_2 s2) fullShare X2
                  ∗ owns (c : Thread nD τ) (stage1_3 s3) fullShare (k1_pay1 X0 X1 X2)) -∗ K ⟨⟩))
      ⊢ wp frame (wpE (defs₀ (F := F)) 𝒱₀ c none) E
          (cc1__matmul_body i (stage1_0 s0) (hstage1_0 s0) (stage1_1 s1) (hstage1_1 s1) (stage1_2 s2) (hstage1_2 s2)
            (stage1_3 s3) (hstage1_3 s3)) K := by
  -- every access is at offsets zero and the buffer's own sizes, the whole buffer: a load reads the contents, the
  -- unmasked store writes the payload
  have hz : (![0, 0] : Fin 2 → Nat) = fun _ => 0 := funext fun a => by fin_cases a <;> rfl
  fin_cases s0 <;> fin_cases s1 <;> fin_cases s2 <;> fin_cases s3
  · -- the staging buffers `cc1_stg0_0`, `cc1_stg1_0`, `cc1_stg2_0`, `cc1_stg3_0`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_0 : Memref sig .tc _ _ _).view.readAt (Elt F) (Rect.unit (s := S2048x128) ![0, 0] S2048x128.size
        inb_S2048x128_S2048x128_0_0).toLoadRect = id := funext (Memref.readAt_unit_zero (Elt F) cc1_stg2_0 hz _)
    have hw3 : ∀ f w, (((Memref.whole cc1_stg3_0).access (Rect.unit (s := S2048x2048) ![0, 0] S2048x2048.size inb_S2048x2048_S2048x2048_0_0)) :
        View sig .tc _ _ _).write (Elt F) f w Finset.univ = w := Memref.write_access_unit_zero_univ (Elt F) cc1_stg3_0 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3
  · -- the staging buffers `cc1_stg0_0`, `cc1_stg1_0`, `cc1_stg2_0`, `cc1_stg3_1`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_0 : Memref sig .tc _ _ _).view.readAt (Elt F) (Rect.unit (s := S2048x128) ![0, 0] S2048x128.size
        inb_S2048x128_S2048x128_0_0).toLoadRect = id := funext (Memref.readAt_unit_zero (Elt F) cc1_stg2_0 hz _)
    have hw3 : ∀ f w, (((Memref.whole cc1_stg3_1).access (Rect.unit (s := S2048x2048) ![0, 0] S2048x2048.size inb_S2048x2048_S2048x2048_0_0)) :
        View sig .tc _ _ _).write (Elt F) f w Finset.univ = w := Memref.write_access_unit_zero_univ (Elt F) cc1_stg3_1 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3
  · -- the staging buffers `cc1_stg0_0`, `cc1_stg1_0`, `cc1_stg2_1`, `cc1_stg3_0`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_1 : Memref sig .tc _ _ _).view.readAt (Elt F) (Rect.unit (s := S2048x128) ![0, 0] S2048x128.size
        inb_S2048x128_S2048x128_0_0).toLoadRect = id := funext (Memref.readAt_unit_zero (Elt F) cc1_stg2_1 hz _)
    have hw3 : ∀ f w, (((Memref.whole cc1_stg3_0).access (Rect.unit (s := S2048x2048) ![0, 0] S2048x2048.size inb_S2048x2048_S2048x2048_0_0)) :
        View sig .tc _ _ _).write (Elt F) f w Finset.univ = w := Memref.write_access_unit_zero_univ (Elt F) cc1_stg3_0 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3
  · -- the staging buffers `cc1_stg0_0`, `cc1_stg1_0`, `cc1_stg2_1`, `cc1_stg3_1`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_1 : Memref sig .tc _ _ _).view.readAt (Elt F) (Rect.unit (s := S2048x128) ![0, 0] S2048x128.size
        inb_S2048x128_S2048x128_0_0).toLoadRect = id := funext (Memref.readAt_unit_zero (Elt F) cc1_stg2_1 hz _)
    have hw3 : ∀ f w, (((Memref.whole cc1_stg3_1).access (Rect.unit (s := S2048x2048) ![0, 0] S2048x2048.size inb_S2048x2048_S2048x2048_0_0)) :
        View sig .tc _ _ _).write (Elt F) f w Finset.univ = w := Memref.write_access_unit_zero_univ (Elt F) cc1_stg3_1 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3

end Cert.KernelIdeal.Pf

end
-- ==== Proof.PipeObl.lean ====
/-
  What the body finds in each window's staging buffer at a point, and the body's obligation with the result window
  handed over and taken back at contents nothing names.
-/
import proofs.«205851_g1529008357945_cont_week2b_587_25_alg».proof.Proof.Algebra
import proofs.«205851_g1529008357945_cont_week2b_587_25_alg».proof.Proof.PipeBody
import Idealize.ShloMosaic.Lib.Pipeline.Frame
import Idealize.ShloMosaic.Lib.Pipeline.FrameBody
import Idealize.ShloMosaic.Lib.Pipeline.Value

noncomputable section

namespace Cert.KernelIdeal.Pf

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-- The printed index maps, decided over the twenty-five points: the two whole-array operands sit at block (0, 0),
    the weight window at block (t, 0), the result window at block (0, t). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val :=
  (by decide +kernel : ∀ t : Fin grid1.N, _)

/-- The one block of each whole-array operand is the array. -/
theorem read_blk0 (t : Fin cfg1.N) (G : S2048x128.Idx → Elt F .f32) : (win1_0.blk t).view.read (Elt F) G = G := by
  obtain ⟨e0, e1, -⟩ := idx_facts t
  funext j
  show G ((win1_0.blk t).view.emb j) = G j
  refine congrArg G (funext fun a => Fin.ext ?_)
  match a with
  | ⟨0, _⟩ => show win1_0.index t (0 : Fin 2) * 2048 + 1 * (j 0).val = (j 0).val; omega
  | ⟨1, _⟩ => show win1_0.index t (1 : Fin 2) * 128 + 1 * (j 1).val = (j 1).val; omega
theorem read_blk1 (t : Fin cfg1.N) (G : S2048x128.Idx → Elt F .f32) : (win1_1.blk t).view.read (Elt F) G = G := by
  obtain ⟨-, -, e0, e1, -⟩ := idx_facts t
  funext j
  show G ((win1_1.blk t).view.emb j) = G j
  refine congrArg G (funext fun a => Fin.ext ?_)
  match a with
  | ⟨0, _⟩ => show win1_1.index t (0 : Fin 2) * 2048 + 1 * (j 0).val = (j 0).val; omega
  | ⟨1, _⟩ => show win1_1.index t (1 : Fin 2) * 128 + 1 * (j 1).val = (j 1).val; omega

variable (Vv : (c : Dev nD) → (b : Ref sig .tc) → Buf (Elt F) ((c.tc : Thread nD τ).loc b)) (aft3 : (c : Dev nD) → Fin cfg1.N → (S2048x2048.Idx → Elt F .f32)) (rcd : (c : Dev nD) → Set (SemLoc sig × HIx 1))

/-- What the body finds: the two whole-array operands' buffers holding the arrays, fetched at the first point and
    left in place since; -/
theorem before_0 (c : Dev nD) (t : Fin cfg1.N) (d) : (dats Vv aft3 rcd 0 c).before (0 : Fin 4) t d = Vv c main_v1 := by
  rw [(dats Vv aft3 rcd 0 c).before_in_eq_fetched (0 : Fin 4) rfl (fun _ => rfl) (fun _ _ _ => rfl)
    (fun t' => (read_blk0 t' (Vv c main_v1)).symm) t d]
  exact read_blk0 t (Vv c main_v1)
theorem before_1 (c : Dev nD) (t : Fin cfg1.N) (d) : (dats Vv aft3 rcd 0 c).before (1 : Fin 4) t d = Vv c main_arg2 := by
  rw [(dats Vv aft3 rcd 0 c).before_in_eq_fetched (1 : Fin 4) rfl (fun _ => rfl) (fun _ _ _ => rfl)
    (fun t' => (read_blk1 t' (Vv c main_arg2)).symm) t d]
  exact read_blk1 t (Vv c main_arg2)
/-- the weight window's buffer just fetched: block `t` on the rows inside the matrix, `d` below them; -/
theorem before_2 (c : Dev nD) (t : Fin cfg1.N) (d) :
    (dats Vv aft3 rcd 0 c).before (2 : Fin 4) t d = win1_2.fill (grid1.coords t) d (wblk Vv c t) := by
  unfold Dat.before; rw [if_pos (fetch1_2 t)]; rfl
/-- the result's buffer at contents nothing names (every point writes it back). -/
theorem before_3 (c : Dev nD) (t : Fin cfg1.N) (d) : (dats Vv aft3 rcd 0 c).before (3 : Fin 4) t d = d := by
  refine (dats Vv aft3 rcd 0 c).before_out_reset (3 : Fin 4) rfl t ?_ d
  by_cases h : t.val = 0
  · exact .inl h
  · exact .inr ⟨h, flush1_3 _⟩

/-- The body's obligation with the result window forgotten: the two whole-array operands arrive holding the arrays and
    the weight window block `t` filled out with `d` (the three `before` lemmas), the result's buffer holding anything;
    the operands are left as found — which on the rows inside the weight matrix is all the loose weight window's
    obligation asks — and the result's buffer is handed back at whatever the product is. -/
theorem body_fgt (c : Dev nD) : BodyObligationLoose (dats Vv aft3 rcd 0 c) (defs₀ (F := F)) 𝒱₀ (none : HIx 1) Set.univ
    (fun w => decide (w = (3 : Fin 4))) := fun t => by
  rw [bigSep_W1, bigSep_W1]
  simp only [Fin.isValue, Fin.reduceEq, decide_false, decide_true]
  rw [show (dats Vv aft3 rcd 0 c).Φ t.succ = (dats Vv aft3 rcd 0 c).Φ t.castSucc from rfl,
    show (dats Vv aft3 rcd 0 c).owesAt (none : HIx 1) t.succ = (dats Vv aft3 rcd 0 c).owesAt (none : HIx 1) t.castSucc from rfl]
  iintro ⟨HΦ, Ho, ⟨%d0, H0⟩, ⟨%d1, H1⟩, ⟨%d2, H2⟩, ⟨%X3, H3⟩⟩
  rw [before_0 Vv aft3 rcd c t d0, before_1 Vv aft3 rcd c t d1, before_2 Vv aft3 rcd c t d2]
  iapply (sound_body (F := F) c Set.univ (grid1.coords t) (cfg1.slots t 0) (cfg1.slots t 1) (cfg1.slots t 2) (cfg1.slots t 3)
    (Vv c main_v1) (Vv c main_arg2) (win1_2.fill (grid1.coords t) d2 (wblk Vv c t)) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hw : win1_2.cut (grid1.coords t) (wblkF Vv c t) = wblk Vv c t := win1_2.cut_fill _ _ _
  isplitl [H0]
  · change _ ⊢ owns (c : Thread nD τ) (stage1_0 (cfg1.slots t 0)) fullShare (Vv c main_v1)
    rfl
  isplitl [H1]
  · change _ ⊢ owns (c : Thread nD τ) (stage1_1 (cfg1.slots t 1)) fullShare (Vv c main_arg2)
    rfl
  isplitl [H2]
  · iexists d2
    change _ ⊢ owns (c : Thread nD τ) (stage1_2 (cfg1.slots t 2)) fullShare
      (win1_2.fill (grid1.coords t) d2 (win1_2.cut (grid1.coords t) (wblkF Vv c t)))
    rw [hw]
  · iexists k1_pay1 (Vv c main_v1) (Vv c main_arg2) (win1_2.fill (grid1.coords t) d2 (wblk Vv c t))
    iexact H3

/-- The three operands are inputs: after the run they hold what they held. -/
theorem arrAt_in0 (c : Dev nD) (n : ℕ) : (dats Vv aft3 rcd 0 c).arrAt (0 : Fin 4) n = Vv c main_v1 :=
  (dats Vv aft3 rcd 0 c).arrAt_in (0 : Fin 4) rfl n
theorem arrAt_in1 (c : Dev nD) (n : ℕ) : (dats Vv aft3 rcd 0 c).arrAt (1 : Fin 4) n = Vv c main_arg2 :=
  (dats Vv aft3 rcd 0 c).arrAt_in (1 : Fin 4) rfl n
theorem arrAt_in2 (c : Dev nD) (n : ℕ) : (dats Vv aft3 rcd 0 c).arrAt (2 : Fin 4) n = Vv c main_arg3 :=
  (dats Vv aft3 rcd 0 c).arrAt_in (2 : Fin 4) rfl n

end Cert.KernelIdeal.Pf

end
-- ==== Proof.LibMatOps.lean ====
/-
  Three readings at an entry, over any extents.

  * A matrix product whose RIGHT operand is contracted on its LAST axis — an `[M, K]` matrix times the transpose of an
    `[N, K]` matrix — accumulated into the zero matrix: at `(p, e)` it is the sum over `f` of the left operand at `(p, f)`
    times the right operand at `(e, f)`.
  * A unit-stride slice of a matrix starting at row `ro`, column `co`: at `(p, j)` it is the matrix at `(ro + p, co + j)`.
  * Four matrices of equal width `w` placed side by side: at `(p, j)` the join is piece `j / w` at `(p, j % w)`.
-/
import Idealize.ShloMosaic.Lib.ValueIdx
import Idealize.ShloMosaic.Lib.Pipeline.Value
import Idealize.ShloMosaic.PureOps.Ideal.Laws

open scoped BigOperators

noncomputable section

namespace Cert.Lib.MatOps

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` matrix times the transpose of an `[N, K]` matrix into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

variable {α : Type}

/-- A unit-stride slice of an `[a, b]` matrix from row `ro`, column `co`, read at `(p, j)`. -/
theorem slice2_apply {a b a' b' : ℕ} (ro co : ℕ) (x : (⟨2, ![a, b]⟩ : Shape).Idx → α)
    (h : (⟨2, ![a, b]⟩ : Shape).Slices ![ro, co] ⟨2, ![a', b']⟩) (p : Fin a') (j : Fin b')
    (hp : ro + p.val < a) (hj : co + j.val < b) :
    extractStridedSlice ⟨2, ![a', b']⟩ ![ro, co] x h (ix2 p j) = x (ix2 ⟨ro + p.val, hp⟩ ⟨co + j.val, hj⟩) :=
  extractStridedSlice_apply _ x h _ _ (fun ax => by
    match ax with
    | ⟨0, _⟩ => rfl
    | ⟨1, _⟩ => rfl)

/-- Four `[a, w]` matrices side by side, read at `(p, j)`: piece `j / w` at column `j % w`. -/
theorem concat4_cols_apply {a w W : ℕ} (x0 x1 x2 x3 : (⟨2, ![a, w]⟩ : Shape).Idx → α)
    (h : Shape.Concatenates [(⟨2, ![a, w]⟩ : Shape), ⟨2, ![a, w]⟩, ⟨2, ![a, w]⟩, ⟨2, ![a, w]⟩] ⟨2, ![a, W]⟩ 1)
    (p : Fin a) (j : Fin (W)) (g : Fin 4) (q : Fin w) (hj : j.val = g.val * w + q.val) :
    concatenate ⟨2, ![a, W]⟩ 1 [⟨⟨2, ![a, w]⟩, x0⟩, ⟨⟨2, ![a, w]⟩, x1⟩, ⟨⟨2, ![a, w]⟩, x2⟩, ⟨⟨2, ![a, w]⟩, x3⟩] h (ix2 p j)
      = (![x0, x1, x2, x3] g) (ix2 p q) := by
  have hi : ∀ b : Fin 2, b.cast (rfl : (2 : ℕ) = 2) ≠ (1 : Fin 2) →
      ((ix2 p q : (⟨2, ![a, w]⟩ : Shape).Idx) b).val = ((ix2 p j : (⟨2, ![a, W]⟩ : Shape).Idx) (b.cast rfl)).val := by
    intro b hb
    match b with
    | ⟨0, _⟩ => rfl
    | ⟨1, _⟩ => exact absurd rfl hb
  match g, hj with
  | ⟨0, _⟩, hj =>
    exact concatenate_apply_piece (t := ⟨2, ![a, W]⟩) (1 : Fin 2) [⟨⟨2, ![a, w]⟩, x0⟩, ⟨⟨2, ![a, w]⟩, x1⟩, ⟨⟨2, ![a, w]⟩, x2⟩, ⟨⟨2, ![a, w]⟩, x3⟩] h (ix2 p j)
      0 (by show 0 < 4; omega) ⟨2, ![a, w]⟩ x0 rfl rfl 0 rfl (ix2 p q) hi
      (by show 0 + q.val = j.val; rw [hj]; show 0 + q.val = 0 * w + q.val; omega)
  | ⟨1, _⟩, hj =>
    exact concatenate_apply_piece (t := ⟨2, ![a, W]⟩) (1 : Fin 2) [⟨⟨2, ![a, w]⟩, x0⟩, ⟨⟨2, ![a, w]⟩, x1⟩, ⟨⟨2, ![a, w]⟩, x2⟩, ⟨⟨2, ![a, w]⟩, x3⟩] h (ix2 p j)
      1 (by show 1 < 4; omega) ⟨2, ![a, w]⟩ x1 rfl rfl (w + 0) rfl (ix2 p q) hi
      (by show w + 0 + q.val = j.val; rw [hj]; show w + 0 + q.val = 1 * w + q.val; omega)
  | ⟨2, _⟩, hj =>
    exact concatenate_apply_piece (t := ⟨2, ![a, W]⟩) (1 : Fin 2) [⟨⟨2, ![a, w]⟩, x0⟩, ⟨⟨2, ![a, w]⟩, x1⟩, ⟨⟨2, ![a, w]⟩, x2⟩, ⟨⟨2, ![a, w]⟩, x3⟩] h (ix2 p j)
      2 (by show 2 < 4; omega) ⟨2, ![a, w]⟩ x2 rfl rfl (w + (w + 0)) rfl (ix2 p q) hi
      (by show w + (w + 0) + q.val = j.val; rw [hj]; show w + (w + 0) + q.val = 2 * w + q.val; omega)
  | ⟨3, _⟩, hj =>
    exact concatenate_apply_piece (t := ⟨2, ![a, W]⟩) (1 : Fin 2) [⟨⟨2, ![a, w]⟩, x0⟩, ⟨⟨2, ![a, w]⟩, x1⟩, ⟨⟨2, ![a, w]⟩, x2⟩, ⟨⟨2, ![a, w]⟩, x3⟩] h (ix2 p j)
      3 (by show 3 < 4; omega) ⟨2, ![a, w]⟩ x3 rfl rfl (w + (w + (w + 0))) rfl (ix2 p q) hi
      (by show w + (w + (w + 0)) + q.val = j.val; rw [hj]; show w + (w + (w + 0)) + q.val = 3 * w + q.val; omega)

end Cert.Lib.MatOps

end
-- ==== Proof.PipeValue.lean ====
/-
  The pipelined matrix product at the ideal values. Entry (p, e) of the body's product is the sum over the 128
  contracted coordinates f of (x + pos)(p, f) times row e of the weight block at f; row e of block `t` is row
  2048 t + e of the weight matrix where that row exists; the result window's blocks are the column blocks of
  (x + pos) Wᵀ, and the twenty-five of them, the last cut at column 50257, cover the matrix.
-/
import proofs.«205851_g1529008357945_cont_week2b_587_25_alg».proof.Proof.Algebra
import proofs.«205851_g1529008357945_cont_week2b_587_25_alg».proof.Proof.PipeObl
import proofs.«205851_g1529008357945_cont_week2b_587_25_alg».proof.Proof.LibMatOps

noncomputable section

namespace Cert.KernelIdeal.Pf

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.ValueIdx
open Cert.Lib.MatOps
open scoped BigOperators

/-- The body's product at an entry: the right operand is contracted on its second axis. -/
theorem pay_apply (x0 x1 x2 : Vec Ideal S2048x128 .f32) (p e : Fin 2048) :
    k1_pay1 (F := Ideal) x0 x1 x2 (ix2 p e) = ∑ f : Fin 128, (x0 (ix2 p f) + x1 (ix2 p f)) * x2 (ix2 e f) := by
  unfold k1_pay1
  exact (matmul_trhs_zero_apply (M := 2048) (K := 128) (N := 2048) none
    (addf (shapeCast S2048x128 x0 shapeCasts_S2048x128_S2048x128) x1) x2 p e).trans
    (Finset.sum_congr rfl fun f _ => by
      show (shapeCast S2048x128 x0 shapeCasts_S2048x128_S2048x128 (ix2 p f) + x1 (ix2 p f)) * x2 (ix2 e f) = _
      rw [shapeCast_self])

/-- How the transfers cut the blocks, decided over the twenty-five points: the weight window moves
    min 2048 (50257 - 2048 t) rows of 128 lanes, the result window 2048 rows of as many columns. -/
theorem clip_facts : ∀ t : Fin cfg1.N,
    win1_2.xsize (grid1.coords t) (0 : Fin 2) = min 2048 (50257 - 2048 * t.val)
    ∧ win1_2.xsize (grid1.coords t) (1 : Fin 2) = 128
    ∧ win1_3.xsize (grid1.coords t) (0 : Fin 2) = 2048
    ∧ win1_3.xsize (grid1.coords t) (1 : Fin 2) = min 2048 (50257 - 2048 * t.val) :=
  (by decide +kernel : ∀ t : Fin grid1.N, _)

/-- A row of the weight window's buffer that the fetch fills. -/
theorem moved_2 (t : Fin cfg1.N) (e : Fin 2048) (f : Fin 128) (he : 2048 * t.val + e.val < 50257) :
    win1_2.moved (grid1.coords t) (ix2 e f) = true := by
  obtain ⟨c0, c1, -⟩ := clip_facts t
  refine (win1_2.moved_iff _ _).mpr fun a => ?_
  match a with
  | ⟨0, _⟩ => show e.val < win1_2.xsize (grid1.coords t) (0 : Fin 2); have := e.isLt; omega
  | ⟨1, _⟩ => show f.val < win1_2.xsize (grid1.coords t) (1 : Fin 2); have := f.isLt; omega

/-- On such a row a filled block does not depend on what it was filled over. -/
theorem fill_2_congr {α : Type} (t : Fin cfg1.N) (d d' : S2048x128.Idx → α) (g : (win1_2.xblock (grid1.coords t)).Idx → α)
    (e : Fin 2048) (f : Fin 128) (he : 2048 * t.val + e.val < 50257) :
    win1_2.fill (grid1.coords t) d g (ix2 e f) = win1_2.fill (grid1.coords t) d' g (ix2 e f) := by
  have hm := moved_2 t e f he
  unfold Window.fill; rw [dif_pos hm, dif_pos hm]

variable (Vv : (c : Dev nD) → (b : Ref sig .tc) → Buf (Elt Ideal) ((c.tc : Thread nD τ).loc b))

/-- The three arrays the product reads, as matrices of extended reals: the gathered rows, the position table, the
    weight matrix. -/
abbrev xMat (c : Dev nD) : FVec Ideal S2048x128 .f32 := Vv c main_v1
abbrev posMat (c : Dev nD) : FVec Ideal S2048x128 .f32 := Vv c main_arg2
abbrev wMat (c : Dev nD) : FVec Ideal S50257x128 .f32 := Vv c main_arg3

/-- Row `e` of the filled weight block `t` is row 2048 t + e of the weight matrix, where that row exists. -/
theorem wblkF_apply (c : Dev nD) (t : Fin cfg1.N) (e : Fin 2048) (f : Fin 128) (he : 2048 * t.val + e.val < 50257) :
    wblkF Vv c t (ix2 e f) = wMat Vv c (ix2 ⟨2048 * t.val + e.val, he⟩ f) := by
  obtain ⟨-, -, -, -, i0, i1, -⟩ := idx_facts t
  have hm := moved_2 t e f he
  unfold wblkF Window.fill; rw [dif_pos hm]
  unfold wblk
  show wMat Vv c ((win1_2.blk t).view.emb _) = _
  refine congrArg (wMat Vv c) (funext fun a => Fin.ext ?_)
  match a with
  | ⟨0, _⟩ => show win1_2.index t (0 : Fin 2) * 2048 + 1 * e.val = 2048 * t.val + e.val; omega
  | ⟨1, _⟩ => show win1_2.index t (1 : Fin 2) * 128 + 1 * f.val = f.val; omega

/-- The block of the product at point `t`, entry by entry: (x + pos)(p, ·) against row `e` of the filled weight
    block (past the weight matrix's last row the filler, the zero word). -/
def aft3I (c : Dev nD) (t : Fin cfg1.N) : S2048x2048.Idx → Elt Ideal .f32 := fun i =>
  ∑ f : Fin 128, (xMat Vv c (ix2 (i 0) f) + posMat Vv c (ix2 (i 0) f)) * (wblkF Vv c t : FVec Ideal S2048x128 .f32) (ix2 (i 1) f)

/-- The body's product of the arrays and a weight block filled over anything agrees with `aft3I` on the columns
    inside the result matrix. -/
theorem pay_eq_aft3I (c : Dev nD) (t : Fin cfg1.N) (d2 : S2048x128.Idx → Elt Ideal .f32) (p e : Fin 2048)
    (he : 2048 * t.val + e.val < 50257) :
    k1_pay1 (F := Ideal) (Vv c main_v1) (Vv c main_arg2) (win1_2.fill (grid1.coords t) d2 (wblk Vv c t)) (ix2 p e)
      = aft3I Vv c t (ix2 p e) := by
  rw [pay_apply]
  refine Finset.sum_congr rfl fun f _ => ?_
  exact congrArg (fun z => (xMat Vv c (ix2 p f) + posMat Vv c (ix2 p f)) * z) (fill_2_congr t d2 _ (wblk Vv c t) e f he)

/-- So the two agree on the part of the result's buffer the write-back moves. -/
theorem cut_pay (c : Dev nD) (t : Fin cfg1.N) (d2 : S2048x128.Idx → Elt Ideal .f32) :
    win1_3.cut (grid1.coords t) (k1_pay1 (F := Ideal) (Vv c main_v1) (Vv c main_arg2) (win1_2.fill (grid1.coords t) d2 (wblk Vv c t)))
      = win1_3.cut (grid1.coords t) (aft3I Vv c t) := by
  obtain ⟨-, -, c2, c3⟩ := clip_facts t
  funext j
  have h0 : (j 0).val < win1_3.xsize (grid1.coords t) (0 : Fin 2) := (j 0).isLt
  have h1 : (j 1).val < win1_3.xsize (grid1.coords t) (1 : Fin 2) := (j 1).isLt
  have e : win1_3.xinj (grid1.coords t) j = ix2 (⟨(j 0).val, by omega⟩ : Fin 2048) (⟨(j 1).val, by omega⟩ : Fin 2048) :=
    funext fun a => Fin.ext (by match a with | ⟨0, _⟩ => rfl | ⟨1, _⟩ => rfl)
  show k1_pay1 (F := Ideal) _ _ _ (win1_3.xinj (grid1.coords t) j) = aft3I Vv c t (win1_3.xinj (grid1.coords t) j)
  rw [e]
  exact pay_eq_aft3I Vv c t d2 _ _ (by show 2048 * t.val + (j 1).val < 50257; omega)

variable (rcd : (c : Dev nD) → Set (SemLoc sig × HIx 1))

/-- The result window's staging contents after the body at point `t`, by unfolding the proof data. -/
theorem after_3 (c : Dev nD) (t : Fin cfg1.N) : (dats (F := Ideal) Vv (aft3I Vv) rcd 0 c).after (3 : Fin 4) t = aft3I Vv c t := by
  dsimp only [dats]

/-- The body's obligation at the ideal values, nothing forgotten: as `body_fgt`, and the result's buffer, which ends
    holding the product of the arrays with the weight block as fetched, is `aft3I` on the columns inside the result
    matrix (`cut_pay`) — all the loose result window's obligation asks. -/
theorem body_exact (c : Dev nD) :
    BodyObligationLoose (dats (F := Ideal) Vv (aft3I Vv) rcd 0 c) (defs₀ (F := Ideal)) 𝒱₀ (none : HIx 1) Set.univ := fun t => by
  rw [bigSep_W1, bigSep_W1]
  simp only
  rw [show (dats Vv (aft3I Vv) rcd 0 c).Φ t.succ = (dats Vv (aft3I Vv) rcd 0 c).Φ t.castSucc from rfl,
    show (dats Vv (aft3I Vv) rcd 0 c).owesAt (none : HIx 1) t.succ = (dats Vv (aft3I Vv) rcd 0 c).owesAt (none : HIx 1) t.castSucc from rfl]
  iintro ⟨HΦ, Ho, ⟨%d0, H0⟩, ⟨%d1, H1⟩, ⟨%d2, H2⟩, ⟨%d3, H3⟩⟩
  rw [before_0 Vv (aft3I Vv) rcd c t d0, before_1 Vv (aft3I Vv) rcd c t d1, before_2 Vv (aft3I Vv) rcd c t d2,
    before_3 Vv (aft3I Vv) rcd c t d3]
  iapply (sound_body (F := Ideal) c Set.univ (grid1.coords t) (cfg1.slots t 0) (cfg1.slots t 1) (cfg1.slots t 2) (cfg1.slots t 3)
    (Vv c main_v1) (Vv c main_arg2) (win1_2.fill (grid1.coords t) d2 (wblk Vv c t)) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hw : win1_2.cut (grid1.coords t) (wblkF Vv c t) = wblk Vv c t := win1_2.cut_fill _ _ _
  -- the product, filled over itself with `aft3I`'s columns inside the matrix, is the product (`cut_pay`)
  have h3 : (win1 3).fill (grid1.coords t)
      (k1_pay1 (F := Ideal) (Vv c main_v1) (Vv c main_arg2) (win1_2.fill (grid1.coords t) d2 (wblk Vv c t)))
      ((win1 3).cut (grid1.coords t) ((dats (F := Ideal) Vv (aft3I Vv) rcd 0 c).after (3 : Fin 4) t))
      = k1_pay1 (F := Ideal) (Vv c main_v1) (Vv c main_arg2) (win1_2.fill (grid1.coords t) d2 (wblk Vv c t)) := by
    rw [after_3]
    exact win1_3.fill_congr_cut (grid1.coords t) (cut_pay Vv c t d2)
  isplitl [H0]
  · change _ ⊢ owns (c : Thread nD τ) (stage1_0 (cfg1.slots t 0)) fullShare (Vv c main_v1)
    rfl
  isplitl [H1]
  · change _ ⊢ owns (c : Thread nD τ) (stage1_1 (cfg1.slots t 1)) fullShare (Vv c main_arg2)
    rfl
  isplitl [H2]
  · iexists d2
    change _ ⊢ owns (c : Thread nD τ) (stage1_2 (cfg1.slots t 2)) fullShare
      (win1_2.fill (grid1.coords t) d2 (win1_2.cut (grid1.coords t) (wblkF Vv c t)))
    rw [hw]
  · iexists k1_pay1 (F := Ideal) (Vv c main_v1) (Vv c main_arg2) (win1_2.fill (grid1.coords t) d2 (wblk Vv c t))
    rw [h3]
    iexact H3

/-! ## From blocks to the matrix -/

/-- The product matrix (x + pos) Wᵀ, entry by entry. -/
def prodMat (c : Dev nD) : FVec Ideal S2048x50257 .f32 := fun i =>
  ∑ f : Fin 128, (xMat Vv c (ix2 (i 0) f) + posMat Vv c (ix2 (i 0) f)) * wMat Vv c (ix2 (i 1) f)

/-- What point `t` writes back is column block `t` of the product matrix: column `e` of the block is column
    2048 t + e of the matrix, and row `e` of the filled weight block is row 2048 t + e of the weight matrix. -/
theorem flushed_3 (c : Dev nD) (t : Fin cfg1.N) :
    (dats (F := Ideal) Vv (aft3I Vv) rcd 0 c).flushed (3 : Fin 4) t = ((cfg1.win 3).blk t).view.read (Elt Ideal) (prodMat Vv c) := by
  obtain ⟨-, -, -, -, -, -, i0, i1⟩ := idx_facts t
  obtain ⟨-, -, c2, c3⟩ := clip_facts t
  show (cfg1.win 3).cut (grid1.coords t) ((dats (F := Ideal) Vv (aft3I Vv) rcd 0 c).after (3 : Fin 4) t) = _
  rw [after_3]
  funext j
  have h0 : (j 0).val < win1_3.xsize (grid1.coords t) (0 : Fin 2) := (j 0).isLt
  have h1 : (j 1).val < win1_3.xsize (grid1.coords t) (1 : Fin 2) := (j 1).isLt
  have hp : (j 0).val < 2048 := by omega
  have he : (j 1).val < 2048 := by omega
  have hr : 2048 * t.val + (j 1).val < 50257 := by omega
  have e : win1_3.xinj (grid1.coords t) j = ix2 (⟨(j 0).val, hp⟩ : Fin 2048) (⟨(j 1).val, he⟩ : Fin 2048) :=
    funext fun a => Fin.ext (by match a with | ⟨0, _⟩ => rfl | ⟨1, _⟩ => rfl)
  have e' : (win1_3.blk t).view.emb j = ix2 (⟨(j 0).val, hp⟩ : Fin 2048) (⟨2048 * t.val + (j 1).val, hr⟩ : Fin 50257) :=
    funext fun a => Fin.ext (by
      match a with
      | ⟨0, _⟩ => show win1_3.index t (0 : Fin 2) * 2048 + 1 * (j 0).val = (j 0).val; omega
      | ⟨1, _⟩ => show win1_3.index t (1 : Fin 2) * 2048 + 1 * (j 1).val = 2048 * t.val + (j 1).val; omega)
  show aft3I Vv c t (win1_3.xinj (grid1.coords t) j) = prodMat Vv c ((win1_3.blk t).view.emb j)
  rw [e, e']
  unfold aft3I prodMat
  refine Finset.sum_congr rfl fun f _ => ?_
  exact congrArg (fun z => (xMat Vv c (ix2 (⟨(j 0).val, hp⟩ : Fin 2048) f) + posMat Vv c (ix2 (⟨(j 0).val, hp⟩ : Fin 2048) f)) * z)
    (wblkF_apply Vv c t ⟨(j 1).val, he⟩ f hr)

/-- An entry of the result matrix is in point `t`'s block iff each coordinate is in the block's cut range. -/
theorem mem_blk3 (t : Fin cfg1.N) (i : S2048x50257.Idx) :
    i ∈ ((cfg1.win 3).blk t).view.set ↔ ∀ a : Fin 2, win1_3.index t a * S2048x2048.size a ≤ (i a).val
      ∧ (i a).val < win1_3.index t a * S2048x2048.size a + win1_3.xsize (grid1.coords t) a := by
  show i ∈ ((View.whole main_v2).slice (win1_3.rect t)).set ↔ _
  rw [View.set_slice_whole, Rect.mem_set_unit]
  exact Iff.rfl

/-- Column `v` of the result matrix is written at point `v / 2048`. -/
theorem cover_3 (i : S2048x50257.Idx) : ∃ t : Fin cfg1.N, (cfg1.win 3).flush t = true ∧ i ∈ ((cfg1.win 3).blk t).view.set := by
  have hi0 : (i 0).val < 2048 := (i 0).isLt
  have hi1 : (i 1).val < 50257 := (i 1).isLt
  have key : ∀ t : Fin cfg1.N, t.val = (i 1).val / 2048 → i ∈ ((cfg1.win 3).blk t).view.set := fun t ht => by
    obtain ⟨-, -, -, -, -, -, i0, i1⟩ := idx_facts t
    obtain ⟨-, -, c2, c3⟩ := clip_facts t
    rw [mem_blk3]
    intro a
    match a with
    | ⟨0, _⟩ =>
      show win1_3.index t (0 : Fin 2) * 2048 ≤ (i 0).val
        ∧ (i 0).val < win1_3.index t (0 : Fin 2) * 2048 + win1_3.xsize (grid1.coords t) (0 : Fin 2)
      omega
    | ⟨1, _⟩ =>
      show win1_3.index t (1 : Fin 2) * 2048 ≤ (i 1).val
        ∧ (i 1).val < win1_3.index t (1 : Fin 2) * 2048 + win1_3.xsize (grid1.coords t) (1 : Fin 2)
      omega
  have hN : (i 1).val / 2048 < cfg1.N := by have := N_1; show (i 1).val / 2048 < grid1.N; omega
  exact ⟨⟨(i 1).val / 2048, hN⟩, flush1_3 _, key _ rfl⟩

/-- The result matrix after the run is the product matrix. -/
theorem final_prodMat (c : Dev nD) :
    (dats (F := Ideal) Vv (aft3I Vv) rcd 0 c).arrAt (3 : Fin 4) cfg1.N = prodMat Vv c :=
  (dats (F := Ideal) Vv (aft3I Vv) rcd 0 c).arrAt_eq_of_cover (3 : Fin 4) (prodMat Vv c)
    (fun t _ => flushed_3 Vv rcd c t) (cover_3)

/-- The same with the product matrix written out: entry (p, v) is the sum over f of (x + pos)(p, f) W(v, f). -/
theorem final_mat (c : Dev nD) :
    (dats (F := Ideal) Vv (aft3I Vv) rcd 0 c).arrAt (3 : Fin 4) cfg1.N
      = fun i : S2048x50257.Idx => ∑ f : Fin 128, (xMat Vv c (ix2 (i 0) f) + posMat Vv c (ix2 (i 0) f)) * wMat Vv c (ix2 (i 1) f) :=
  final_prodMat Vv rcd c

end Cert.KernelIdeal.Pf

end
-- ==== Proof.LibGatherRows.lean ====
/-
  A gather of table rows by a list of row numbers, read at an index. The table has N rows of C entries; the list
  has R row numbers, each below N; the result has R rows of C entries. Entry (a, c) of the result is the table's
  entry c of the row whose number is the list's entry a.
-/
import Idealize.ShloMosaic.Lib.SparseCore.Stream
import Idealize.ShloMosaic.Lib.ValueIdx

noncomputable section

namespace Cert.Lib.GatherRows

open Idealize.ShloMosaic Idealize.ShloMosaic.ValueIdx

variable {F : FTy → Type}

/-- Entry a of a list read through its row-major numbering. -/
theorem rowMajor_symm_ix1 {R : ℕ} (hn : (⟨1, ![R]⟩ : Shape).numel = R) (a : Fin R) :
    (⟨1, ![R]⟩ : Shape).rowMajor.symm (a.cast hn.symm) = ix1 a := by
  refine (Equiv.symm_apply_eq _).2 (Fin.ext ?_)
  rw [Shape.rowMajor_val_one]
  rfl

/-- The gather's result at (a, c): the table at the row the list names for a, entry c. -/
theorem gatherRows_apply {N C R : ℕ} {e : EltTy} (hg : (⟨2, ![N, C]⟩ : Shape).Gathers 0 ⟨2, ![R, C]⟩)
    (T : (⟨2, ![N, C]⟩ : Shape).Idx → Elt F e) (lst : (⟨1, ![R]⟩ : Shape).Idx → Elt F .i32)
    (hn : (⟨1, ![R]⟩ : Shape).numel = R) (h : ∀ x, (lst x).toNat < N) (a : Fin R) (c : Fin C) :
    SparseCore.gatherPayload hg T (SparseCore.rows lst hn h) (ix2 a c)
      = T (ix2 (⟨(lst (ix1 a)).toNat, h _⟩ : Fin N) c) := by
  unfold SparseCore.gatherPayload
  refine congrArg T (funext fun b => Fin.ext ?_)
  match b with
  | ⟨0, _⟩ =>
    have h1 := Shape.Gathers.idx_axis hg (SparseCore.rows lst hn h) (ix2 a c)
    show (hg.idx (SparseCore.rows lst hn h) (ix2 a c) hg.axis).val = (lst (ix1 a)).toNat
    rw [h1]
    show (lst ((⟨1, ![R]⟩ : Shape).rowMajor.symm (a.cast hn.symm))).toNat = _
    rw [rowMajor_symm_ix1 hn a]
  | ⟨1, _⟩ =>
    exact Shape.Gathers.idx_of_ne hg (SparseCore.rows lst hn h) (ix2 a c) ⟨1, Nat.one_lt_two⟩ Nat.one_ne_zero

end Cert.Lib.GatherRows

end
-- ==== Proof.TileBody.lean ====
/-
  One tile of the lookup kernel, at a symbolic place.

  Tile (c, s) fetches its sixty-four index words into a scratch of its own, gathers the table's rows those words name
  into a second scratch, and writes that scratch out to its sixty-four result rows. Each of the three copies is waited
  for before the next starts. From a share of the whole table, the tile's list positions and its result rows, the body
  ends holding the same, its rows at the gathered rows: row r of the result is the table's row named by index word r.
  The value is read off the three copies' payloads: the fetch lands the list's words, the gather lands for row k the
  table's row named by word k, the write-out lands the second scratch, and the tile's positions and rows start at the
  same offset.
-/
import proofs.«205851_g1529008357945_cont_week2b_587_25_alg».proof.Proof.Algebra
import proofs.«205851_g1529008357945_cont_week2b_587_25_alg».proof.Proof.TileRes
import proofs.«205851_g1529008357945_cont_week2b_587_25_alg».proof.Proof.LibGatherRows
import Idealize.ShloMosaic.Lib.SparseCore.Stream
import Idealize.ShloMosaic.Lib.ValueIdx

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The tile's scratch and semaphores -/

/-- A tile's scratch: the fetched index words, the gathered rows. -/
abbrev sI : Memref sig .scVector .vmem S64 .i32 := Memref.whole cc0_scratch0
abbrev sR : Memref sig .scVector .vmem S64x128 .f32 := Memref.whole cc0_scratch1

section Tile

variable (d : Dev nD) (L : grid0.Coords)

abbrev cellA : GSem nD τ sig := (V d (cV L) (jV L), .dma cc0_scoped0.sem)
abbrev cellG : GSem nD τ sig := (V d (cV L) (jV L), .dma cc0_scratch2.sem)
abbrev cellB : GSem nD τ sig := (V d (cV L) (jV L), .dma cc0_scoped1.sem)

theorem pts_tok (q : PosShare TreeShare) (f : Buf (Elt F) (tokLoc d)) :
    ((tokM).view.loc (V d (cV L) (jV L)) ↦{q} f : sProp 𝕄) = tokLoc d ↦{q} f := rfl
theorem pts_lst (f : Buf (Elt F) (lstLoc d)) :
    ((lstSl L).view.loc (V d (cV L) (jV L)) ↦[(lstSl L).view.set]{fullShare} f : sProp 𝕄) = lstLoc d ↦[idxSet L]{fullShare} f := rfl
theorem pts_rows (f : Buf (Elt F) (rowsLoc d)) :
    ((rowsSl L).view.loc (V d (cV L) (jV L)) ↦[(rowsSl L).view.set]{fullShare} f : sProp 𝕄) = rowsLoc d ↦[rowSet L]{fullShare} f := rfl
theorem pts_sI (f : Buf (Elt F) ((V d (cV L) (jV L)).loc cc0_scratch0)) :
    ((sI).view.loc (V d (cV L) (jV L)) ↦[(sI).view.set]{fullShare} f : sProp 𝕄) = (V d (cV L) (jV L)).loc cc0_scratch0 ↦{fullShare} f := by
  simp only [Memref.view_whole, View.set_whole]
theorem pts_sR (f : Buf (Elt F) ((V d (cV L) (jV L)).loc cc0_scratch1)) :
    ((sR).view.loc (V d (cV L) (jV L)) ↦[(sR).view.set]{fullShare} f : sProp 𝕄) = (V d (cV L) (jV L)).loc cc0_scratch1 ↦{fullShare} f := by
  simp only [Memref.view_whole, View.set_whole]

theorem ownSems0_V :
    (ownSems0 (V d (cV L) (jV L)) : sProp 𝕄)
      = iprop(semVal (cellA d L) 0 ∗ semVal (cellG d L) 0 ∗ semVal (cellB d L) 0
          ∗ bigSep ((((ownCells (V d (cV L) (jV L))).erase (cellA d L)).erase (cellG d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellG]; decide, (mem_ownCells (g := cellG d L)).mpr ⟨rfl, by
      show (SemLoc.dma cc0_scratch2.sem : SemLoc sig).isScoped .scVector = true; decide⟩⟩),
    SparseCore.bigSep_erase' (Finset.mem_erase.mpr ⟨by simp [cellG, cellB]; decide, Finset.mem_erase.mpr ⟨by simp [cellA, cellB]; decide,
      (mem_ownCells (g := cellB d L)).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The whole shape's placement is the identity. -/
theorem whole_emb {s : Shape} (x : s.Idx) : (Rect.whole s).emb x = x := by
  funext a; apply Fin.ext; rw [Rect.emb_apply]; show 0 + 1 * (x a).val = (x a).val; omega

/-- The fetched index words name rows of the table, whatever the scratch held before the fetch. -/
theorem fetched_inb (lst : Buf (Elt F) (lstLoc d)) (hin : ∀ j : S2048.Idx, (lst j).toNat < 50257)
    (g : Buf (Elt F) ((sI).view.loc (V d (cV L) (jV L)))) (x : S64.Idx) :
    ((sI).view.read (Elt F) ((sI).view.writes (Elt F) g [⟨Rect.whole S64, ReadAs.same.apply ((lstSl L).view.read (Elt F) lst)⟩]) x).toNat < 50257 := by
  have e := View.read_writes_cons_emb (v := (sI).view) (f := g) (Rect.whole S64) (ReadAs.same.apply ((lstSl L).view.read (Elt F) lst)) [] x
  rw [whole_emb] at e
  rw [e]
  exact hin _

/-- The source of the gather as the body names it: the whole table, sliced at nothing. -/
abbrev tokSl : Memref sig .scVector .hbm S50257x128 .f32 :=
  (tokM).slice (Rect.unit (s := S50257x128) ![0, 0] S50257x128.size inb_S50257x128_S50257x128_0_0) (fun _ => rfl)

/-- A buffer written whole reads as what was written, whatever it held. -/
theorem read_writes_whole {κ : Kind} {sp : Space} {s : Shape} {e : EltTy} (v : View sig κ sp s e) (f : v.ty.Contents (Elt F))
    (w : s.Idx → Elt F e) (x : s.Idx) : v.read (Elt F) (v.writes (Elt F) f [⟨Rect.whole s, w⟩]) x = w x := by
  have e := View.read_writes_cons_emb (v := v) (f := f) (Rect.whole s) w [] x
  rwa [whole_emb] at e

/-- Two positions of a list are one when their numbers are. -/
theorem idx1_ext {n : ℕ} (u v : (⟨1, ![n]⟩ : Shape).Idx) (h : (u 0).val = (v 0).val) : u = v := by
  funext a; obtain rfl : a = 0 := Subsingleton.elim _ _; exact Fin.ext h

/-- The table as the body names it reads as the table. -/
theorem tokSl_read (f : Buf (Elt F) (tokLoc d)) (z : S50257x128.Idx) : (tokSl).view.read (Elt F) f z = f z := by
  have hz : (tokSl).view.emb z = z := by
    funext a; apply Fin.ext
    show (![0, 0] : Fin 2 → ℕ) a + 1 * (z a).val = (z a).val
    match a with
    | ⟨0, _⟩ => simp
    | ⟨1, _⟩ => simp
  rw [View.read_apply, hz]; rfl

theorem rowSet_eq : rowSet L = (Rect.unit (s := S2048x128) (k0_off2 L) S64x128.size (k0_off2_inb L)).set := by
  show ((View.whole (main_v1_scv : Ref sig .scVector)).slice _).set = _
  rw [View.set_slice]; exact Finset.map_refl
theorem idxSet_eq : idxSet L = (Rect.unit (s := S2048) (k0_off1 L) S64.size (k0_off1_inb L)).set := by
  show ((View.whole (main_v0_scv : Ref sig .scVector)).slice _).set = _
  rw [View.set_slice]; exact Finset.map_refl

/-- What the write-out leaves at an element of the tile's rows: the table's row named by the tile's index word for that
    row, whatever the two scratches held before. -/
theorem rows_value (m : (ℓ : Loc nD τ sig) → Buf (Elt F) ℓ) (lst : Buf (Elt F) (lstLoc d)) (hin : ∀ j : S2048.Idx, (lst j).toNat < 50257)
    (fr : Buf (Elt F) ((sR).view.loc (V d (cV L) (jV L)))) (fo : S64.Idx → Elt F .i32)
    (hfo : ∀ x, fo x = (lstSl L).view.read (Elt F) lst x)
    (hn : S64.numel = S64x128.size gathers_S50257x128_S64x128.axis')
    (h : ∀ x, (fo x).toNat < S50257x128.size gathers_S50257x128_S64x128.axis)
    (i : S2048x128.Idx) (hi : i ∈ rowSet L) :
    (rowsSl L).view.writes (Elt F) (m (rowsLoc d)) [⟨Rect.whole S64x128,
        ReadAs.same.apply ((sR).view.read (Elt F) ((sR).view.writes (Elt F) fr [⟨Rect.whole S64x128,
          SparseCore.gatherPayload gathers_S50257x128_S64x128 ((tokSl).view.read (Elt F) (m (tokLoc d))) (SparseCore.rows fo hn h)⟩]))⟩] i
      = gathered (m (tokLoc d)) lst i := by
  rw [rowSet_eq] at hi
  obtain ⟨y0, rfl⟩ := (Rect.unit (s := S2048x128) (k0_off2 L) S64x128.size (k0_off2_inb L)).exists_idx_of_mem hi
  clear hi
  revert y0
  intro (y : S64x128.Idx)
  -- the element is the placement of y: it reads what the write-out carried for y
  have e1 := read_writes_whole (F := F) (rowsSl L).view (m (rowsLoc d))
    (ReadAs.same.apply ((sR).view.read (Elt F) ((sR).view.writes (Elt F) fr [⟨Rect.whole S64x128,
          SparseCore.gatherPayload gathers_S50257x128_S64x128 ((tokSl).view.read (Elt F) (m (tokLoc d))) (SparseCore.rows fo hn h)⟩]))) y
  rw [View.read_apply] at e1
  refine (show _ = _ from e1).trans ?_
  show (sR).view.read (Elt F) ((sR).view.writes (Elt F) fr [⟨Rect.whole S64x128, _⟩]) y = _
  rw [read_writes_whole]
  have hg := Cert.Lib.GatherRows.gatherRows_apply (F := F) (N := 50257) (C := 128) (R := 64) (e := .f32) gathers_S50257x128_S64x128
    ((tokSl).view.read (Elt F) (m (tokLoc d))) fo hn h (y 0) (y 1)
  have hy : (ix2 (n0 := 64) (n1 := 128) (y 0) (y 1) : S64x128.Idx) = y := by
    funext a
    match a with
    | ⟨0, _⟩ => rfl
    | ⟨1, _⟩ => rfl
  rw [hy] at hg
  refine hg.trans ?_
  rw [tokSl_read]
  unfold gathered
  refine congrArg (m (tokLoc d)) ?_
  have hw : fo (ix1 (y 0)) = lst (ix1 (((Rect.unit (s := S2048x128) (k0_off2 L) S64x128.size (k0_off2_inb L)).idx y) 0)) := by
    rw [hfo, View.read_apply]
    refine (cast_eq _ _).trans (congrArg lst (idx1_ext (n := 2048) _ _ ?_))
    show k0_off1 L 0 + 1 * (y 0).val = k0_off2 L 0 + 1 * (y 0).val
    rw [k0_off1_eq, k0_off2_eq]; rfl
  funext a
  match a with
  | ⟨0, _⟩ =>
    apply Fin.ext
    show (fo (ix1 (y 0))).toNat = min (lst (ix1 _)).toNat 50256
    rw [hw]
    have := hin (ix1 (((Rect.unit (s := S2048x128) (k0_off2 L) S64x128.size (k0_off2_inb L)).idx y) 0))
    omega
  | ⟨1, _⟩ =>
    apply Fin.ext
    show (y 1).val = k0_off2 L 1 + 1 * (y 1).val
    rw [k0_off2_eq]; simp

variable [FloatOps F]

theorem tile_body (m : (ℓ : Loc nD τ sig) → Buf (Elt F) ℓ) (lst : Buf (Elt F) (lstLoc d)) (hin : ∀ j : S2048.Idx, (lst j).toNat < 50257)
    (q : PosShare TreeShare) (O : CellTallies nD τ sig (HIx 1)) (W : Waits sig (HIx 1)) (hO : ∀ g, O g none = 0) :
    iprop(levAts (K (F := F)).L (K (F := F)).lev ∗ emp ∗ tileIn m d lst q L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tokM (Memref.isWhole_whole _) lstM (Memref.isWhole_whole _) rowsM (Memref.isWhole_whole _)
            (Memref.whole cc0_scratch0) (Memref.isWhole_whole _) (Memref.whole cc0_scratch1) (Memref.isWhole_whole _) cc0_scratch2 cc0_scoped0 cc0_scoped1)
          fun _ => iprop(tileOut m d lst q L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V facts d (cV L) (jV L), SparseCore.Cfg.scopedSems0_V (Val := Elt F) d (cV L) (jV L), ownSems0_V, ownBufs_V]
  unfold tileIn tileOut
  iintro ⟨#Hlv, -, ⟨Htok, Hlst, Hrows⟩, ⟨⟨%fi, Hsi⟩, ⟨%fr, Hsr⟩, Hbufs⟩, ⟨HsemA, HsemG, HsemB, Hsems⟩, HO⟩
  ihave Hmw := ((K (F := F)).mayWaits_none (thr := V d (cV L) (jV L)) hO) $$ Hlv
  ihave Htok' := (Entails.of_eq (pts_tok (F := F) d L q _).symm) $$ Htok
  ihave Hlst' := (Entails.of_eq (pts_lst (F := F) d L _).symm) $$ Hlst
  ihave Hrows' := (Entails.of_eq (pts_rows (F := F) d L _).symm) $$ Hrows
  ihave Hsi' := (Entails.of_eq (pts_sI (F := F) d L _).symm) $$ Hsi
  ihave Hsr' := (Entails.of_eq (pts_sR (F := F) d L _).symm) $$ Hsr
  have hin' := fetched_inb (F := F) d L lst hin
  sl_exec
  sl_step
  have hval : ∀ i ∈ rowSet L, ((rowsSl L).view.writes (Elt F) (m (rowsLoc d)) [⟨Rect.whole S64x128, tile_body.sl.dma0_1 d L m lst fr hin'⟩]) i
      = gathered (m (tokLoc d)) lst i := by
    intro i hi
    refine rows_value (F := F) d L m lst hin fr _ ?_ _ _ i hi
    exact fun x => read_writes_whole _ _ _ x
  isplitl [Htok' Hlst' Hrows']
  · isplitl [Htok']; · iexact Htok'
    isplitl [Hlst']; · iexact Hlst'
    ihave Hrows := (Entails.of_eq (pts_rows (F := F) d L _)) $$ Hrows'
    iapply (Entails.of_eq (pointsTo_congr hval)); iexact Hrows
  isplitl [Hsi' Hsr' Hbufs]
  · isplitl [Hsi']
    · iexists _; iapply (Entails.of_eq (pts_sI (F := F) d L _)); iexact Hsi'
    isplitl [Hsr']
    · iexists _; iapply (Entails.of_eq (pts_sR (F := F) d L _)); iexact Hsr'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.KernelIdeal.Pf

end
-- ==== Proof.TileObl.lean ====
/-
  The tile kernel's obligation to the launch: every tile of the one call, handed its operands, runs the body and hands
  its results back.

  The body table's entry for a vector subcore is the lookup body at the subcore's own coordinates; a tile of the call is
  the subcore at those coordinates, and its operands and results are the body's at that place, the list at the reshaped
  index words, the table's share the tile's leaf. The body owes nothing of its own, and the waits it records are at no
  call's index.
-/
import proofs.«205851_g1529008357945_cont_week2b_587_25_alg».proof.Proof.TileBody
import proofs.«205851_g1529008357945_cont_week2b_587_25_alg».proof.Proof.Pay

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.ScSplit (sh)

variable {F : FTy → Type}

local notation "𝕄" => MT nD τ sig (HIx 1) (Elt F) ℕ UU ℕ

/-- The body table at a vector subcore: the lookup body at the subcore's coordinates, over the whole arrays and the
    subcore's own scratch. -/
theorem defs₀_vector [FloatOps F] (c : Fin τ.nSC) (s : Fin τ.nSub) :
    defs₀ (F := F) (.scVector c s) 0 ()
      = SparseCore.onTile hcore0 hsub0 (fun c s => cc0__gather_body (coordsV c s)
          tokM (Memref.isWhole_whole _) lstM (Memref.isWhole_whole _) rowsM (Memref.isWhole_whole _)
          (Memref.whole cc0_scratch0) (Memref.isWhole_whole _) (Memref.whole cc0_scratch1) (Memref.isWhole_whole _)
          cc0_scratch2 cc0_scoped0 cc0_scoped1) ⟨⟩ c s := rfl

/-- Waits recorded at no call's index are among those the launch allows a task. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's tasks: each tile runs the body at its own place, from its operands to its results. -/
theorem tileObl [FloatOps F] (m : (ℓ : Loc nD τ sig) → Buf (Elt F) ℓ)
    (hin : ∀ (d : Dev nD) (j : S2048.Idx), ((lstOf m d : IVec S2048 32) j).toNat < 50257) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m (lstOf m d) (hin d) (sh c.val i.val) O W hO).trans (wp_mono frame _ _ fun _ => obl_post)

end Cert.KernelIdeal.Pf

end
-- ==== Proof.RefRun.lean ====
/-
  The reference program as a straight line of host operations, and its run.

  The two outlined `take` functions (each with its nested `where`) are unfolded at their call sites, which makes
  `main` a list of 51 host operations over the buffers of the signature.  Every weakly fair execution of that line
  terminates with each buffer holding the fold of the operations' results over the launch contents.
-/
import proofs.«205851_g1529008357945_cont_week2b_587_25_alg».proof.ReferenceIdeal
import proofs.«205851_g1529008357945_cont_week2b_587_25_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 51 operations of `main`, in order: the first `take` (23, the `where` its seventh), the position iota, the second
    `take` (23), then the broadcast of the position rows, the sum, the transpose and the contraction. -/
abbrev ops : List (HloOp τ sig (Elt F)) :=
  [
    TRef.nullary main_call0.c (constantI S_ 32 0#32),
    TRef.unary main_call0.c main_call0.v0 (broadcastInDim S1x2048 ![] bcast_S_S1x2048),
    TRef.binary (.of main_arg0) main_call0.v0 main_call0.v1 (cmpi .slt),
    TRef.nullary main_call0.c_0 (constantI S_ 32 50257#32),
    TRef.unary main_call0.c_0 main_call0.v2 (broadcastInDim S1x2048 ![] bcast_S_S1x2048),
    TRef.binary (.of main_arg0) main_call0.v2 main_call0.v3 addi,
    TRef.ternary main_call0.v1 main_call0.v3 (.of main_arg0) main_call0.call0.v0 select,
    TRef.unary main_call0.call0.v0 main_call0.v5 (broadcastInDim S1x2048x1 ![0, 1] bcast_S1x2048_S1x2048x1_0_1),
    TRef.nullary main_call0.c_1 (constantI S1 32 50256#32),
    TRef.nullary main_call0.c_2 (constantI S_ 32 0#32),
    TRef.unary main_call0.c_2 main_call0.v6 (broadcastInDim S1x2048x1 ![] bcast_S_S1x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x2048x1 ![0, 1, 2] bcast_S1x1x1_S1x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x2048x1_S1x2048_d2 h_S_),
    TRef.binary (.of main_arg1) main_call0.v5 main_call0.v13 (fun x i => Host.gather gather_S50257x128_S1x2048x1_S1x2048x128_2_0_n_n_0_2_1128 x i),
    TRef.unary main_call0.v12 main_call0.v14 (broadcastInDim S1x2048x128 ![0, 1] bcast_S1x2048_S1x2048x128_0_1),
    TRef.nullary main_call0.cst (constant S_ .f32 0x7FC00000#32),
    TRef.unary main_call0.cst main_call0.v15 (broadcastInDim S1x2048x128 ![] bcast_S_S1x2048x128),
    TRef.ternary main_call0.v14 main_call0.v13 main_call0.v15 main_call0.v16 select,
    nullary main_v1 (iotaInDim S2048 32 0),
    TRef.nullary main_call1.c (constantI S_ 32 0#32),
    TRef.unary main_call1.c main_call1.v0 (broadcastInDim S2048 ![] bcast_S_S2048),
    TRef.binary (.of main_v1) main_call1.v0 main_call1.v1 (cmpi .slt),
    TRef.nullary main_call1.c_0 (constantI S_ 32 2048#32),
    TRef.unary main_call1.c_0 main_call1.v2 (broadcastInDim S2048 ![] bcast_S_S2048),
    TRef.binary (.of main_v1) main_call1.v2 main_call1.v3 addi,
    TRef.ternary main_call1.v1 main_call1.v3 (.of main_v1) main_call1.call0.v0 select,
    TRef.unary main_call1.call0.v0 main_call1.v5 (broadcastInDim S2048x1 ![0] bcast_S2048_S2048x1_0),
    TRef.nullary main_call1.c_1 (constantI S1 32 2047#32),
    TRef.nullary main_call1.c_2 (constantI S_ 32 0#32),
    TRef.unary main_call1.c_2 main_call1.v6 (broadcastInDim S2048x1 ![] bcast_S_S2048x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S2048x1 ![0, 1] bcast_S1x1_S2048x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2048x1_S2048_d1 h_S_),
    TRef.binary (.of main_arg2) main_call1.v5 main_call1.v13 (fun x i => Host.gather gather_S2048x128_S2048x1_S2048x128_1_0_n_n_0_1_1128 x i),
    TRef.unary main_call1.v12 main_call1.v14 (broadcastInDim S2048x128 ![0] bcast_S2048_S2048x128_0),
    TRef.nullary main_call1.cst (constant S_ .f32 0x7FC00000#32),
    TRef.unary main_call1.cst main_call1.v15 (broadcastInDim S2048x128 ![] bcast_S_S2048x128),
    TRef.ternary main_call1.v14 main_call1.v13 main_call1.v15 main_call1.v16 select,
    unary main_v2 main_v3 (broadcastInDim S1x2048x128 ![1, 2] bcast_S2048x128_S1x2048x128_1_2 : (⟨S2048x128, .f32⟩ : BufTy).Contents (Elt F) → (⟨S1x2048x128, .f32⟩ : BufTy).Contents (Elt F)),
    binary main_v0 main_v3 main_v4 (addf : (⟨S1x2048x128, .f32⟩ : BufTy).Contents (Elt F) → (⟨S1x2048x128, .f32⟩ : BufTy).Contents (Elt F) → (⟨S1x2048x128, .f32⟩ : BufTy).Contents (Elt F)),
    unary main_arg3 main_v5 ((transpose S128x50257 [1, 0] · transposes_S50257x128_S128x50257_1_0) : (⟨S50257x128, .f32⟩ : BufTy).Contents (Elt F) → (⟨S128x50257, .f32⟩ : BufTy).Contents (Elt F)),
    binary main_v4 main_v5 main_v6 ((fun l r => Host.dotGeneral dot_S1x2048x128_S128x50257_S1x2048x50257_2_0_01_1_n_n none l r) : (⟨S1x2048x128, .f32⟩ : BufTy).Contents (Elt F) → (⟨S128x50257, .f32⟩ : BufTy).Contents (Elt F) → (⟨S1x2048x50257, .f32⟩ : BufTy).Contents (Elt F)) ]

set_option maxRecDepth 2048 in
/-- `main` is that line: the outlined functions unfolded at their calls, the sequencing reassociated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., binary_bufs_sub ..⟩

/-- Every weakly fair execution of `main` terminates with each buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as one pure term of its four argument arrays.

  `take0 tab idx` is `jnp.take` of rows of the `[50257, 128]` table at the `[1, 2048]` index array as the program
  spells it: a negative index is wrapped by adding the row count, the wrapped index is tested against `[0, 50256]`,
  the rows are gathered (the gather clamps the start index into the table), and positions whose test failed are
  replaced by a not-a-number constant.  `take1` is the same over the `[2048, 128]` table at a `[2048]` index vector.
  `refOut` takes the token rows, adds the position rows taken at `0, 1, …, 2047`, and contracts the feature axis with
  the transposed output matrix.
-/
import proofs.«205851_g1529008357945_cont_week2b_587_25_alg».proof.ReferenceIdeal
import proofs.«205851_g1529008357945_cont_week2b_587_25_alg».proof.Proof.Gen.ReferenceIdeal

noncomputable section

namespace Cert.ReferenceIdeal.RefValue

open Cert.ReferenceIdeal Idealize.ShloMosaic
open Cert.ReferenceIdeal.Facts₀

variable {F : FTy → Type} [FloatOps F]

/-- The index array with negative entries wrapped by the row count 50257. -/
def wrap0 (idx : IVec S1x2048 32) : IVec S1x2048 32 :=
  select (cmpi .slt idx (broadcastInDim S1x2048 ![] bcast_S_S1x2048 (constantI S_ 32 0#32)))
    (addi idx (broadcastInDim S1x2048 ![] bcast_S_S1x2048 (constantI S_ 32 50257#32))) idx

/-- The wrapped indices as a `[1, 2048, 1]` array of start indices. -/
def col0 (idx : IVec S1x2048 32) : IVec S1x2048x1 32 :=
  broadcastInDim S1x2048x1 ![0, 1] bcast_S1x2048_S1x2048x1_0_1 (wrap0 idx)

/-- The per-position test `0 ≤ index ≤ 50256`, folded by `and` over the unit axis. -/
def mask0 (idx : IVec S1x2048 32) : IVec S1x2048 1 :=
  Host.reduce IntOp.andi
    (andi (cmpi .sge (col0 idx) (broadcastInDim S1x2048x1 ![] bcast_S_S1x2048x1 (constantI S_ 32 0#32)))
      (cmpi .sle (col0 idx) (broadcastInDim S1x2048x1 ![0, 1, 2] bcast_S1x1x1_S1x2048x1_0_1_2
        (broadcastInDim S1x1x1 ![2] bcast_S1_S1x1x1_2 (constantI S1 32 50256#32)))))
    (constantI S_ 1 1#1) reducesTo_S1x2048x1_S1x2048_d2 h_S_

/-- `jnp.take` of table rows at the index array. -/
def take0 (tab : FVec F S50257x128 .f32) (idx : IVec S1x2048 32) : FVec F S1x2048x128 .f32 :=
  select (broadcastInDim S1x2048x128 ![0, 1] bcast_S1x2048_S1x2048x128_0_1 (mask0 idx))
    (Host.gather gather_S50257x128_S1x2048x1_S1x2048x128_2_0_n_n_0_2_1128 tab (col0 idx))
    (broadcastInDim S1x2048x128 ![] bcast_S_S1x2048x128 (constant S_ .f32 0x7FC00000#32))

/-- The index vector with negative entries wrapped by the row count 2048. -/
def wrap1 (idx : IVec S2048 32) : IVec S2048 32 :=
  select (cmpi .slt idx (broadcastInDim S2048 ![] bcast_S_S2048 (constantI S_ 32 0#32)))
    (addi idx (broadcastInDim S2048 ![] bcast_S_S2048 (constantI S_ 32 2048#32))) idx

/-- The wrapped indices as a `[2048, 1]` array of start indices. -/
def col1 (idx : IVec S2048 32) : IVec S2048x1 32 :=
  broadcastInDim S2048x1 ![0] bcast_S2048_S2048x1_0 (wrap1 idx)

/-- The per-position test `0 ≤ index ≤ 2047`, folded by `and` over the unit axis. -/
def mask1 (idx : IVec S2048 32) : IVec S2048 1 :=
  Host.reduce IntOp.andi
    (andi (cmpi .sge (col1 idx) (broadcastInDim S2048x1 ![] bcast_S_S2048x1 (constantI S_ 32 0#32)))
      (cmpi .sle (col1 idx) (broadcastInDim S2048x1 ![0, 1] bcast_S1x1_S2048x1_0_1
        (broadcastInDim S1x1 ![1] bcast_S1_S1x1_1 (constantI S1 32 2047#32)))))
    (constantI S_ 1 1#1) reducesTo_S2048x1_S2048_d1 h_S_

/-- `jnp.take` of position rows at the index vector. -/
def take1 (tab : FVec F S2048x128 .f32) (idx : IVec S2048 32) : FVec F S2048x128 .f32 :=
  select (broadcastInDim S2048x128 ![0] bcast_S2048_S2048x128_0 (mask1 idx))
    (Host.gather gather_S2048x128_S2048x1_S2048x128_1_0_n_n_0_1_1128 tab (col1 idx))
    (broadcastInDim S2048x128 ![] bcast_S_S2048x128 (constant S_ .f32 0x7FC00000#32))

/-- The embedded input `[1, 2048, 128]`: token rows plus position rows. -/
def embedded (idx : IVec S1x2048 32) (tok : FVec F S50257x128 .f32) (pos : FVec F S2048x128 .f32) : FVec F S1x2048x128 .f32 :=
  addf (take0 tok idx)
    (broadcastInDim S1x2048x128 ![1, 2] bcast_S2048x128_S1x2048x128_1_2 (take1 pos (iotaInDim S2048 32 0)))

/-- The reference's result `[1, 2048, 50257]`. -/
def refOut (idx : IVec S1x2048 32) (tok : FVec F S50257x128 .f32) (pos : FVec F S2048x128 .f32)
    (W : FVec F S50257x128 .f32) : FVec F S1x2048x50257 .f32 :=
  Host.dotGeneral dot_S1x2048x128_S128x50257_S1x2048x50257_2_0_01_1_n_n none (embedded idx tok pos)
    (transpose S128x50257 [1, 0] W transposes_S50257x128_S128x50257_1_0)

end Cert.ReferenceIdeal.RefValue

end
-- ==== Proof.RefOut.lean ====
/-
  The fold of the reference's 51 operations, read at the result buffer and at the four argument buffers.

  At the result buffer the fold is the pure term `refOut` of the four argument arrays; no operation writes an argument
  buffer, so each argument keeps its launch contents.  Together with the run of the straight line this gives the
  reference's run with its result named by `refOut`.
-/
import proofs.«205851_g1529008357945_cont_week2b_587_25_alg».proof.Proof.RefRun
import proofs.«205851_g1529008357945_cont_week2b_587_25_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
set_option maxRecDepth 8192 in
set_option maxHeartbeats 1600000 in
/-- The fold at the result buffer is `refOut` of the argument buffers' contents. -/
theorem out_eq (V : Valuation τ sig (Elt F)) :
    after ops V (main_v6 : DevRef τ sig)
      = refOut (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp
set_option maxRecDepth 8192 in
theorem arg3_eq (V : Valuation τ sig (Elt F)) : after ops V (main_arg3 : DevRef τ sig) = V (main_arg3 : DevRef τ sig) := by
  after_results_simp

/-- Every weakly fair execution of `main` terminates with the result buffer at `refOut` of the arguments' launch contents
    and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.LibGather2.lean ====
/-
  A gather of table rows, read at an index. The table has N rows of C entries; the array of start indices has shape
  [R, H, 1], one row number per (r, h); the result has shape [R, H, C]. With offset axis 2, collapsed operand axis 0,
  start index map [0], index vector axis 2 and slice sizes [1, C] (what taking rows of a two-dimensional table along
  axis 0 lowers to), entry (r, h, c) of the result is the table's entry c of the row whose number is the start index
  at (r, h, 0), read as a signed integer and clamped into [0, N - 1].
-/
import Idealize.ShloMosaic.Lib.ValueIdx

noncomputable section

namespace Cert.Lib.Gather2

open Idealize.ShloMosaic Idealize.ShloMosaic.ValueIdx

variable {α : Type}

/-- Those dimension numbers for a table [N, C], start indices [R, H, 1] and a result [R, H, C]; their conditions are
    decided on a program's literal shapes. -/
abbrev rowDims (N C R H : Nat)
    (wf : GatherDims.WF ⟨2, ![N, C]⟩ ⟨3, ![R, H, 1]⟩ ⟨3, ![R, H, C]⟩ [2] [0] [] [0] [] 2 ![1, C]) :
    GatherDims ⟨2, ![N, C]⟩ ⟨3, ![R, H, 1]⟩ ⟨3, ![R, H, C]⟩ where
  offsetDims := [2]
  collapsedSliceDims := [0]
  operandBatchingDims := []
  startIndicesBatchingDims := []
  startIndexMap := [0]
  indexVectorDim := 2
  sliceSizes := ![1, C]
  wf := wf

/-- The gather read at (r, h, c): the table at the row the start index at (r, h, 0) names, read signed and clamped
    into [0, N - 1], entry c. -/
theorem gather_rows_apply {N C R H w : Nat} (hN : 0 < N)
    (wf : GatherDims.WF ⟨2, ![N, C]⟩ ⟨3, ![R, H, 1]⟩ ⟨3, ![R, H, C]⟩ [2] [0] [] [0] [] 2 ![1, C])
    (x : (⟨2, ![N, C]⟩ : Shape).Idx → α) (idx : IVec ⟨3, ![R, H, 1]⟩ w) (r : Fin R) (h : Fin H) (c : Fin C) :
    Host.gather (rowDims N C R H wf) x idx (ix3 r h c)
      = x (ix2 ⟨min (idx (ix3 r h (0 : Fin 1))).toInt.toNat (N - 1), by omega⟩ c) := by
  unfold Host.gather
  congr 1
  funext a
  refine Fin.ext ?_
  match a with
  | ⟨0, _⟩ =>
    show (rowDims N C R H wf).start (ix3 r h c) idx 0 + (rowDims N C R H wf).batchCoord (ix3 r h c) 0
        + (rowDims N C R H wf).offCoord (ix3 r h c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims N C R H wf).startIndexMap from List.mem_singleton.mpr rfl)]
    have hsi : (rowDims N C R H wf).siIdx (ix3 r h c) ⟨List.idxOf (0 : Fin 2) (rowDims N C R H wf).startIndexMap,
        List.idxOf_lt_length_iff.2 (List.mem_singleton.mpr rfl)⟩ = ix3 r h (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N C R H wf).start (ix3 r h c) idx 1 + (rowDims N C R H wf).batchCoord (ix3 r h c) 1
        + (rowDims N C R H wf).offCoord (ix3 r h c) 1 = c.val
    have hs : (rowDims N C R H wf).start (ix3 r h c) idx 1 = 0 := by
      unfold GatherDims.start
      rw [dif_neg (show (1 : Fin 2) ∉ ([0] : List (Fin 2)) by decide)]
    rw [hs, GatherDims.batchCoord_eq_zero _ _ _ List.not_mem_nil]
    have hk : (1 : Fin 2) ∈ (rowDims N C R H wf).sKept :=
      (GatherDims.mem_sKept _ _).mpr ⟨show (1 : Fin 2) ∉ ([0] : List (Fin 2)) by decide, List.not_mem_nil⟩
    have hsk : (rowDims N C R H wf).sKept = [(1 : Fin 2)] := rfl
    have key : ∀ (p : Nat) (hp : p < ([2] : List (Fin 3)).length), p = 0 →
        (ix3 r h c (([2] : List (Fin 3))[p]'hp)).val = c.val := by
      intro p hp h0; subst h0; rfl
    unfold GatherDims.offCoord
    rw [dif_pos hk]
    simp only [Nat.zero_add]
    exact key _ _ (by rw [hsk]; rfl)

end Cert.Lib.Gather2

end
-- ==== Proof.LibBcastInDim.lean ====
/-
  Read-at-an-index lemmas for the host's `broadcast_in_dim` between a vector, a column, a row and a matrix, at any
  extents: a vector `[a]` as the column `[a, 1]`; a column `[a, 1]` repeated across `[a, b]`; a vector `[b]` as the row
  `[1, b]`; a row `[1, b]` repeated down `[a, b]`; and a scalar repeated over any shape.
-/
import Idealize.ShloMosaic.Lib.Pipeline.Value
import Idealize.ShloMosaic.Lib.ValueIdx

noncomputable section

namespace Cert.Lib.BcastInDim

open Idealize.ShloMosaic Idealize.ShloMosaic.ValueIdx

variable {α : Type}

/-- A vector `[a]` broadcast to the column `[a, 1]` reads, at `(r, u)`, the vector's entry `r`. -/
theorem vec_col {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A column `[a, 1]` broadcast to `[a, b]` reads, at `(r, k)`, the column's entry of row `r`. -/
theorem col_mat {a b : ℕ} (x : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) h x (ix2 r k) = x (ix2 r (0 : Fin 1)) :=
  broadcastInDim_apply _ h x (ix2 r k) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else k.val
      rw [if_pos rfl]

/-- A vector `[b]` broadcast to the row `[1, b]` reads, at `(u, k)`, the vector's entry `k`. -/
theorem vec_row {b : ℕ} (x : (⟨1, ![b]⟩ : Shape).Idx → α)
    (h : (⟨1, ![b]⟩ : Shape).BroadcastsInDim ⟨2, ![1, b]⟩ (![1] : Fin 1 → Fin 2)) (u : Fin 1) (k : Fin b) :
    broadcastInDim ⟨2, ![1, b]⟩ (![1] : Fin 1 → Fin 2) h x (ix2 u k) = x (ix1 k) :=
  broadcastInDim_apply _ h x (ix2 u k) (ix1 k) fun ax => by
    match ax with
    | ⟨0, _⟩ =>
      show k.val = if b = 1 then 0 else k.val
      split
      · have := k.isLt; omega
      · rfl

/-- A row `[1, b]` broadcast to `[a, b]` reads, at `(r, k)`, the row's entry `k`. -/
theorem row_mat {a b : ℕ} (x : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ (![0, 1] : Fin 2 → Fin 2) h x (ix2 r k) = x (ix2 (0 : Fin 1) k) :=
  broadcastInDim_apply _ h x (ix2 r k) (ix2 (0 : Fin 1) k) fun ax => by
    match ax with
    | ⟨0, _⟩ =>
      show (0 : ℕ) = if (1 : ℕ) = 1 then 0 else r.val
      rw [if_pos rfl]
    | ⟨1, _⟩ =>
      show k.val = if b = 1 then 0 else k.val
      split
      · have := k.isLt; omega
      · rfl

/-- A scalar broadcast to any shape reads the scalar at every index. -/
theorem scalar {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

end Cert.Lib.BcastInDim

end
-- ==== Proof.LibReduceAndi.lean ====
/-
  An `and`-reduction of all-ones is one.

  A one-operand `stablehlo.reduce` by `and` over `i1` words is, at each result index, a left fold by `and` from the
  initial value over the operand's words that reduce into that index. A fold by `and` that starts at 1 and meets only
  1s stays at 1; so where the initial value is 1 and every operand word is 1, the result is 1 at every index.
  (The converse direction — a result of 1 had only 1s — is the library's `Host.reduce_andi_eq_one`.)
-/
import Idealize.ShloMosaic.Lib.ReduceAll

namespace Cert.Proof.LibReduceAndi

open Idealize.ShloMosaic

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- A reduce by `and` from the initial value 1 of an operand that is 1 everywhere is 1 at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ q, init q = 1#1) :
    Host.reduce IntOp.andi x init h hu j = 1#1 := by
  rw [Host.reduce_eq_foldl, hi]
  exact foldl_andi_one x _ (fun n _ => hx n)

end Cert.Proof.LibReduceAndi
-- ==== Proof.LibGather1.lean ====
/-
  A gather of table rows at a column of row numbers, read at an index.  The table has N rows of C entries; the array of
  start indices has shape [R, 1], one row number per r; the result has shape [R, C].  With offset axis 1, collapsed
  operand axis 0, start index map [0], index vector axis 1 and slice sizes [1, C] (what taking rows of a two-dimensional
  table along axis 0 at a vector of indices lowers to), entry (r, c) of the result is the table's entry c of the row whose
  number is the start index at (r, 0), read as a signed integer and clamped into [0, N - 1].
-/
import Idealize.ShloMosaic.Lib.ValueIdx

noncomputable section

namespace Cert.Lib.Gather1

open Idealize.ShloMosaic Idealize.ShloMosaic.ValueIdx

variable {α : Type}

/-- Those dimension numbers for a table [N, C], start indices [R, 1] and a result [R, C]; their conditions are
    decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at (r, c): the table at the row the start index at (r, 0) names, read signed and clamped into
    [0, N - 1], entry c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
        + (rowDims N C R wf).offCoord (ix2 r c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
        + (rowDims N C R wf).offCoord (ix2 r c) 1 = c.val
    have hs : (rowDims N C R wf).start (ix2 r c) idx 1 = 0 := by
      unfold GatherDims.start
      rw [dif_neg (show (1 : Fin 2) ∉ ([0] : List (Fin 2)) by decide)]
    rw [hs, GatherDims.batchCoord_eq_zero _ _ _ List.not_mem_nil]
    have hk : (1 : Fin 2) ∈ (rowDims N C R wf).sKept :=
      (GatherDims.mem_sKept _ _).mpr ⟨show (1 : Fin 2) ∉ ([0] : List (Fin 2)) by decide, List.not_mem_nil⟩
    have hsk : (rowDims N C R wf).sKept = [(1 : Fin 2)] := rfl
    have key : ∀ (p : Nat) (hp : p < ([1] : List (Fin 2)).length), p = 0 →
        (ix2 r c (([1] : List (Fin 2))[p]'hp)).val = c.val := by
      intro p hp h0; subst h0; rfl
    unfold GatherDims.offCoord
    rw [dif_pos hk]
    simp only [Nat.zero_add]
    exact key _ _ (by rw [hsk]; rfl)

end Cert.Lib.Gather1

end
-- ==== Proof.LibDotCols.lean ====
/-
  A batch of row vectors times a matrix given by its columns, read at an entry, over the extended reals, at any extents.

  An array `[A, B, K]` contracted on its last axis with a matrix `[K, N]` contracted on its FIRST axis (an einsum
  `abk,kn->abn`, no batch axis) is, at `(a, b, n)`, the sum over the contracted coordinate `f` of the array at
  `(a, b, f)` times the matrix at `(f, n)`: the operand indices the product names at an output index and a contraction
  index are `(a, b, f)` and `(f, n)`, and the one-axis contraction index is its one coordinate.  Stated for the host's
  product, which has no accumulator.
-/
import Idealize.ShloMosaic.Lib.ValueIdx
import Idealize.ShloMosaic.PureOps.Ideal.Laws

open scoped BigOperators

noncomputable section

namespace Cert.Lib.DotCols

open Idealize.ShloMosaic Idealize.ShloMosaic.ValueIdx

/-- The dimension numbers of `[A, B, K]` by `[K, N]`, contracted on the last and on the first axis. -/
def dims (A B K N : ℕ) (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

variable {A B K N : ℕ} (wf : DotDims.WF ⟨3, ![A, B, K]⟩ ⟨2, ![K, N]⟩ ⟨3, ![A, B, N]⟩ [2] [0] [0, 1] [1] [] [])

theorem lhs0 (i : (⟨3, ![A, B, N]⟩ : Shape).Idx) (q : (dims A B K N wf).contr.Idx) :
    ((dims A B K N wf).lhsIdx i q 0).val = (i 0).val := by
  unfold DotDims.lhsIdx
  rw [dif_neg (show ¬(0 : Fin 3) ∈ (dims A B K N wf).lhsBatch from List.not_mem_nil),
    dif_pos (show (0 : Fin 3) ∈ (dims A B K N wf).lhsNonContracting from (by decide : (0 : Fin 3) ∈ ([0, 1] : List (Fin 3))))]
  rfl

theorem lhs1 (i : (⟨3, ![A, B, N]⟩ : Shape).Idx) (q : (dims A B K N wf).contr.Idx) :
    ((dims A B K N wf).lhsIdx i q 1).val = (i 1).val := by
  unfold DotDims.lhsIdx
  rw [dif_neg (show ¬(1 : Fin 3) ∈ (dims A B K N wf).lhsBatch from List.not_mem_nil),
    dif_pos (show (1 : Fin 3) ∈ (dims A B K N wf).lhsNonContracting from (by decide : (1 : Fin 3) ∈ ([0, 1] : List (Fin 3))))]
  rfl

theorem lhs2 (i : (⟨3, ![A, B, N]⟩ : Shape).Idx) (q : (dims A B K N wf).contr.Idx) :
    ((dims A B K N wf).lhsIdx i q 2).val = (q ⟨0, Nat.one_pos⟩).val :=
  (dims A B K N wf).lhsIdx_val_of_single rfl i q

theorem rhs0 (i : (⟨3, ![A, B, N]⟩ : Shape).Idx) (q : (dims A B K N wf).contr.Idx) :
    ((dims A B K N wf).rhsIdx i q 0).val = (q ⟨0, Nat.one_pos⟩).val :=
  (dims A B K N wf).rhsIdx_val_of_single rfl i q

theorem rhs1 (i : (⟨3, ![A, B, N]⟩ : Shape).Idx) (q : (dims A B K N wf).contr.Idx) :
    ((dims A B K N wf).rhsIdx i q 1).val = (i 2).val := by
  unfold DotDims.rhsIdx
  rw [dif_neg (show ¬(1 : Fin 2) ∈ (dims A B K N wf).rhsBatch from List.not_mem_nil),
    dif_pos (show (1 : Fin 2) ∈ (dims A B K N wf).rhsNonContracting from (by decide : (1 : Fin 2) ∈ ([1] : List (Fin 2))))]
  rfl

/-- The sum over the product's contraction index, re-indexed by the contracted coordinate. -/
theorem cols_sum {φ₁ φ₂ : FTy} (L : FVec Ideal ⟨3, ![A, B, K]⟩ φ₁) (R : FVec Ideal ⟨2, ![K, N]⟩ φ₂) (a : Fin A) (b : Fin B)
    (n : Fin N) :
    (∑ k : (dims A B K N wf).contr.Idx,
        L ((dims A B K N wf).lhsIdx (ix3 a b n) k) * R ((dims A B K N wf).rhsIdx (ix3 a b n) k))
      = ∑ f : Fin K, L (ix3 a b f) * R (ix2 f n) := by
  rw [← Equiv.sum_comp (contrEquiv1 (dims A B K N wf) K rfl rfl).symm]
  refine Finset.sum_congr rfl fun f _ => ?_
  have hk := contrEquiv1_symm_val (dims A B K N wf) K rfl rfl f
  have el : (dims A B K N wf).lhsIdx (ix3 a b n) ((contrEquiv1 (dims A B K N wf) K rfl rfl).symm f) = ix3 a b f :=
    funext fun x => Fin.ext (by
      match x with
      | ⟨0, _⟩ => exact lhs0 wf _ _
      | ⟨1, _⟩ => exact lhs1 wf _ _
      | ⟨2, _⟩ => exact (lhs2 wf _ _).trans hk)
  have er : (dims A B K N wf).rhsIdx (ix3 a b n) ((contrEquiv1 (dims A B K N wf) K rfl rfl).symm f) = ix2 f n :=
    funext fun x => Fin.ext (by
      match x with
      | ⟨0, _⟩ => exact (rhs0 wf _ _).trans hk
      | ⟨1, _⟩ => exact rhs1 wf _ _)
  rw [el, er]

/-- The host's product of an `[A, B, K]` array with a `[K, N]` matrix, at `(a, b, n)`. -/
theorem dotGeneral_cols_apply {φ₁ φ₂ : FTy} (prec : Option ContractPrecision) (L : FVec Ideal ⟨3, ![A, B, K]⟩ φ₁)
    (R : FVec Ideal ⟨2, ![K, N]⟩ φ₂) (a : Fin A) (b : Fin B) (n : Fin N) :
    Host.dotGeneral (dims A B K N wf) prec L R (ix3 a b n) = ∑ f : Fin K, L (ix3 a b f) * R (ix2 f n) :=
  (Ideal.dotGeneral_apply (dims A B K N wf) prec .single L R (ix3 a b n)).trans (cols_sum wf L R a b n)

end Cert.Lib.DotCols

end
-- ==== Proof.RefMath.lean ====
/-
  The reference's pure term is the specification's logits, once the token indices are in range.

  Read at one entry, over the extended reals.  A token index in `[0, 50256]` is not negative, so the wrap leaves it
  alone; it passes the range test, so the mask is one and the gathered row is kept; and the gather reads the table at
  the index clamped into the table, which is the specification's `row`.  The position indices are `0, 1, …, 2047` by
  construction, so the second take reads row `s` at position `s`.  The sum of the two rows is the specification's
  embedded input, and the contraction with the transposed output matrix is the sum over the 128 features.
-/
import proofs.«205851_g1529008357945_cont_week2b_587_25_alg».proof.Proof.RefTerm
import proofs.«205851_g1529008357945_cont_week2b_587_25_alg».proof.Proof.Spec
import proofs.«205851_g1529008357945_cont_week2b_587_25_alg».proof.Proof.LibGather2
import proofs.«205851_g1529008357945_cont_week2b_587_25_alg».proof.Proof.LibBcastInDim
import proofs.«205851_g1529008357945_cont_week2b_587_25_alg».proof.Proof.LibReduceAndi
import proofs.«205851_g1529008357945_cont_week2b_587_25_alg».proof.Proof.LibGather1
import proofs.«205851_g1529008357945_cont_week2b_587_25_alg».proof.Proof.LibDotCols
import Idealize.ShloMosaic.Lib.Pipeline.Value
import Idealize.ShloMosaic.Lib.Affine

open scoped BigOperators

noncomputable section

namespace Cert.ReferenceIdeal.RefValue

open Cert.ReferenceIdeal Idealize.ShloMosaic Idealize.ShloMosaic.ValueIdx
open Cert.ReferenceIdeal.Facts₀

/-! ## The first take: token rows -/

/-- A non-negative index is not wrapped. -/
theorem wrap0_apply (idx : IVec S1x2048 32) (r : Fin 1) (s : Fin 2048) (h0 : 0 ≤ (idx (ix2 r s)).toInt) :
    wrap0 idx (ix2 r s) = idx (ix2 r s) := by
  have hc : ¬ (IntOp.cmpi .slt (idx (ix2 r s)) (0#32 : BitVec 32) = 1#1) := fun hc => by
    have h := IntOp.cmpi_slt.1 hc
    rw [show (0#32 : BitVec 32).toInt = 0 from by decide] at h
    omega
  exact if_neg hc

/-- The column of start indices reads the wrapped index of its position. -/
theorem col0_apply (idx : IVec S1x2048 32) (r : Fin 1) (s : Fin 2048) (u : Fin 1) :
    col0 idx (ix3 r s u) = wrap0 idx (ix2 r s) := by
  unfold col0
  exact broadcastInDim_apply _ _ _ (ix3 r s u) (ix2 r s) fun a => by
    match a with
    | ⟨0, _⟩ =>
      show r.val = if (1 : ℕ) = 1 then 0 else r.val
      rw [if_pos rfl]; have := r.isLt; omega
    | ⟨1, _⟩ =>
      show s.val = if (2048 : ℕ) = 1 then 0 else s.val
      rw [if_neg (by decide)]

/-- With every index in `[0, 50256]` the range mask is one everywhere. -/
theorem mask0_apply (idx : IVec S1x2048 32) (hr : ∀ j : S1x2048.Idx, 0 ≤ (idx j).toInt ∧ (idx j).toInt ≤ 50256)
    (j : S1x2048.Idx) : mask0 idx j = 1#1 := by
  unfold mask0
  refine Cert.Proof.LibReduceAndi.reduce_andi_one _ _ _ _ j (fun i => ?_) (fun _ => rfl)
  obtain ⟨r, s, u, rfl⟩ : ∃ (r : Fin 1) (s : Fin 2048) (u : Fin 1), i = ix3 r s u := ⟨i 0, i 1, i 2, eq_ix3 i⟩
  show IntOp.andi (IntOp.cmpi .sge (col0 idx (ix3 r s u)) (0#32 : BitVec 32))
      (IntOp.cmpi .sle (col0 idx (ix3 r s u)) (50256#32 : BitVec 32)) = 1#1
  rw [col0_apply, wrap0_apply idx r s (hr _).1]
  refine IntOp.andi_eq_one.2 ⟨IntOp.cmpi_sge.2 ?_, IntOp.cmpi_sle.2 ?_⟩
  · rw [show (0#32 : BitVec 32).toInt = 0 from by decide]; exact (hr _).1
  · rw [show (50256#32 : BitVec 32).toInt = 50256 from by decide]; exact (hr _).2

/-- The first take at `(r, s, f)`: the table at the specification's row of the index at position `s`. -/
theorem take0_apply (tab : FVec Ideal S50257x128 .f32) (idx : IVec S1x2048 32)
    (hr : ∀ j : S1x2048.Idx, 0 ≤ (idx j).toInt ∧ (idx j).toInt ≤ 50256) (r : Fin 1) (s : Fin 2048) (f : Fin 128) :
    take0 tab idx (ix3 r s f) = tab (ix2 (Cert.Spec.row (idx (ix2 r s))) f) := by
  unfold take0
  rw [select_apply]
  have hm : broadcastInDim S1x2048x128 ![0, 1] bcast_S1x2048_S1x2048x128_0_1 (mask0 idx) (ix3 r s f) = 1#1 :=
    mask0_apply idx hr _
  rw [hm]
  refine (if_pos rfl).trans ?_
  refine (Cert.Lib.Gather2.gather_rows_apply (N := 50257) (C := 128) (R := 1) (H := 2048) (by decide)
    gather_S50257x128_S1x2048x1_S1x2048x128_2_0_n_n_0_2_1128_wf tab (col0 idx) r s f).trans ?_
  refine congrArg tab (congrArg (fun a => ix2 a f) (Fin.ext ?_))
  show min (col0 idx (ix3 r s (0 : Fin 1))).toInt.toNat (50257 - 1) = min (idx (ix2 r s)).toInt.toNat 50256
  rw [col0_apply, wrap0_apply idx r s (hr _).1]

/-! ## The second take: position rows at `0, 1, …, 2047` -/

/-- A non-negative index is not wrapped. -/
theorem wrap1_apply (idx : IVec S2048 32) (s : Fin 2048) (h0 : 0 ≤ (idx (ix1 s)).toInt) :
    wrap1 idx (ix1 s) = idx (ix1 s) := by
  have hc : ¬ (IntOp.cmpi .slt (idx (ix1 s)) (0#32 : BitVec 32) = 1#1) := fun hc => by
    have h := IntOp.cmpi_slt.1 hc
    rw [show (0#32 : BitVec 32).toInt = 0 from by decide] at h
    omega
  exact if_neg hc

/-- The column of start indices reads the wrapped index of its position. -/
theorem col1_apply (idx : IVec S2048 32) (s : Fin 2048) (u : Fin 1) : col1 idx (ix2 s u) = wrap1 idx (ix1 s) := by
  unfold col1
  exact Cert.Lib.BcastInDim.vec_col _ _ s u

/-- With every index in `[0, 2047]` the range mask is one everywhere. -/
theorem mask1_apply (idx : IVec S2048 32) (hr : ∀ j : S2048.Idx, 0 ≤ (idx j).toInt ∧ (idx j).toInt ≤ 2047)
    (j : S2048.Idx) : mask1 idx j = 1#1 := by
  unfold mask1
  refine Cert.Proof.LibReduceAndi.reduce_andi_one _ _ _ _ j (fun i => ?_) (fun _ => rfl)
  obtain ⟨s, u, rfl⟩ : ∃ (s : Fin 2048) (u : Fin 1), i = ix2 s u := ⟨i 0, i 1, eq_ix2 i⟩
  show IntOp.andi (IntOp.cmpi .sge (col1 idx (ix2 s u)) (0#32 : BitVec 32))
      (IntOp.cmpi .sle (col1 idx (ix2 s u)) (2047#32 : BitVec 32)) = 1#1
  rw [col1_apply, wrap1_apply idx s (hr _).1]
  refine IntOp.andi_eq_one.2 ⟨IntOp.cmpi_sge.2 ?_, IntOp.cmpi_sle.2 ?_⟩
  · rw [show (0#32 : BitVec 32).toInt = 0 from by decide]; exact (hr _).1
  · rw [show (2047#32 : BitVec 32).toInt = 2047 from by decide]; exact (hr _).2

/-- The position word `s`, read signed, is `s`. -/
theorem iota_toInt (s : Fin 2048) : (BitVec.ofNat 32 s.val).toInt = (s.val : Int) := by
  have := s.isLt
  rw [BitVec.toInt_ofNat']
  exact Int.bmod_eq_of_le (by omega) (by omega)

/-- The position indices are in `[0, 2047]`. -/
theorem iota_range (j : S2048.Idx) :
    0 ≤ (iotaInDim S2048 32 0 j).toInt ∧ (iotaInDim S2048 32 0 j).toInt ≤ 2047 := by
  obtain ⟨s, rfl⟩ : ∃ s : Fin 2048, j = ix1 s := ⟨j 0, eq_ix1 j⟩
  show 0 ≤ (BitVec.ofNat 32 s.val).toInt ∧ (BitVec.ofNat 32 s.val).toInt ≤ 2047
  rw [iota_toInt]
  have := s.isLt
  omega

/-- The second take at `(s, f)`: the position table's row `s`. -/
theorem take1_iota_apply (tab : FVec Ideal S2048x128 .f32) (s : Fin 2048) (f : Fin 128) :
    take1 tab (iotaInDim S2048 32 0) (ix2 s f) = tab (ix2 s f) := by
  unfold take1
  rw [select_apply]
  have hm : broadcastInDim S2048x128 ![0] bcast_S2048_S2048x128_0 (mask1 (iotaInDim S2048 32 0)) (ix2 s f) = 1#1 :=
    mask1_apply _ iota_range _
  rw [hm]
  refine (if_pos rfl).trans ?_
  refine (Cert.Lib.Gather1.gather_rows_apply (N := 2048) (C := 128) (R := 2048) (by decide)
    gather_S2048x128_S2048x1_S2048x128_1_0_n_n_0_1_1128_wf tab (col1 (iotaInDim S2048 32 0)) s f).trans ?_
  refine congrArg tab (congrArg (fun a => ix2 a f) (Fin.ext ?_))
  show min (col1 (iotaInDim S2048 32 0) (ix2 s (0 : Fin 1))).toInt.toNat (2048 - 1) = s.val
  rw [col1_apply, wrap1_apply _ s (iota_range _).1]
  show min (BitVec.ofNat 32 s.val).toInt.toNat (2048 - 1) = s.val
  rw [iota_toInt, Int.toNat_natCast]
  have := s.isLt
  omega

/-! ## The sum and the contraction -/

/-- The embedded input at `(r, s, f)`: token row plus position row. -/
theorem embedded_apply (idx : IVec S1x2048 32) (tok : FVec Ideal S50257x128 .f32) (pos : FVec Ideal S2048x128 .f32)
    (hr : ∀ j : S1x2048.Idx, 0 ≤ (idx j).toInt ∧ (idx j).toInt ≤ 50256) (r : Fin 1) (s : Fin 2048) (f : Fin 128) :
    embedded idx tok pos (ix3 r s f) = tok (ix2 (Cert.Spec.row (idx (ix2 r s))) f) + pos (ix2 s f) := by
  unfold embedded
  show take0 tok idx (ix3 r s f)
      + broadcastInDim S1x2048x128 ![1, 2] bcast_S2048x128_S1x2048x128_1_2 (take1 pos (iotaInDim S2048 32 0)) (ix3 r s f) = _
  rw [take0_apply tok idx hr]
  have hb : broadcastInDim S1x2048x128 ![1, 2] bcast_S2048x128_S1x2048x128_1_2 (take1 pos (iotaInDim S2048 32 0)) (ix3 r s f)
      = take1 pos (iotaInDim S2048 32 0) (ix2 s f) :=
    broadcastInDim_apply _ _ _ (ix3 r s f) (ix2 s f) fun a => by
      match a with
      | ⟨0, _⟩ =>
        show s.val = if (2048 : ℕ) = 1 then 0 else s.val
        rw [if_neg (by decide)]
      | ⟨1, _⟩ =>
        show f.val = if (128 : ℕ) = 1 then 0 else f.val
        rw [if_neg (by decide)]
  rw [hb, take1_iota_apply]

/-- The transposed output matrix at `(f, v)`. -/
theorem transpose_W_apply (W : FVec Ideal S50257x128 .f32) (f : Fin 128) (v : Fin 50257) :
    transpose S128x50257 [1, 0] W transposes_S50257x128_S128x50257_1_0 (ix2 f v) = W (ix2 v f) :=
  transpose_apply _ _ _ (ix2 f v) (ix2 v f) fun b => by
    match b with
    | ⟨0, _⟩ => rfl
    | ⟨1, _⟩ => rfl

/-- The reference's result at `(r, s, v)`. -/
theorem refOut_apply (idx : IVec S1x2048 32) (tok : FVec Ideal S50257x128 .f32) (pos : FVec Ideal S2048x128 .f32)
    (W : FVec Ideal S50257x128 .f32) (hr : ∀ j : S1x2048.Idx, 0 ≤ (idx j).toInt ∧ (idx j).toInt ≤ 50256)
    (r : Fin 1) (s : Fin 2048) (v : Fin 50257) :
    refOut idx tok pos W (ix3 r s v)
      = ∑ f : Fin 128, (tok (ix2 (Cert.Spec.row (idx (ix2 r s))) f) + pos (ix2 s f)) * W (ix2 v f) := by
  unfold refOut
  refine (Cert.Lib.DotCols.dotGeneral_cols_apply (A := 1) (B := 2048) (K := 128) (N := 50257)
    dot_S1x2048x128_S128x50257_S1x2048x50257_2_0_01_1_n_n_wf none (embedded idx tok pos)
    (transpose S128x50257 [1, 0] W transposes_S50257x128_S128x50257_1_0) r s v).trans ?_
  refine Finset.sum_congr rfl fun f _ => ?_
  rw [embedded_apply idx tok pos hr, transpose_W_apply]

/-- With every token index in `[0, 50256]`, the reference's result is the specification's logits. -/
theorem refOut_eq_logits (idx : IVec S1x2048 32) (tok : FVec Ideal S50257x128 .f32) (pos : FVec Ideal S2048x128 .f32)
    (W : FVec Ideal S50257x128 .f32) (hr : ∀ j : S1x2048.Idx, 0 ≤ (idx j).toInt ∧ (idx j).toInt ≤ 50256) :
    refOut idx tok pos W = Cert.Spec.logits idx tok pos W := by
  funext i
  obtain ⟨r, s, v, rfl⟩ : ∃ (r : Fin 1) (s : Fin 2048) (v : Fin 50257), i = ix3 r s v := ⟨i 0, i 1, i 2, eq_ix3 i⟩
  obtain rfl : r = 0 := Subsingleton.elim _ _
  rw [refOut_apply idx tok pos W hr]
  rfl

end Cert.ReferenceIdeal.RefValue

end
-- ==== Proof.RefValue.lean ====
/-
  The reference's run with its result named by the specification, under the input-domain predicate.

  The run of the straight line leaves the result buffer at the pure term of the four argument arrays and the arguments
  unchanged; the predicate puts every token index in `[0, 50256]`; with the indices in range the pure term is the
  specification's logits.
-/
import proofs.«205851_g1529008357945_cont_week2b_587_25_alg».proof.Defs
import proofs.«205851_g1529008357945_cont_week2b_587_25_alg».proof.Proof.Gen.Pre_input_domain
import proofs.«205851_g1529008357945_cont_week2b_587_25_alg».proof.Proof.PreRange
import proofs.«205851_g1529008357945_cont_week2b_587_25_alg».proof.Proof.RefOut
import proofs.«205851_g1529008357945_cont_week2b_587_25_alg».proof.Proof.RefMath

noncomputable section

namespace Cert.ReferenceIdeal.RefValue

open Cert.ReferenceIdeal Idealize.ShloMosaic Idealize.ShloMosaic.TcCoe Idealize.SL.Sem

/-- Under the input-domain predicate every weakly fair execution of the reference terminates with the result buffer at
    the specification's logits of the four argument arrays, and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v6)
            = Cert.Spec.logits (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (refOut_eq_logits _ _ _ _ fun j => Cert.PreRange.idx_range (F := Ideal) _ _ _ _ (hpre c) j),
      (h c).2⟩)
    (run_term (F := Ideal) m g)

end Cert.ReferenceIdeal.RefValue

end
-- ==== Proof.Claims.lean ====
/-
  The claims about the idealized kernel and the idealized reference, from the two runs.

  The kernel's run at the extended reals, with the proof data that names the product matrix and nothing forgotten,
  leaves the result buffer at the specification's logits of its four arguments; the reference's run leaves its result
  buffer at the same function of ITS four arguments.  From memories that agree on the arguments the two results are
  therefore equal, and the input-domain predicate, a function of the arguments alone, carries from one memory to the
  other.  Each program's frame claim is its run with the result forgotten.
-/
import proofs.«205851_g1529008357945_cont_week2b_587_25_alg».proof.Proof.Run
import proofs.«205851_g1529008357945_cont_week2b_587_25_alg».proof.Proof.KernelValue
import proofs.«205851_g1529008357945_cont_week2b_587_25_alg».proof.Proof.PipeValue
import proofs.«205851_g1529008357945_cont_week2b_587_25_alg».proof.Proof.PipeObl
import proofs.«205851_g1529008357945_cont_week2b_587_25_alg».proof.Proof.TileObl
import proofs.«205851_g1529008357945_cont_week2b_587_25_alg».proof.Proof.RefValue
import proofs.«205851_g1529008357945_cont_week2b_587_25_alg».proof.Proof.RefOut
import proofs.«205851_g1529008357945_cont_week2b_587_25_alg».proof.Defs

noncomputable section

namespace Cert.KernelIdeal.Pf

open Cert.KernelIdeal Idealize.ShloMosaic Idealize.ShloMosaic.ValueIdx Idealize.ShloMosaic.TcCoe Idealize.SL.Sem

/-- Under the predicate every word of the reshaped index list, read unsigned, is below the row count. -/
theorem hin_of_pre (m : (ℓ : Loc nD τ sig) → Buf (Elt Ideal) ℓ) (hpre : Cert.Pre_KernelIdeal m) :
    ∀ (d : Dev nD) (j : S2048.Idx), ((lstOf m d : IVec S2048 32) j).toNat < 50257 :=
  fun d j => lst_range (m (idxLoc d)) (pre_range_ideal m hpre d) j

/-- The matrix the proof data names after every write-back, as the named product matrix of the three arrays. -/
theorem hmat_ideal (m : (ℓ : Loc nD τ sig) → Buf (Elt Ideal) ℓ) (c : Dev nD) :
    ((dats (F := Ideal) (Vv m) (aft3I (Vv m)) (rcd (F := Ideal)) 0 c).arrAt (3 : Fin 4) cfg1.N : FVec Ideal S2048x50257 .f32)
      = kmat (Vv m c main_v1) (Vv m c main_arg2) (Vv m c main_arg3) :=
  (final_prodMat (Vv m) (rcd (F := Ideal)) c).trans rfl

/-- The idealized kernel runs and its argument arrays end unchanged. -/
theorem frame_ki : Cert.frame_KernelIdeal := fun m g hpre =>
  frame_run (F := Ideal) m g (aft3I (Vv m)) (fun _ => false)
    (hmain m g (aft3I (Vv m)) (fun _ => false) (body_exact (Vv m) (rcd (F := Ideal))))
    (tileObl m (hin_of_pre m hpre))

/-- The idealized reference runs and its argument arrays end unchanged. -/
theorem frame_ri : Cert.frame_ReferenceIdeal := fun m g _ =>
  (θ_run (Cert.ReferenceIdeal.defs (F := Ideal)) _ _).mono (fun _ h c => (h c).2)
    (Cert.ReferenceIdeal.RefValue.run_term (F := Ideal) m g)

/-- From memories agreeing on the arguments, the two idealized programs end with equal results and unchanged arguments. -/
theorem algebraic : Cert.algebraic_KernelIdeal_ReferenceIdeal := fun m g m' g' hpre hagree => by
  have hpre' : Cert.Pre_ReferenceIdeal m' := fun c => by
    obtain ⟨e0, e1, e2, e3⟩ := hagree c
    rw [e0, e1, e2, e3]
    exact hpre c
  refine ⟨fun c => Cert.Spec.logits (m ((c.tc : Thread nD τ).loc main_arg0)) (m ((c.tc : Thread nD τ).loc main_arg1))
      (m ((c.tc : Thread nD τ).loc main_arg2)) (m ((c.tc : Thread nD τ).loc main_arg3)),
    value_ideal m g (aft3I (Vv m)) (hmain m g (aft3I (Vv m)) (fun _ => false) (body_exact (Vv m) (rcd (F := Ideal))))
      (tileObl m (hin_of_pre m hpre)) (hmat_ideal m) hpre,
    (θ_run (Cert.ReferenceIdeal.defs (F := Ideal)) _ _).mono (fun _ h c => ⟨?_, (h c).2⟩)
      (Cert.ReferenceIdeal.RefValue.run m' g' hpre')⟩
  obtain ⟨e0, e1, e2, e3⟩ := hagree c
  rw [(h c).1, e0, e1, e2, e3]

end Cert.KernelIdeal.Pf

end
-- ==== Proof.BAlgebra.lean ====
/-
  What the parts of the proof share: the program as the launch theorem of a SparseCore program sees it, the resource
  algebra (the handshakes' rounds, the pipeline's rounds, the transfers' counters, side by side), and the names of the
  arrays. Generic in the float instance.
-/
import proofs.«205851_g1529008357945_cont_week2b_587_25_alg».proof.Proof.Gen.Kernel
import proofs.«205851_g1529008357945_cont_week2b_587_25_alg».proof.Proof.Gen.Kernel.Skeleton
import proofs.«205851_g1529008357945_cont_week2b_587_25_alg».proof.Proof.Gen.Kernel.Launch
import proofs.«205851_g1529008357945_cont_week2b_587_25_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature of the kernels lifted through the one TensorCore pipeline. -/
abbrev ΛP : Labels := Pipeline.Sig Λ₀ (Fin 1) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
/-- The kernels' body table, lifted. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds, the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The prefetched tables' admissible contents: no table. -/
abbrev adm : (p : Fin 1) → (pcfgs (F := F) p).Adm := fun p => (cfgs p).toPCfg_adm

/-- The arrays, as locations of device `d`: the index words, the token table, the position table, the output matrix;
    the reshaped index list, the gathered rows, the logits as a matrix, the result. -/
abbrev idxLoc (d : Dev nD) : Loc nD τ sig := (SparseCore.T d).loc main_arg0
abbrev tokLoc (d : Dev nD) : Loc nD τ sig := (SparseCore.T d).loc main_arg1
abbrev posLoc (d : Dev nD) : Loc nD τ sig := (SparseCore.T d).loc main_arg2
abbrev wLoc (d : Dev nD) : Loc nD τ sig := (SparseCore.T d).loc main_arg3
abbrev lstLoc (d : Dev nD) : Loc nD τ sig := (SparseCore.T d).loc main_v0
abbrev rowsLoc (d : Dev nD) : Loc nD τ sig := (SparseCore.T d).loc main_v1
abbrev matLoc (d : Dev nD) : Loc nD τ sig := (SparseCore.T d).loc main_v2
abbrev resLoc (d : Dev nD) : Loc nD τ sig := (SparseCore.T d).loc main_v3

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Kernel.Pf

end
-- ==== Proof.BTileRes.lean ====
/-
  What one tile of the lookup kernel is handed and hands back.

  Tile `(c, s)` has worker number `2 s + c` and owns the 64 list positions and the 64 result rows from `64 (2 s + c)`
  on. It reads the whole token table (a share of it), its 64 index words, and writes its 64 rows: row `r` of the
  result is the table's row named by index word `r`.
-/
import proofs.«205851_g1529008357945_cont_week2b_587_25_alg».proof.Proof.BAlgebra
import Idealize.ShloMosaic.Lib.ValueIdx

noncomputable section

namespace Cert.Kernel.Pf

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A tile's coordinates from its SparseCore and vector subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The arrays as a vector subcore names them. -/
abbrev tokM : Memref sig .scVector .hbm S50257x128 .f32 := Memref.whole main_arg1_scv
abbrev lstM : Memref sig .scVector .hbm S2048 .i32 := Memref.whole main_v0_scv
abbrev rowsM : Memref sig .scVector .hbm S2048x128 .f32 := Memref.whole main_v1_scv

/-- The tile's 64 list positions and its 64 result rows, as the kernel slices them. -/
abbrev lstSl (L : grid0.Coords) : Memref sig .scVector .hbm S64 .i32 :=
  lstM.slice (Rect.unit (s := S2048) (k0_off1 L) S64.size (k0_off1_inb L)) (fun _ => rfl)
abbrev rowsSl (L : grid0.Coords) : Memref sig .scVector .hbm S64x128 .f32 :=
  rowsM.slice (Rect.unit (s := S2048x128) (k0_off2 L) S64x128.size (k0_off2_inb L)) (fun _ => rfl)
abbrev idxSet (L : grid0.Coords) : Finset S2048.Idx := (lstSl L).view.set
abbrev rowSet (L : grid0.Coords) : Finset S2048x128.Idx := (rowsSl L).view.set

/-- The gathered rows as ONE whole-array function: entry `(r, f)` is the table's entry `(lst r, f)` (the index word read
    unsigned and clamped to the last row, so that the function is total). -/
def gathered (tok : S50257x128.Idx → Elt F .f32) (lst : S2048.Idx → BitVec 32) : S2048x128.Idx → Elt F .f32 :=
  fun j => tok (ix2 (⟨min (lst (ix1 (j 0))).toNat 50256, by omega⟩ : Fin 50257) (j 1))

variable (m : (ℓ : Loc nD τ sig) → Buf (Elt F) ℓ)

/-- What a tile is handed: a share `q` of the whole table, its list positions, its rows as launched; -/
def tileIn (d : Dev nD) (lst : Buf (Elt F) (lstLoc d)) (q : PosShare TreeShare) (L : grid0.Coords) : sProp 𝕄 :=
  iprop((tokLoc d ↦{q} m (tokLoc d)) ∗ (lstLoc d ↦[idxSet L]{fullShare} lst) ∗ rowsLoc d ↦[rowSet L]{fullShare} m (rowsLoc d))
/-- and what it hands back: the same, its rows holding the gathered rows. -/
def tileOut (d : Dev nD) (lst : Buf (Elt F) (lstLoc d)) (q : PosShare TreeShare) (L : grid0.Coords) : sProp 𝕄 :=
  iprop((tokLoc d ↦{q} m (tokLoc d)) ∗ (lstLoc d ↦[idxSet L]{fullShare} lst) ∗ rowsLoc d ↦[rowSet L]{fullShare} (gathered (m (tokLoc d)) lst : Buf (Elt F) (rowsLoc d)))

instance tileIn_storable (d : Dev nD) (lst : Buf (Elt F) (lstLoc d)) (q : PosShare TreeShare) (L : grid0.Coords) :
    BI.Storable (upEmb : UEmb _ 𝕄) (tileIn m d lst q L) := by unfold tileIn; infer_instance
instance tileOut_storable (d : Dev nD) (lst : Buf (Elt F) (lstLoc d)) (q : PosShare TreeShare) (L : grid0.Coords) :
    BI.Storable (upEmb : UEmb _ 𝕄) (tileOut m d lst q L) := by unfold tileOut; infer_instance

end Cert.Kernel.Pf

end
-- ==== Proof.BPay.lean ====
/-
  What the handshakes of the one SparseCore call carry, how a SparseCore's operands split among its tiles, and the
  launch element of the ghost state.

  The call takes, per SparseCore, its sixteen tiles' operands side by side — for tile `(c, s)` a leaf share of the
  whole token table, its 64 list positions, its 64 result rows — and brings the same back, the rows gathered. So the
  split of a SparseCore's operands into its tasks' is the identity, and @main does the cutting.
-/
import proofs.«205851_g1529008357945_cont_week2b_587_25_alg».proof.Proof.BTileRes
import proofs.«205851_g1529008357945_cont_week2b_587_25_alg».proof.Proof.LibScSplit

noncomputable section

namespace Cert.Kernel.Pf

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.ScSplit (sh)

variable {F : FTy → Type} [FloatOps F]

local notation "𝕄" => MT nD τ sig (HIx 1) (Elt F) ℕ UU ℕ

variable (m : (ℓ : Loc nD τ sig) → Buf (Elt F) ℓ) (ρ : Dev nD → PrngReg)

/-- The reshaped index words: what the list holds when the call starts. -/
def lstOf (d : Dev nD) : Buf (Elt F) (lstLoc d) :=
  (shapeCast S2048 (m (idxLoc d) : IVec S1x2048 32) shapeCasts_S1x2048_S2048 : IVec S2048 32)

/-- Tile `(c, s)`'s operands and results. -/
abbrev tIn (d : Dev nD) (c : Fin 2) (s : Fin 16) : sProp 𝕄 := tileIn m d (lstOf m d) (sh c.val s.val) (coordsV c s)
abbrev tOut (d : Dev nD) (c : Fin 2) (s : Fin 16) : sProp 𝕄 := tileOut m d (lstOf m d) (sh c.val s.val) (coordsV c s)

instance tIn_storable (d : Dev nD) (c : Fin 2) (s : Fin 16) : BI.Storable (upEmb : UEmb _ 𝕄) (tIn m d c s) := tileIn_storable m d _ _ _
instance tOut_storable (d : Dev nD) (c : Fin 2) (s : Fin 16) : BI.Storable (upEmb : UEmb _ 𝕄) (tOut m d c s) := tileOut_storable m d _ _ _

/-- The payloads: per SparseCore its sixteen tiles' operands, per tile its own; nothing of the launch's consumed. -/
def P : (K (F := F)).Pay (nD := nD) (Val := Elt F) (Name := ℕ) (U := UU) where
  st := fun q d c => match q with | 0 => bigSep Finset.univ fun s : Fin 16 => tIn m d (Fin.cast nCore_zero c) s
  dn := fun q d c => match q with | 0 => bigSep Finset.univ fun s : Fin 16 => tOut m d (Fin.cast nCore_zero c) s
  go := fun q d c i => match q with | 0 => tIn m d (Fin.cast nCore_zero c) (Fin.cast nSub_zero i)
  td := fun q d c i => match q with | 0 => tOut m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => tIn m d (Fin.cast nCore_zero c) s))
  dn q d c := match q with
    | 0 => (inferInstance : BI.Storable (upEmb : UEmb _ 𝕄) (bigSep Finset.univ fun s : Fin 16 => tOut m d (Fin.cast nCore_zero c) s))
  go q d c i := match q with
    | 0 => (inferInstance : BI.Storable (upEmb : UEmb _ 𝕄) (tIn m d (Fin.cast nCore_zero c) (Fin.cast nSub_zero i)))
  td q d c i := match q with
    | 0 => (inferInstance : BI.Storable (upEmb : UEmb _ 𝕄) (tOut m d (Fin.cast nCore_zero c) (Fin.cast nSub_zero i)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands ARE its tasks' operands side by side. -/
theorem vecSplit : (K (F := F)).VecSplit' (P m) 0 := by
  intro d c
  show (bigSep Finset.univ fun s : Fin 16 => tIn m d (Fin.cast nCore_zero c) s) ⊢ |={Set.univ}=> iprop(
      (bigSep Finset.univ fun i : Fin ((K (F := F)).nSub 0) => tIn m d (Fin.cast nCore_zero c) (Fin.cast nSub_zero i))
      ∗ ((bigSep Finset.univ fun i : Fin ((K (F := F)).nSub 0) => tOut m d (Fin.cast nCore_zero c) (Fin.cast nSub_zero i))
          -∗ bigSep Finset.univ fun s : Fin 16 => tOut m d (Fin.cast nCore_zero c) s))
  rw [bigSep_tasks (F := F) (fun s => tIn m d (Fin.cast nCore_zero c) s), bigSep_tasks (F := F) (fun s => tOut m d (Fin.cast nCore_zero c) s)]
  iintro H; imodintro
  isplitl [H]; · iexact H
  iintro H; iexact H

/-! ## The launch element -/

/-- The handshakes' rounds, the pipeline's rounds at its staging cells, no counter yet. -/
def u₀ : UU := (initOf (K (F := F)).hsCells (K (F := F)).hsToks,
  (initOf (Pipeline.cells cfgs cellOf_inj) (Pipeline.launchToks cfgs cellOf_inj), 1))

/-- What @main's proof starts from, per device: the pipeline's cells' ghost state and its transfers' duty tokens. -/
def G (d : Dev nD) : sProp 𝕄 :=
  iprop(Pipeline.cellsGhost (nD := nD) (τ := τ) cfgs EP (0 : Fin 1) d ∗ Pipeline.toksInit (nD := nD) (τ := τ) cfgs EP (0 : Fin 1) d)

omit [FloatOps F] in
theorem bigSep_emp' {I : Type} (s : Finset I) : (bigSep s fun _ => iprop(emp)) = (iprop(emp) : sProp 𝕄) := bigSep_emp_const s

omit [FloatOps F] in
theorem ownU_split (a : UH) (b : UP) (c : Counters) :
    (ownU ((a, (b, c)) : UU) : sProp 𝕄) ⊢ iprop(BI.own (EH a) ∗ BI.own (EP b)) := by
  iintro Hu
  ihave H := (ownU_pair _ _) $$ Hu
  icases H with ⟨HH, HR⟩
  isplitl [HH]; · iexact HH
  ihave H2 := (own_pair_emb (embR (A := UH) (B := UP × Counters)) b c) $$ HR
  icases H2 with ⟨HP, -⟩
  iexact HP

omit [FloatOps F] in
theorem ghost_eq : (bigSep Finset.univ fun c : Dev nD => bigSep Finset.univ fun p : Fin 1 => (Pipeline.cellsGhost (nD := nD) (τ := τ) cfgs EP p c : sProp 𝕄))
    = bigSep Finset.univ fun d : Dev nD => Pipeline.cellsGhost (nD := nD) (τ := τ) cfgs EP (0 : Fin 1) d :=
  bigSep_congr fun d _ => bigSep_univ_of_subsingleton (0 : Fin 1)
omit [FloatOps F] in
theorem toks_eq : (bigSep Finset.univ fun c : Dev nD => bigSep Finset.univ fun p : Fin 1 => (Pipeline.toksInit (nD := nD) (τ := τ) cfgs EP p c : sProp 𝕄))
    = bigSep Finset.univ fun d : Dev nD => Pipeline.toksInit (nD := nD) (τ := τ) cfgs EP (0 : Fin 1) d :=
  bigSep_congr fun d _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost (nD := nD) (τ := τ) cfgs EP cellOf_inj) $$ HP with ⟨Hg, Ht⟩
  imodintro
  isplitl [HH]; · iexact HH
  isplitl [Hg Ht]
  · unfold G
    rw [bigSep_sep']
    isplitl [Hg]
    · iapply (Entails.of_eq (ghost_eq (F := F))); iexact Hg
    · iapply (Entails.of_eq (toks_eq (F := F))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Pf

end
-- ==== Proof.BPipeData.lean ====
/-
  The proof data of the one pipelined matrix product: what each window's staging buffer holds after the body at each
  of the twenty-five points. The two whole-array operands hold the arrays; the weight window holds block `t` of the
  weight matrix, filled out past the matrix's last row with the zero word; the result window holds what the caller
  names. No invariant, nothing owed, full shares; the recorded wait pairs bounded by what the caller names.
-/
import proofs.«205851_g1529008357945_cont_week2b_587_25_alg».proof.Proof.BAlgebra

noncomputable section

namespace Cert.Kernel.Pf

open Cert.Kernel Cert.Kernel.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-- Block `t` of the weight matrix as the fetch reads it: its rows inside the matrix (2048 of them at points 0‥23,
    1105 at point 24). -/
def wblk (Vv : (c : Dev nD) → (b : Ref sig .tc) → Buf (Elt F) ((c.tc : Thread nD τ).loc b)) (c : Dev nD) (t : Fin cfg1.N) :
    (win1_2.xblock (grid1.coords t)).Idx → Elt F .f32 :=
  (win1_2.blk t).view.read (Elt F) (Vv c main_arg3)

/-- The same filled out to the staging buffer's 2048 rows with the zero word (nothing reads the filler). -/
def wblkF (Vv : (c : Dev nD) → (b : Ref sig .tc) → Buf (Elt F) ((c.tc : Thread nD τ).loc b)) (c : Dev nD) (t : Fin cfg1.N) :
    S2048x128.Idx → Elt F .f32 :=
  win1_2.fill (grid1.coords t) (fun _ => Scalar.ofBits .f32 0#32) (wblk Vv c t)

/-- The proof data of the pipeline on device `c`'s TensorCore. -/
def dats (Vv : (c : Dev nD) → (b : Ref sig .tc) → Buf (Elt F) ((c.tc : Thread nD τ).loc b))
    (aft3 : (c : Dev nD) → Fin cfg1.N → (S2048x2048.Idx → Elt F .f32))
    (rcd : (c : Dev nD) → Set (SemLoc sig × HIx 1)) (_ : Fin 1) (c : Dev nD) :
    Pipeline.Dat τ (Elt F) (HIx 1) ℕ UU ℕ cfg1 c where
  A w := Vv c (Pipeline.arrRef spec1 w)
  after w t := match w with
    | ⟨0, _⟩ => Vv c main_v1
    | ⟨1, _⟩ => Vv c main_arg2
    | ⟨2, _⟩ => wblkF Vv c t
    | ⟨3, _⟩ => aft3 c t
  Φ _ := iprop(emp)
  q _ := fullShare
  owed _ := 0
  recorded _ := rcd c

end Cert.Kernel.Pf

end
-- ==== Proof.BRegion.lean ====
/-
  The pipelined matrix product as one region of @main, entered on the TensorCore in the middle of a program that also
  runs a SparseCore call: from the core's unscoped buffers at a valuation `Vv` and what the core owes (nothing), the
  custom call runs the twenty-five points and leaves the four windowed arrays at contents they may hold after every
  write-back, the other buffers as they were, and the core owing nothing still.

  The proof data is read relationally, with the windows a mask marks forgotten: the frame forgets the result window,
  the value claim forgets none.
-/
import proofs.«205851_g1529008357945_cont_week2b_587_25_alg».proof.Proof.BPay
import proofs.«205851_g1529008357945_cont_week2b_587_25_alg».proof.Proof.BPipeData

noncomputable section

namespace Cert.Kernel.Pf

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F] [∀ e, Nonempty (Elt F e)]

local notation "𝕄" => MT nD τ sig (HIx 1) (Elt F) ℕ UU ℕ

variable (Vv : (c : Dev nD) → (b : Ref sig .tc) → Buf (Elt F) ((c.tc : Thread nD τ).loc b))
  (aft3 : (c : Dev nD) → Fin cfg1.N → (S2048x2048.Idx → Elt F .f32))
  (rcd : (c : Dev nD) → Set (SemLoc sig × HIx 1)) (fgt : Fin 4 → Bool)

/-- The proof data read relationally, the masked windows forgotten. -/
abbrev rd (p : Fin 1) (c : Dev nD) : RDat τ (Elt F) (HIx 1) ℕ UU ℕ (Pipeline.pin (pcfgs (F := F)) adm p) c :=
  (dats Vv aft3 rcd p c).toRForget fgt

/-- The levels of the whole program's handshakes: the region's waits sit at index `none`, below all of them. -/
abbrev LL : GSem nD τ sig → Finset (HIx 1) := (K (F := F)).L
abbrev lvv : GSem nD τ sig → HIx 1 → ℕ := (K (F := F)).lev

theorem share_full (c : Dev nD) (w : Fin 4) : (rd Vv aft3 rcd fgt 0 c).share w = fullShare :=
  (dats Vv aft3 rcd 0 c).share_full (fun _ => rfl) w

-- the region record's fields are stated over `pin pcfgs adm 0`, which is `cfg1` by unfolding plain definitions
set_option backward.isDefEq.respectTransparency.types false in
/-- The region. -/
def reg (hbody : ∀ c, BodyObligationLoose (dats Vv aft3 rcd 0 c) (defs₀ (F := F)) 𝒱₀ (none : HIx 1) Set.univ fgt) :
    Pipeline.RDat.RegionSeg (pcfgs (F := F)) adm (rd Vv aft3 rcd fgt) (none : HIx 1) defs₀ 𝒱₀ (LL (F := F)) (lvv (F := F)) 0 where
  win := launch1.win.to₀
  block_pos := launch1.block_pos
  stage_whole := launch1.stage_whole
  K := PEmpty
  osem k := k.elim
  ho := Pipeline.OwnSemFacts.none _
  hbody c := (hbody c).toRForget
  hwaits := Pipeline.RDat.hwaits_of_owed_zero _ _ _ _ (LL (F := F)) (lvv (F := F)) 0 fun _ _ => rfl
  pre c := iprop(unscopedBufs c (Vv c) ∗ ∃ W : Waits sig (HIx 1), ⌜(↑W : Set (SemLoc sig × HIx 1)) ⊆ rcd c⌝ ∗ owes (c.tc : Thread nD τ) (0 : CellTallies nD τ sig (HIx 1)) W)
  post c := iprop((rd Vv aft3 rcd fgt 0 c).arraysAt cfg1.N ∗ Pipeline.unscopedRest spec1 c (Vv c)
    ∗ (rd Vv aft3 rcd fgt 0 c).owesAt (none : HIx 1) (Fin.last cfg1.N))
  X _ := iprop(emp)
  Y _ := iprop(emp)
  Z c := Pipeline.unscopedRest spec1 c (Vv c)
  hentry c := by
    rw [Pipeline.ownSems0_none]
    iintro ⟨⟨Hub, HO⟩, -, -⟩
    ihave H := (Pipeline.RDat.arrays_of_unscopedBufs (pcfgs (F := F)) adm (rd Vv aft3 rcd fgt) launch1.win launch1.arr_whole c
      (share_full Vv aft3 rcd fgt c) (Vv c) (fun _ => rfl)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW hp)
      iexact HO
    isplitr; · iempintro
    iexact Hrest
  hin c := by
    rw [show (rd Vv aft3 rcd fgt 0 c).Φ 0 = iprop(emp) from rfl]
    iintro -; iempintro
  hout c := by
    rw [Pipeline.ownSems0_none, scopedRest1_eq]
    iintro -
    isplitr; · iempintro
    isplitr <;> iempintro
  hexit c := by
    iintro ⟨Ha, HO, -, HZ⟩
    imodintro
    isplitl [Ha]; · iexact Ha
    isplitl [HZ]; · iexact HZ
    iexact HO

end Cert.Kernel.Pf

end
-- ==== Proof.BSplit.lean ====
/-
  @main's cutting of the call's operands: the whole token table as thirty-two leaf shares, the index list and the result
  rows each as the thirty-two tiles' own 64 positions — and the gluing back, the rows holding the gathered rows.

  Tile `(c, s)` takes the 64 list positions (and the 64 rows) from `128 s + 64 c` on: part number `2 s + c` of the 32
  equal parts along the first axis.  The numbering is a bijection from the 2 × 16 tiles to the 32 parts, so the tiles'
  sets are pairwise disjoint and cover the array, and a points-to on the whole array is the tiles' points-tos side by
  side.  The table is cut along its share instead.  Each cut is an equation, read one way to hand the operands out and
  the other way to take the results back.
-/
import proofs.«205851_g1529008357945_cont_week2b_587_25_alg».proof.Proof.BPay

noncomputable section

namespace Cert.Kernel.Pf

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.ScSplit (sh)

variable {F : FTy → Type} [FloatOps F]

local notation "𝕄" => MT nD τ sig (HIx 1) (Elt F) ℕ UU ℕ

/-! ## The tiles' numbering of the 32 parts -/

/-- Tile `(c, s)` owns part `2 s + c`. -/
def num (p : Fin 2 × Fin 16) : Fin 32 := ⟨2 * p.2.val + p.1.val, by have := p.1.isLt; have := p.2.isLt; omega⟩

theorem num_inj : Function.Injective num := by
  rintro ⟨c, s⟩ ⟨c', s'⟩ h
  have h' : 2 * s.val + c.val = 2 * s'.val + c'.val := congrArg Fin.val h
  have hc : c = c' := Fin.ext (by omega)
  have hs : s = s' := Fin.ext (by omega)
  rw [hc, hs]

theorem num_surj : Function.Surjective num := fun j =>
  ⟨(⟨j.val % 2, by omega⟩, ⟨j.val / 2, by omega⟩), Fin.ext (by show 2 * (j.val / 2) + j.val % 2 = j.val; omega)⟩

theorem hdiv1 : 32 ∣ S2048.size 0 := ⟨64, rfl⟩
theorem hdiv2 : 32 ∣ S2048x128.size 0 := ⟨64, rfl⟩

/-- The tile's list positions are its part of the list. -/
theorem idxRect_eq (p : Fin 2 × Fin 16) :
    Rect.unit (s := S2048) (k0_off1 (coordsV p.1 p.2)) S64.size (k0_off1_inb (coordsV p.1 p.2))
      = Rect.part (s := S2048) (a₀ := 0) hdiv1 (num p) := by
  refine Cert.Lib.ScSplit.unit_congr ?_ ?_
  · rw [k0_off1_eq]
    funext a
    match a with
    | 0 => simp [Shape.partIx, Shape.partSize, num, coordsV]; omega
  · funext a
    match a with
    | 0 => simp [Shape.partSize]

/-- The tile's rows are its part of the rows. -/
theorem rowRect_eq (p : Fin 2 × Fin 16) :
    Rect.unit (s := S2048x128) (k0_off2 (coordsV p.1 p.2)) S64x128.size (k0_off2_inb (coordsV p.1 p.2))
      = Rect.part (s := S2048x128) (a₀ := 0) hdiv2 (num p) := by
  refine Cert.Lib.ScSplit.unit_congr ?_ ?_
  · rw [k0_off2_eq]
    funext a
    match a with
    | 0 => simp [Shape.partIx, Shape.partSize, num, coordsV]; omega
    | 1 => simp [Shape.partIx, Shape.partSize]
  · funext a
    match a with
    | 0 => simp [Shape.partSize]
    | 1 => simp [Shape.partSize]

theorem idxSet_part (p : Fin 2 × Fin 16) :
    idxSet (coordsV p.1 p.2) = (Rect.part (s := S2048) (a₀ := 0) hdiv1 (num p)).set := by
  show ((View.whole (main_v0_scv : Ref sig .scVector)).slice
      (Rect.unit (s := S2048) (k0_off1 (coordsV p.1 p.2)) S64.size (k0_off1_inb (coordsV p.1 p.2)))).set = _
  rw [View.set_slice, idxRect_eq]; exact Finset.map_refl

theorem rowSet_part (p : Fin 2 × Fin 16) :
    rowSet (coordsV p.1 p.2) = (Rect.part (s := S2048x128) (a₀ := 0) hdiv2 (num p)).set := by
  show ((View.whole (main_v1_scv : Ref sig .scVector)).slice
      (Rect.unit (s := S2048x128) (k0_off2 (coordsV p.1 p.2)) S64x128.size (k0_off2_inb (coordsV p.1 p.2)))).set = _
  rw [View.set_slice, rowRect_eq]; exact Finset.map_refl

theorem idx_disjoint : ∀ t ∈ (Finset.univ : Finset (Fin 2 × Fin 16)), ∀ t' ∈ (Finset.univ : Finset (Fin 2 × Fin 16)), t ≠ t' →
    Disjoint (idxSet (coordsV t.1 t.2)) (idxSet (coordsV t'.1 t'.2)) := by
  intro t ht t' ht' h
  rw [idxSet_part, idxSet_part]
  exact Cert.Lib.ScSplit.parts_disjoint hdiv1 num num_inj t ht t' ht' h

theorem idx_cover : (Finset.univ : Finset (Fin 2 × Fin 16)).biUnion (fun p => idxSet (coordsV p.1 p.2)) = Finset.univ :=
  (Finset.biUnion_congr rfl fun p _ => idxSet_part p).trans (Cert.Lib.ScSplit.parts_cover hdiv1 num num_surj)

theorem row_disjoint : ∀ t ∈ (Finset.univ : Finset (Fin 2 × Fin 16)), ∀ t' ∈ (Finset.univ : Finset (Fin 2 × Fin 16)), t ≠ t' →
    Disjoint (rowSet (coordsV t.1 t.2)) (rowSet (coordsV t'.1 t'.2)) := by
  intro t ht t' ht' h
  rw [rowSet_part, rowSet_part]
  exact Cert.Lib.ScSplit.parts_disjoint hdiv2 num num_inj t ht t' ht' h

theorem row_cover : (Finset.univ : Finset (Fin 2 × Fin 16)).biUnion (fun p => rowSet (coordsV p.1 p.2)) = Finset.univ :=
  (Finset.biUnion_congr rfl fun p _ => rowSet_part p).trans (Cert.Lib.ScSplit.parts_cover hdiv2 num num_surj)

/-! ## The three cuts -/

omit [FloatOps F] in
/-- The list whole is the tiles' positions side by side. -/
theorem lst_cut (d : Dev nD) (f : Buf (Elt F) (lstLoc d)) :
    (lstLoc d ↦{fullShare} f : sProp 𝕄)
      = bigSep Finset.univ fun c : Fin 2 => bigSep Finset.univ fun s : Fin 16 => lstLoc d ↦[idxSet (coordsV c s)]{fullShare} f := by
  rw [Cert.Lib.ScSplit.pointsTo_cut (ℓ := lstLoc d) (fun p : Fin 2 × Fin 16 => idxSet (coordsV p.1 p.2)) idx_disjoint idx_cover
    fullShare f, bigSep_univ_prod]

omit [FloatOps F] in
/-- The rows whole are the tiles' rows side by side. -/
theorem rows_cut (d : Dev nD) (f : Buf (Elt F) (rowsLoc d)) :
    (rowsLoc d ↦{fullShare} f : sProp 𝕄)
      = bigSep Finset.univ fun c : Fin 2 => bigSep Finset.univ fun s : Fin 16 => rowsLoc d ↦[rowSet (coordsV c s)]{fullShare} f := by
  rw [Cert.Lib.ScSplit.pointsTo_cut (ℓ := rowsLoc d) (fun p : Fin 2 × Fin 16 => rowSet (coordsV p.1 p.2)) row_disjoint row_cover
    fullShare f, bigSep_univ_prod]

omit [FloatOps F] in
/-- The table at the full share is the table at the tiles' shares side by side. -/
theorem tok_cut (d : Dev nD) (f : Buf (Elt F) (tokLoc d)) :
    (tokLoc d ↦{fullShare} f : sProp 𝕄)
      = bigSep Finset.univ fun c : Fin 2 => bigSep Finset.univ fun s : Fin 16 => tokLoc d ↦{sh c.val s.val} f :=
  Cert.Lib.ScSplit.pointsTo_sh Finset.univ f

omit [FloatOps F] in
/-- The three arrays whole are the tiles' triples side by side, whatever the rows hold. -/
theorem split_eq (d : Dev nD) (ft : Buf (Elt F) (tokLoc d)) (fl : Buf (Elt F) (lstLoc d)) (fr : Buf (Elt F) (rowsLoc d)) :
    (iprop((tokLoc d ↦{fullShare} ft) ∗ (lstLoc d ↦{fullShare} fl) ∗ (rowsLoc d ↦{fullShare} fr)) : sProp 𝕄)
      = bigSep Finset.univ fun c : Fin 2 => bigSep Finset.univ fun s : Fin 16 =>
          iprop((tokLoc d ↦{sh c.val s.val} ft) ∗ (lstLoc d ↦[idxSet (coordsV c s)]{fullShare} fl)
            ∗ rowsLoc d ↦[rowSet (coordsV c s)]{fullShare} fr) := by
  rw [Cert.Lib.ScSplit.bigSep2_sep (fun (c : Fin 2) (s : Fin 16) => (tokLoc d ↦{sh c.val s.val} ft : sProp 𝕄))
      (fun (c : Fin 2) (s : Fin 16) => iprop((lstLoc d ↦[idxSet (coordsV c s)]{fullShare} fl)
        ∗ rowsLoc d ↦[rowSet (coordsV c s)]{fullShare} fr)),
    Cert.Lib.ScSplit.bigSep2_sep (fun (c : Fin 2) (s : Fin 16) => (lstLoc d ↦[idxSet (coordsV c s)]{fullShare} fl : sProp 𝕄))
      (fun (c : Fin 2) (s : Fin 16) => (rowsLoc d ↦[rowSet (coordsV c s)]{fullShare} fr : sProp 𝕄)),
    ← tok_cut, ← lst_cut, ← rows_cut]

omit [FloatOps F] in
/-- A sum over the call's SparseCores is a sum over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ)

/-- The three arrays whole are every tile's operands. -/
theorem st_intro (d : Dev nD) :
    iprop((tokLoc d ↦{fullShare} m (tokLoc d)) ∗ (lstLoc d ↦{fullShare} lstOf m d) ∗ (rowsLoc d ↦{fullShare} m (rowsLoc d)))
      ⊢ (bigSep Finset.univ fun c : Fin ((K (F := F)).nCore 0) => (P m).st 0 d c : sProp 𝕄) := by
  show _ ⊢ (bigSep Finset.univ fun c : Fin ((K (F := F)).nCore 0) =>
    bigSep Finset.univ fun s : Fin 16 => tIn m d (Fin.cast nCore_zero c) s)
  rw [bigSep_cores (F := F) (fun c => bigSep Finset.univ fun s : Fin 16 => tIn m d c s)]
  exact Entails.of_eq (split_eq d (m (tokLoc d)) (lstOf m d) (m (rowsLoc d)))

/-- Every tile's results are the three arrays whole, the rows gathered. -/
theorem dn_elim (d : Dev nD) :
    (bigSep Finset.univ fun c : Fin ((K (F := F)).nCore 0) => (P m).dn 0 d c : sProp 𝕄)
      ⊢ iprop((tokLoc d ↦{fullShare} m (tokLoc d)) ∗ (lstLoc d ↦{fullShare} lstOf m d)
          ∗ (rowsLoc d ↦{fullShare} (gathered (m (tokLoc d)) (lstOf m d) : Buf (Elt F) (rowsLoc d)))) := by
  show (bigSep Finset.univ fun c : Fin ((K (F := F)).nCore 0) =>
    bigSep Finset.univ fun s : Fin 16 => tOut m d (Fin.cast nCore_zero c) s) ⊢ _
  rw [bigSep_cores (F := F) (fun c => bigSep Finset.univ fun s : Fin 16 => tOut m d c s)]
  exact Entails.of_eq (split_eq d (m (tokLoc d)) (lstOf m d) (gathered (m (tokLoc d)) (lstOf m d) : Buf (Elt F) (rowsLoc d))).symm

end Cert.Kernel.Pf

end
-- ==== Proof.BMainAux.lean ====
/-
  Bookkeeping for @main on the TensorCore: the eight arrays of the program one by one, the valuations the two
  reshapes and the region run at, and what each reshape leaves.
-/
import proofs.«205851_g1529008357945_cont_week2b_587_25_alg».proof.Proof.BRegion
import proofs.«205851_g1529008357945_cont_week2b_587_25_alg».proof.Proof.BSplit

noncomputable section

namespace Cert.Kernel.Pf

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ)

/-- The arrays as device buffers. -/
abbrev idx' : DevRef τ sig := Proc.devRef .tc (main_arg0 : Ref sig .tc)
abbrev tok' : DevRef τ sig := Proc.devRef .tc (main_arg1 : Ref sig .tc)
abbrev pos' : DevRef τ sig := Proc.devRef .tc (main_arg2 : Ref sig .tc)
abbrev w' : DevRef τ sig := Proc.devRef .tc (main_arg3 : Ref sig .tc)
abbrev lst' : DevRef τ sig := Proc.devRef .tc (main_v0 : Ref sig .tc)
abbrev rows' : DevRef τ sig := Proc.devRef .tc (main_v1 : Ref sig .tc)
abbrev mat' : DevRef τ sig := Proc.devRef .tc (main_v2 : Ref sig .tc)
abbrev res' : DevRef τ sig := Proc.devRef .tc (main_v3 : Ref sig .tc)

/-- The two reshapes. -/
abbrev op1 : HloOp τ sig (Elt F) := StableHlo.reshape main_arg0 main_v0 rfl shapeCasts_S1x2048_S2048
abbrev op2 : HloOp τ sig (Elt F) := StableHlo.reshape main_v2 main_v3 rfl shapeCasts_S2048x50257_S1x2048x50257

omit [FloatOps F] in
/-- The TensorCore's unscoped buffers are the program's eight arrays. -/
theorem unscopedBufs_eq (d : Dev nD) (W : (b : Ref sig .tc) → Buf (Elt F) ((d.tc : Thread nD τ).loc b)) :
    (unscopedBufs d W : sProp 𝕄) = iprop((idxLoc d ↦{fullShare} W main_arg0) ∗ (tokLoc d ↦{fullShare} W main_arg1)
      ∗ (posLoc d ↦{fullShare} W main_arg2) ∗ (wLoc d ↦{fullShare} W main_arg3) ∗ (lstLoc d ↦{fullShare} W main_v0)
      ∗ (rowsLoc d ↦{fullShare} W main_v1) ∗ (matLoc d ↦{fullShare} W main_v2) ∗ resLoc d ↦{fullShare} W main_v3) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation of device `d`. -/
def V0 (d : Dev nD) : Valuation τ sig (Elt F) := fun b => m (d, b)

omit [FloatOps F] in
theorem held_two (d : Dev nD) (a b : DevRef τ sig) (hab : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (by simpa using hab), bigSep_singleton]

end Cert.Kernel.Pf

end
-- ==== Proof.BMain.lean ====
/-
  @main on the TensorCore: the reshape of the index words, the SparseCore call (the operands cut among the tiles, the
  gathered rows glued back), the pipelined matrix product as a region, the reshape of the result.
-/
import proofs.«205851_g1529008357945_cont_week2b_587_25_alg».proof.Proof.BMainAux

noncomputable section

namespace Cert.Kernel.Pf

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat RDat BodyObligationLoose)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The valuation the region is entered at: the list reshaped, the rows gathered, the rest as launched. -/
def Vent (d : Dev nD) : Valuation τ sig (Elt F) :=
  Function.update (Function.update (V0 m d) lst' (lstOf m d)) rows' (gathered (m (tokLoc d)) (lstOf m d) : Buf (Elt F) (rowsLoc d))
abbrev Vv (d : Dev nD) (b : Ref sig .tc) : Buf (Elt F) ((d.tc : Thread nD τ).loc b) := Vent m d b

theorem Vent_idx (d : Dev nD) : Vent m d idx' = m (idxLoc d) := (Function.update_of_ne (by decide) _ _).trans (Function.update_of_ne (by decide) _ _)
theorem Vent_tok (d : Dev nD) : Vent m d tok' = m (tokLoc d) := (Function.update_of_ne (by decide) _ _).trans (Function.update_of_ne (by decide) _ _)
theorem Vent_pos (d : Dev nD) : Vent m d pos' = m (posLoc d) := (Function.update_of_ne (by decide) _ _).trans (Function.update_of_ne (by decide) _ _)
theorem Vent_w (d : Dev nD) : Vent m d w' = m (wLoc d) := (Function.update_of_ne (by decide) _ _).trans (Function.update_of_ne (by decide) _ _)
theorem Vent_mat (d : Dev nD) : Vent m d mat' = m (matLoc d) := (Function.update_of_ne (by decide) _ _).trans (Function.update_of_ne (by decide) _ _)
theorem Vent_res (d : Dev nD) : Vent m d res' = m (resLoc d) := (Function.update_of_ne (by decide) _ _).trans (Function.update_of_ne (by decide) _ _)
theorem Vent_lst (d : Dev nD) : Vent m d lst' = lstOf m d := (Function.update_of_ne (by decide) _ _).trans (Function.update_self _ _ _)
theorem Vent_rows (d : Dev nD) : Vent m d rows' = (gathered (m (tokLoc d)) (lstOf m d) : Buf (Elt F) (rowsLoc d)) := Function.update_self _ _ _

/-- The bound on the TensorCore's recorded wait pairs across the region: at or below the level the one call's round
    closes at. -/
def rcd (d : Dev nD) : Set (SemLoc sig × HIx 1) := {p | (K (F := F)).lev (T d, p.1) p.2 ≤ 8}

/-- The TensorCore's state before call `n`, its `owes` apart. -/
theorem tcSt_open (d : Dev nD) (n : ℕ) : ∃ R : sProp 𝕄, (K (F := F)).tcSt EH d n
    = iprop((∃ W, ⌜(K (F := F)).WBelow (T d) W (8 * n)⌝ ∗ owes (T d) ((K (F := F)).Otc d n) W) ∗ R) := ⟨_, rfl⟩

section Run

variable (aft3 : (c : Dev nD) → Fin cfg1.N → (S2048x2048.Idx → Elt F .f32)) (fgt : Fin 4 → Bool)

/-- What @main leaves the claim: the four arguments as launched, and the result the reshape of contents the matrix may
    hold after every write-back. -/
def FIN (d : Dev nD) : sProp 𝕄 :=
  iprop((idxLoc d ↦{fullShare} m (idxLoc d)) ∗ (tokLoc d ↦{fullShare} m (tokLoc d)) ∗ (posLoc d ↦{fullShare} m (posLoc d))
    ∗ (wLoc d ↦{fullShare} m (wLoc d))
    ∗ ∃ f : Buf (Elt F) (matLoc d), ⌜(rd (Vv m) aft3 (rcd (F := F)) fgt 0 d).ArrAt (3 : Fin 4) cfg1.N f⌝
        ∗ resLoc d ↦{fullShare} ((shapeCast S1x2048x50257 (f : FVec F S2048x50257 .f32) shapeCasts_S2048x50257_S1x2048x50257 : FVec F S1x2048x50257 .f32) : Buf (Elt F) (resLoc d)))

end Run

section Run2

variable (aft3 : (c : Dev nD) → Fin cfg1.N → (S2048x2048.Idx → Elt F .f32)) (fgt : Fin 4 → Bool)
  (hbody : ∀ c, BodyObligationLoose (dats (Vv m) aft3 (rcd (F := F)) 0 c) (defs₀ (F := F)) 𝒱₀ (none : HIx 1) Set.univ fgt)

omit [∀ e, Nonempty (Elt F e)] in
theorem op1_sub : (op1 (F := F)).bufs ⊆ ({idx', lst'} : Finset (DevRef τ sig)) := by
  rw [StableHlo.reshape_bufs]
omit [∀ e, Nonempty (Elt F e)] in
theorem op2_sub : (op2 (F := F)).bufs ⊆ ({mat', res'} : Finset (DevRef τ sig)) := by
  rw [StableHlo.reshape_bufs]

omit [∀ e, Nonempty (Elt F e)] in
/-- After the first reshape: the index words as launched, the list their reshape. -/
theorem held_op1 (d : Dev nD) :
    (held (T d) {idx', lst'} ((op1 (F := F)).result (V0 m d)) : sProp 𝕄)
      = iprop((idxLoc d ↦{fullShare} m (idxLoc d)) ∗ lstLoc d ↦{fullShare} lstOf m d) := by
  rw [held_two d idx' lst' (by decide),
    show (op1 (F := F)).result (V0 m d) idx' = m (idxLoc d) from StableHlo.reshape_result_ne _ _ _ _ _ _ (V0 m d) (r := main_arg0) (by decide),
    show (op1 (F := F)).result (V0 m d) lst' = lstOf m d from StableHlo.reshape_result _ _ _ _ _ _ (V0 m d)]

/-- The valuation the second reshape runs at: the matrix at `f`. -/
def V2 (d : Dev nD) (f : Buf (Elt F) (matLoc d)) : Valuation τ sig (Elt F) := Function.update (V0 m d) mat' f

omit [∀ e, Nonempty (Elt F e)] in
theorem held_V2 (d : Dev nD) (f : Buf (Elt F) (matLoc d)) :
    (held (T d) {mat', res'} (V2 m d f) : sProp 𝕄) = iprop((matLoc d ↦{fullShare} f) ∗ resLoc d ↦{fullShare} m (resLoc d)) := by
  rw [held_two d mat' res' (by decide), show V2 m d f mat' = f from Function.update_self _ _ _,
    show V2 m d f res' = m (resLoc d) from Function.update_of_ne (by decide) _ _]

omit [∀ e, Nonempty (Elt F e)] in
/-- After the second reshape: the matrix as it was, the result its reshape. -/
theorem held_op2 (d : Dev nD) (f : Buf (Elt F) (matLoc d)) :
    (held (T d) {mat', res'} ((op2 (F := F)).result (V2 m d f)) : sProp 𝕄)
      = iprop((matLoc d ↦{fullShare} f) ∗ resLoc d ↦{fullShare}
          ((shapeCast S1x2048x50257 (f : FVec F S2048x50257 .f32) shapeCasts_S2048x50257_S1x2048x50257 : FVec F S1x2048x50257 .f32) : Buf (Elt F) (resLoc d))) := by
  rw [held_two d mat' res' (by decide),
    show (op2 (F := F)).result (V2 m d f) mat' = f from
      (StableHlo.reshape_result_ne _ _ _ _ _ _ (V2 m d f) (r := main_v2) (by decide)).trans (Function.update_self _ _ _),
    show (op2 (F := F)).result (V2 m d f) res' = _ from StableHlo.reshape_result _ _ _ _ _ _ (V2 m d f)]
  rw [show V2 m d f (main_v2 : Ref sig .tc) = f from Function.update_self _ _ _]
  rfl

omit [∀ e, Nonempty (Elt F e)] in
/-- The eight arrays one by one, at the contents the call left, are the region's unscoped buffers at `Vv`. -/
theorem bufs_intro (d : Dev nD) :
    iprop((idxLoc d ↦{fullShare} m (idxLoc d)) ∗ (tokLoc d ↦{fullShare} m (tokLoc d)) ∗ (posLoc d ↦{fullShare} m (posLoc d))
        ∗ (wLoc d ↦{fullShare} m (wLoc d)) ∗ (lstLoc d ↦{fullShare} lstOf m d)
        ∗ (rowsLoc d ↦{fullShare} (gathered (m (tokLoc d)) (lstOf m d) : Buf (Elt F) (rowsLoc d)))
        ∗ (matLoc d ↦{fullShare} m (matLoc d)) ∗ resLoc d ↦{fullShare} m (resLoc d))
      ⊢ (unscopedBufs d (Vv m d) : sProp 𝕄) := by
  rw [unscopedBufs_eq]
  show _ ⊢ iprop((idxLoc d ↦{fullShare} Vent m d idx') ∗ (tokLoc d ↦{fullShare} Vent m d tok') ∗ (posLoc d ↦{fullShare} Vent m d pos')
      ∗ (wLoc d ↦{fullShare} Vent m d w') ∗ (lstLoc d ↦{fullShare} Vent m d lst') ∗ (rowsLoc d ↦{fullShare} Vent m d rows')
      ∗ (matLoc d ↦{fullShare} Vent m d mat') ∗ resLoc d ↦{fullShare} Vent m d res')
  rw [Vent_idx, Vent_tok, Vent_pos, Vent_w, Vent_lst, Vent_rows, Vent_mat, Vent_res]

/-- What the region leaves, one array at a time: the inputs as they were, the matrix at contents it may hold after every
    write-back, the core owing nothing with its recorded pairs still at or below the call's level. -/
theorem post_elim (d : Dev nD) :
    iprop((rd (Vv m) aft3 (rcd (F := F)) fgt 0 d).arraysAt cfg1.N ∗ Pipeline.unscopedRest spec1 d (Vv m d)
        ∗ (rd (Vv m) aft3 (rcd (F := F)) fgt 0 d).owesAt (none : HIx 1) (Fin.last cfg1.N))
      ⊢ iprop((idxLoc d ↦{fullShare} m (idxLoc d)) ∗ (tokLoc d ↦{fullShare} m (tokLoc d)) ∗ (posLoc d ↦{fullShare} m (posLoc d))
        ∗ (wLoc d ↦{fullShare} m (wLoc d)) ∗ (resLoc d ↦{fullShare} m (resLoc d))
        ∗ (∃ f : Buf (Elt F) (matLoc d), ⌜(rd (Vv m) aft3 (rcd (F := F)) fgt 0 d).ArrAt (3 : Fin 4) cfg1.N f⌝ ∗ matLoc d ↦{fullShare} f)
        ∗ ∃ W, ⌜(K (F := F)).WBelow (T d) W 8⌝ ∗ owes (T d) (0 : CellTallies nD τ sig (HIx 1)) W) := by
  unfold Pipeline.RDat.arraysAt
  rw [bigSep_W1, unscopedRest1_eq]
  unfold Pipeline.RDat.owesAt Pipeline.owesWithin
  iintro ⟨⟨-, ⟨%F1, %hF1, HP⟩, ⟨%F2, %hF2, HW⟩, ⟨%F3, %hF3, HM⟩⟩, ⟨HI, HT, -, HR⟩, ⟨%W, %hW, HO⟩⟩
  rw [(rd (Vv m) aft3 (rcd (F := F)) fgt 0 d).ArrAt_in (1 : Fin 4) rfl] at hF1
  rw [(rd (Vv m) aft3 (rcd (F := F)) fgt 0 d).ArrAt_in (2 : Fin 4) rfl] at hF2
  subst hF1; subst hF2
  isplitl [HI]; · iapply (Entails.of_eq (congrArg (fun v => (idxLoc d ↦{fullShare} v : sProp 𝕄)) (Vent_idx m d))); iexact HI
  isplitl [HT]; · iapply (Entails.of_eq (congrArg (fun v => (tokLoc d ↦{fullShare} v : sProp 𝕄)) (Vent_tok m d))); iexact HT
  isplitl [HP]
  · iapply (Entails.of_eq (congrArg (fun v => (posLoc d ↦{fullShare} v : sProp 𝕄)) (Vent_pos m d)))
    simp only [Memref.view_whole, View.set_whole]; iexact HP
  isplitl [HW]
  · iapply (Entails.of_eq (congrArg (fun v => (wLoc d ↦{fullShare} v : sProp 𝕄)) (Vent_w m d)))
    simp only [Memref.view_whole, View.set_whole]; iexact HW
  isplitl [HR]; · iapply (Entails.of_eq (congrArg (fun v => (resLoc d ↦{fullShare} v : sProp 𝕄)) (Vent_res m d))); iexact HR
  isplitl [HM]
  · iexists F3; isplitr; · ipureintro; exact hF3
    simp only [Memref.view_whole, View.set_whole]; iexact HM
  iexists W; isplitr
  · ipureintro
    intro p hp
    rcases hW hp with h | ⟨w, s, rfl⟩
    · exact h
    · show (K (F := F)).lev _ none ≤ 8
      rw [SparseCore.Cfg.lev_none]; omega
  iexact HO

-- the record's fields read back, as equations to rewrite by
set_option backward.isDefEq.respectTransparency.types false in
theorem reg_pre (d : Dev nD) : (reg (Vv m) aft3 (rcd (F := F)) fgt hbody).pre d
    = iprop(unscopedBufs d (Vv m d) ∗ ∃ W : Waits sig (HIx 1), ⌜(↑W : Set (SemLoc sig × HIx 1)) ⊆ rcd (F := F) d⌝ ∗ owes (d.tc : Thread nD τ) (0 : CellTallies nD τ sig (HIx 1)) W) := rfl
set_option backward.isDefEq.respectTransparency.types false in
theorem reg_post (d : Dev nD) : (reg (Vv m) aft3 (rcd (F := F)) fgt hbody).post d
    = iprop((rd (Vv m) aft3 (rcd (F := F)) fgt 0 d).arraysAt cfg1.N ∗ Pipeline.unscopedRest spec1 d (Vv m d)
        ∗ (rd (Vv m) aft3 (rcd (F := F)) fgt 0 d).owesAt (none : HIx 1) (Fin.last cfg1.N)) := rfl

-- the region record's statement over `pin pcfgs adm 0` meets `cfg1` by unfolding plain definitions
set_option backward.isDefEq.respectTransparency.types false in
include hbody in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m aft3 fgt d) := by
  obtain ⟨R1, hR1⟩ := tcSt_open (F := F) d 1
  rw [(K (F := F)).Otc_end d (le_refl 1)] at hR1
  have hR1s : (K (F := F)).tcSt EH d ((0 : Fin 1).val + 1) = _ := hR1
  unfold SparseCore.Cfg.tcRes G
  rw [unscopedBufs_eq]
  simp only [main, wp_bind, wp_pure]
  iintro ⟨#Hctx, Hst, ⟨Hb, ⟨H0, H1, H2, H3, Hv0, Hv1, Hv2, Hv3⟩, -, -⟩, ⟨Hcg, Htk⟩⟩
  -- the reshape of the index words
  iapply (wp_hlo_within 𝒱 (T d) none Set.univ (op := op1 (F := F)) (S := {idx', lst'}) op1_sub (V := V0 m d)) $$ [Hb H0 Hv0]
  · isplitl [Hb]; · iexact Hb
    rw [held_two d idx' lst' (by decide)]
    isplitl [H0]; · iexact H0
    iexact Hv0
  iintro ⟨Hb, Hheld⟩
  ihave Hh := (Entails.of_eq (held_op1 m d)) $$ Hheld
  icases Hh with ⟨H0, Hv0⟩
  rw [wp_ret]; imodintro
  -- the SparseCore call: the table, the list and the rows cut among the tiles, and glued back
  iapply ((K (F := F)).wp_run (D (F := F)) 𝒱 (EH := EH) (P := P m) κ d 0) $$ [Hst H1 Hv0 Hv1 Hb H0 H2 H3 Hv2 Hv3 Hcg Htk]
  isplitr; · iexact Hctx
  isplitl [Hst]; · iexact Hst
  isplitl [H1 Hv0 Hv1]
  · iapply (st_intro m d)
    isplitl [H1]; · iexact H1
    isplitl [Hv0]; · iexact Hv0
    iexact Hv1
  iintro ⟨Hst, Hdn⟩
  ihave Hdn' := (dn_elim m d) $$ Hdn
  icases Hdn' with ⟨H1, Hv0, Hv1⟩
  -- the TensorCore owes nothing now; its recorded pairs sit at or below the call's level
  ihave Hst' := (Entails.of_eq hR1s) $$ Hst
  icases Hst' with ⟨⟨%W, %hW, HO⟩, HR1⟩
  -- the region
  iapply ((K (F := F)).wp_liftProg (D (F := F)) 𝒱 (T d) Set.univ none (Prog.lift (.customCall (Pipeline.entry (0 : Fin 1)) ())) _)
  iapply (Pipeline.RDat.RegionSeg.wp (pcfgs (F := F)) adm (rd (Vv m) aft3 (rcd (F := F)) fgt) (none : HIx 1) cellOf_inj EP defs₀ 𝒱₀
    (LL (F := F)) (lvv (F := F)) (reg (Vv m) aft3 (rcd (F := F)) fgt hbody) d none (fun u h => nomatch h) (fun x => .ret x) _) $$ [Hb HO H0 H1 H2 H3 Hv0 Hv1 Hv2 Hv3 Hcg Htk HR1]
  isplitr [Hb HO H0 H1 H2 H3 Hv0 Hv1 Hv2 Hv3 Hcg Htk]
  swap
  · isplitl [Hb]; · iexact Hb
    isplitl [HO H0 H1 H2 H3 Hv0 Hv1 Hv2 Hv3]
    · rw [reg_pre m aft3 fgt hbody d]
      isplitr [HO]
      · iapply (bufs_intro m d)
        isplitl [H0]; · iexact H0
        isplitl [H1]; · iexact H1
        isplitl [H2]; · iexact H2
        isplitl [H3]; · iexact H3
        isplitl [Hv0]; · iexact Hv0
        isplitl [Hv1]; · iexact Hv1
        isplitl [Hv2]; · iexact Hv2
        iexact Hv3
      · iexists W; isplitr; · ipureintro; exact fun p hp => hW p hp
        iexact HO
    isplitr; · iapply ((K (F := F)).ctx_levAts κ); iexact Hctx
    isplitl [Hcg]; · iexact Hcg
    iexact Htk
  iintro ⟨Hb, Hpost⟩
  rw [wp_ret]; imodintro
  ihave Hpost' := (Entails.of_eq (reg_post m aft3 fgt hbody d)) $$ Hpost
  ihave Hp := (post_elim m aft3 fgt d) $$ Hpost'
  icases Hp with ⟨H0, H1, H2, H3, Hv3, ⟨%f, %hf, Hv2⟩, ⟨%W', %hW', HO⟩⟩
  -- the reshape of the result
  iapply (wp_hlo_within 𝒱 (T d) none Set.univ (op := op2 (F := F)) (S := {mat', res'}) op2_sub (V := V2 m d f)) $$ [Hb Hv2 Hv3]
  · isplitl [Hb]; · iexact Hb
    rw [held_V2 m d f]
    isplitl [Hv2]; · iexact Hv2
    iexact Hv3
  iintro ⟨Hb, Hheld⟩
  ihave Hh := (Entails.of_eq (held_op2 m d f)) $$ Hheld
  icases Hh with ⟨Hv2, Hv3⟩
  rw [wp_ret]; imodintro; imodintro
  rw [hR1]
  isplitl [HO HR1]
  · isplitl [HO]
    · iexists W'; isplitr; · ipureintro; exact hW'
      iexact HO
    iexact HR1
  unfold FIN
  isplitl [H0]; · iexact H0
  isplitl [H1]; · iexact H1
  isplitl [H2]; · iexact H2
  isplitl [H3]; · iexact H3
  iexists f; isplitr; · ipureintro; exact hf
  iexact Hv3

end Run2

end Cert.Kernel.Pf

end
-- ==== Proof.BRun.lean ====
/-
  The kernel program's run, and what the claims read off it.

  @main's proof leaves, per device, the four argument arrays at their launch contents and the result buffer at the
  reshape of some contents the product matrix may hold after every write-back (taken here as a hypothesis of that exact
  shape, as the launch theorem asks it).  Read against the physical state this
  is a statement about the final memory; the launch theorem of a program with a SparseCore call turns the per-thread
  proofs into the run of the whole program.  The frame claim keeps the four arguments.
-/
import proofs.«205851_g1529008357945_cont_week2b_587_25_alg».proof.Proof.BMain
import proofs.«205851_g1529008357945_cont_week2b_587_25_alg».proof.Defs

open scoped BigOperators

noncomputable section

namespace Cert.Kernel.Pf

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

section Run

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)
  (aft3 : (c : Dev nD) → Fin cfg1.N → (S2048x2048.Idx → Elt F .f32)) (fgt : Fin 4 → Bool)

/-- What the final memory of device `d` satisfies: the four arguments as launched, the result the reshape of contents
    the matrix may hold after every write-back. -/
def fq (d : Dev nD) (s' : Phys nD τ sig (Elt F)) : Prop :=
  s'.mem.mem (idxLoc d) = m (idxLoc d) ∧ s'.mem.mem (tokLoc d) = m (tokLoc d) ∧ s'.mem.mem (posLoc d) = m (posLoc d)
    ∧ s'.mem.mem (wLoc d) = m (wLoc d)
    ∧ ∃ f : Buf (Elt F) (matLoc d), (rd (Vv m) aft3 (rcd (F := F)) fgt 0 d).ArrAt (3 : Fin 4) cfg1.N f
        ∧ s'.mem.mem (resLoc d) = ((shapeCast S1x2048x50257 (f : FVec F S2048x50257 .f32) shapeCasts_S2048x50257_S1x2048x50257
            : FVec F S1x2048x50257 .f32) : Buf (Elt F) (resLoc d))

omit [FloatOps F] [∀ e, Nonempty (Elt F e)] in
/-- What a full points-to says of the physical state. -/
theorem agree_full (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro ⟨HSI, H⟩
  ihave H' := (SI_pointsTo_agree (st := s') (ℓ := ℓ) (I := Finset.univ) (q := fullShare) (f := f)) $$ [HSI H]
  · isplitl [HSI] <;> iassumption
  icases H' with %h
  ipureintro; exact funext fun i => h i (Finset.mem_univ i)

/-- @main's leavings read against the physical state. -/
theorem hfin (d : Dev nD) (s' : Phys nD τ sig (Elt F)) :
    iprop(FIN m aft3 fgt d ∗ SI s') ⊢ (⌜fq m aft3 fgt d s'⌝ : sProp 𝕄) := by
  unfold FIN
  iintro ⟨⟨H0, H1, H2, H3, %f, %hf, Hr⟩, HSI⟩
  ihave H := (persistent_entails_right (agree_full s' (idxLoc d) (m (idxLoc d)))) $$ [HSI H0]
  · isplitl [HSI] <;> iassumption
  icases H with ⟨%h0, HSI, -⟩
  ihave H := (persistent_entails_right (agree_full s' (tokLoc d) (m (tokLoc d)))) $$ [HSI H1]
  · isplitl [HSI] <;> iassumption
  icases H with ⟨%h1, HSI, -⟩
  ihave H := (persistent_entails_right (agree_full s' (posLoc d) (m (posLoc d)))) $$ [HSI H2]
  · isplitl [HSI] <;> iassumption
  icases H with ⟨%h2, HSI, -⟩
  ihave H := (persistent_entails_right (agree_full s' (wLoc d) (m (wLoc d)))) $$ [HSI H3]
  · isplitl [HSI] <;> iassumption
  icases H with ⟨%h3, HSI, -⟩
  ihave H := (agree_full s' (resLoc d) _) $$ [HSI Hr]
  · isplitl [HSI] <;> iassumption
  icases H with %h4
  ipureintro; exact ⟨h0, h1, h2, h3, f, hf, h4⟩

/-- The same of the program's final memory, on every device. -/
def QC : PUnit × MemSt nD τ sig (Elt F) → Prop := fun r => ∀ d : Dev nD,
  r.2.mem (idxLoc d) = m (idxLoc d) ∧ r.2.mem (tokLoc d) = m (tokLoc d) ∧ r.2.mem (posLoc d) = m (posLoc d)
    ∧ r.2.mem (wLoc d) = m (wLoc d)
    ∧ ∃ f : Buf (Elt F) (matLoc d), (rd (Vv m) aft3 (rcd (F := F)) fgt 0 d).ArrAt (3 : Fin 4) cfg1.N f
        ∧ r.2.mem (resLoc d) = ((shapeCast S1x2048x50257 (f : FVec F S2048x50257 .f32) shapeCasts_S2048x50257_S1x2048x50257
            : FVec F S1x2048x50257 .f32) : Buf (Elt F) (resLoc d))

/-- Every weakly fair execution of the program terminates, nothing faulting, in a memory of that kind. -/
theorem run_main
    (hmainH : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m aft3 fgt d))
    (htile : (K (F := F)).TileObl (D (F := F)) 𝒱 (P m) v₀ 0) :
    θ_run (Cert.Kernel.defs (F := F)) (Cert.Kernel.threads (F := F)) ⟨m, fun _ => 0, ρ⟩ (QC m aft3 fgt) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m aft3 fgt) (u₀ (F := F)) (sep_elim_left.trans (hu₀ m)) hmainH
    (fq m aft3 fgt) (hfin m aft3 fgt) (QC m aft3 fgt) (fun _ h => h)

/-- The frame: the four arguments end unchanged. -/
theorem frame_run
    (hmainH : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m aft3 fgt d))
    (htile : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono
    (fun _ h c => ⟨(h c).1, (h c).2.1, (h c).2.2.1, (h c).2.2.2.1⟩) (run_main m ρ aft3 fgt hmainH htile)

end Run

end Cert.Kernel.Pf

end
-- ==== Proof.BTileBody.lean ====
/-
  One tile of the lookup kernel, at a symbolic place.

  Tile (c, s) fetches its sixty-four index words into a scratch of its own, gathers the table's rows those words name
  into a second scratch, and writes that scratch out to its sixty-four result rows. Each of the three copies is waited
  for before the next starts. From a share of the whole table, the tile's list positions and its result rows, the body
  ends holding the same, its rows at the gathered rows: row r of the result is the table's row named by index word r.
  The value is read off the three copies' payloads: the fetch lands the list's words, the gather lands for row k the
  table's row named by word k, the write-out lands the second scratch, and the tile's positions and rows start at the
  same offset.
-/
import proofs.«205851_g1529008357945_cont_week2b_587_25_alg».proof.Proof.BAlgebra
import proofs.«205851_g1529008357945_cont_week2b_587_25_alg».proof.Proof.BTileRes
import proofs.«205851_g1529008357945_cont_week2b_587_25_alg».proof.Proof.LibGatherRows
import Idealize.ShloMosaic.Lib.SparseCore.Stream
import Idealize.ShloMosaic.Lib.ValueIdx

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The tile's scratch and semaphores -/

/-- A tile's scratch: the fetched index words, the gathered rows. -/
abbrev sI : Memref sig .scVector .vmem S64 .i32 := Memref.whole cc0_scratch0
abbrev sR : Memref sig .scVector .vmem S64x128 .f32 := Memref.whole cc0_scratch1

section Tile

variable (d : Dev nD) (L : grid0.Coords)

abbrev cellA : GSem nD τ sig := (V d (cV L) (jV L), .dma cc0_scoped0.sem)
abbrev cellG : GSem nD τ sig := (V d (cV L) (jV L), .dma cc0_scratch2.sem)
abbrev cellB : GSem nD τ sig := (V d (cV L) (jV L), .dma cc0_scoped1.sem)

theorem pts_tok (q : PosShare TreeShare) (f : Buf (Elt F) (tokLoc d)) :
    ((tokM).view.loc (V d (cV L) (jV L)) ↦{q} f : sProp 𝕄) = tokLoc d ↦{q} f := rfl
theorem pts_lst (f : Buf (Elt F) (lstLoc d)) :
    ((lstSl L).view.loc (V d (cV L) (jV L)) ↦[(lstSl L).view.set]{fullShare} f : sProp 𝕄) = lstLoc d ↦[idxSet L]{fullShare} f := rfl
theorem pts_rows (f : Buf (Elt F) (rowsLoc d)) :
    ((rowsSl L).view.loc (V d (cV L) (jV L)) ↦[(rowsSl L).view.set]{fullShare} f : sProp 𝕄) = rowsLoc d ↦[rowSet L]{fullShare} f := rfl
theorem pts_sI (f : Buf (Elt F) ((V d (cV L) (jV L)).loc cc0_scratch0)) :
    ((sI).view.loc (V d (cV L) (jV L)) ↦[(sI).view.set]{fullShare} f : sProp 𝕄) = (V d (cV L) (jV L)).loc cc0_scratch0 ↦{fullShare} f := by
  simp only [Memref.view_whole, View.set_whole]
theorem pts_sR (f : Buf (Elt F) ((V d (cV L) (jV L)).loc cc0_scratch1)) :
    ((sR).view.loc (V d (cV L) (jV L)) ↦[(sR).view.set]{fullShare} f : sProp 𝕄) = (V d (cV L) (jV L)).loc cc0_scratch1 ↦{fullShare} f := by
  simp only [Memref.view_whole, View.set_whole]

theorem ownSems0_V :
    (ownSems0 (V d (cV L) (jV L)) : sProp 𝕄)
      = iprop(semVal (cellA d L) 0 ∗ semVal (cellG d L) 0 ∗ semVal (cellB d L) 0
          ∗ bigSep ((((ownCells (V d (cV L) (jV L))).erase (cellA d L)).erase (cellG d L)).erase (cellB d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellG]; decide, (mem_ownCells (g := cellG d L)).mpr ⟨rfl, by
      show (SemLoc.dma cc0_scratch2.sem : SemLoc sig).isScoped .scVector = true; decide⟩⟩),
    SparseCore.bigSep_erase' (Finset.mem_erase.mpr ⟨by simp [cellG, cellB]; decide, Finset.mem_erase.mpr ⟨by simp [cellA, cellB]; decide,
      (mem_ownCells (g := cellB d L)).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The whole shape's placement is the identity. -/
theorem whole_emb {s : Shape} (x : s.Idx) : (Rect.whole s).emb x = x := by
  funext a; apply Fin.ext; rw [Rect.emb_apply]; show 0 + 1 * (x a).val = (x a).val; omega

/-- The fetched index words name rows of the table, whatever the scratch held before the fetch. -/
theorem fetched_inb (lst : Buf (Elt F) (lstLoc d)) (hin : ∀ j : S2048.Idx, (lst j).toNat < 50257)
    (g : Buf (Elt F) ((sI).view.loc (V d (cV L) (jV L)))) (x : S64.Idx) :
    ((sI).view.read (Elt F) ((sI).view.writes (Elt F) g [⟨Rect.whole S64, ReadAs.same.apply ((lstSl L).view.read (Elt F) lst)⟩]) x).toNat < 50257 := by
  have e := View.read_writes_cons_emb (v := (sI).view) (f := g) (Rect.whole S64) (ReadAs.same.apply ((lstSl L).view.read (Elt F) lst)) [] x
  rw [whole_emb] at e
  rw [e]
  exact hin _

/-- The source of the gather as the body names it: the whole table, sliced at nothing. -/
abbrev tokSl : Memref sig .scVector .hbm S50257x128 .f32 :=
  (tokM).slice (Rect.unit (s := S50257x128) ![0, 0] S50257x128.size inb_S50257x128_S50257x128_0_0) (fun _ => rfl)

/-- A buffer written whole reads as what was written, whatever it held. -/
theorem read_writes_whole {κ : Kind} {sp : Space} {s : Shape} {e : EltTy} (v : View sig κ sp s e) (f : v.ty.Contents (Elt F))
    (w : s.Idx → Elt F e) (x : s.Idx) : v.read (Elt F) (v.writes (Elt F) f [⟨Rect.whole s, w⟩]) x = w x := by
  have e := View.read_writes_cons_emb (v := v) (f := f) (Rect.whole s) w [] x
  rwa [whole_emb] at e

/-- Two positions of a list are one when their numbers are. -/
theorem idx1_ext {n : ℕ} (u v : (⟨1, ![n]⟩ : Shape).Idx) (h : (u 0).val = (v 0).val) : u = v := by
  funext a; obtain rfl : a = 0 := Subsingleton.elim _ _; exact Fin.ext h

/-- The table as the body names it reads as the table. -/
theorem tokSl_read (f : Buf (Elt F) (tokLoc d)) (z : S50257x128.Idx) : (tokSl).view.read (Elt F) f z = f z := by
  have hz : (tokSl).view.emb z = z := by
    funext a; apply Fin.ext
    show (![0, 0] : Fin 2 → ℕ) a + 1 * (z a).val = (z a).val
    match a with
    | ⟨0, _⟩ => simp
    | ⟨1, _⟩ => simp
  rw [View.read_apply, hz]; rfl

theorem rowSet_eq : rowSet L = (Rect.unit (s := S2048x128) (k0_off2 L) S64x128.size (k0_off2_inb L)).set := by
  show ((View.whole (main_v1_scv : Ref sig .scVector)).slice _).set = _
  rw [View.set_slice]; exact Finset.map_refl
theorem idxSet_eq : idxSet L = (Rect.unit (s := S2048) (k0_off1 L) S64.size (k0_off1_inb L)).set := by
  show ((View.whole (main_v0_scv : Ref sig .scVector)).slice _).set = _
  rw [View.set_slice]; exact Finset.map_refl

/-- What the write-out leaves at an element of the tile's rows: the table's row named by the tile's index word for that
    row, whatever the two scratches held before. -/
theorem rows_value (m : (ℓ : Loc nD τ sig) → Buf (Elt F) ℓ) (lst : Buf (Elt F) (lstLoc d)) (hin : ∀ j : S2048.Idx, (lst j).toNat < 50257)
    (fr : Buf (Elt F) ((sR).view.loc (V d (cV L) (jV L)))) (fo : S64.Idx → Elt F .i32)
    (hfo : ∀ x, fo x = (lstSl L).view.read (Elt F) lst x)
    (hn : S64.numel = S64x128.size gathers_S50257x128_S64x128.axis')
    (h : ∀ x, (fo x).toNat < S50257x128.size gathers_S50257x128_S64x128.axis)
    (i : S2048x128.Idx) (hi : i ∈ rowSet L) :
    (rowsSl L).view.writes (Elt F) (m (rowsLoc d)) [⟨Rect.whole S64x128,
        ReadAs.same.apply ((sR).view.read (Elt F) ((sR).view.writes (Elt F) fr [⟨Rect.whole S64x128,
          SparseCore.gatherPayload gathers_S50257x128_S64x128 ((tokSl).view.read (Elt F) (m (tokLoc d))) (SparseCore.rows fo hn h)⟩]))⟩] i
      = gathered (m (tokLoc d)) lst i := by
  rw [rowSet_eq] at hi
  obtain ⟨y0, rfl⟩ := (Rect.unit (s := S2048x128) (k0_off2 L) S64x128.size (k0_off2_inb L)).exists_idx_of_mem hi
  clear hi
  revert y0
  intro (y : S64x128.Idx)
  -- the element is the placement of y: it reads what the write-out carried for y
  have e1 := read_writes_whole (F := F) (rowsSl L).view (m (rowsLoc d))
    (ReadAs.same.apply ((sR).view.read (Elt F) ((sR).view.writes (Elt F) fr [⟨Rect.whole S64x128,
          SparseCore.gatherPayload gathers_S50257x128_S64x128 ((tokSl).view.read (Elt F) (m (tokLoc d))) (SparseCore.rows fo hn h)⟩]))) y
  rw [View.read_apply] at e1
  refine (show _ = _ from e1).trans ?_
  show (sR).view.read (Elt F) ((sR).view.writes (Elt F) fr [⟨Rect.whole S64x128, _⟩]) y = _
  rw [read_writes_whole]
  have hg := Cert.Lib.GatherRows.gatherRows_apply (F := F) (N := 50257) (C := 128) (R := 64) (e := .f32) gathers_S50257x128_S64x128
    ((tokSl).view.read (Elt F) (m (tokLoc d))) fo hn h (y 0) (y 1)
  have hy : (ix2 (n0 := 64) (n1 := 128) (y 0) (y 1) : S64x128.Idx) = y := by
    funext a
    match a with
    | ⟨0, _⟩ => rfl
    | ⟨1, _⟩ => rfl
  rw [hy] at hg
  refine hg.trans ?_
  rw [tokSl_read]
  unfold gathered
  refine congrArg (m (tokLoc d)) ?_
  have hw : fo (ix1 (y 0)) = lst (ix1 (((Rect.unit (s := S2048x128) (k0_off2 L) S64x128.size (k0_off2_inb L)).idx y) 0)) := by
    rw [hfo, View.read_apply]
    refine (cast_eq _ _).trans (congrArg lst (idx1_ext (n := 2048) _ _ ?_))
    show k0_off1 L 0 + 1 * (y 0).val = k0_off2 L 0 + 1 * (y 0).val
    rw [k0_off1_eq, k0_off2_eq]; rfl
  funext a
  match a with
  | ⟨0, _⟩ =>
    apply Fin.ext
    show (fo (ix1 (y 0))).toNat = min (lst (ix1 _)).toNat 50256
    rw [hw]
    have := hin (ix1 (((Rect.unit (s := S2048x128) (k0_off2 L) S64x128.size (k0_off2_inb L)).idx y) 0))
    omega
  | ⟨1, _⟩ =>
    apply Fin.ext
    show (y 1).val = k0_off2 L 1 + 1 * (y 1).val
    rw [k0_off2_eq]; simp

variable [FloatOps F]

theorem tile_body (m : (ℓ : Loc nD τ sig) → Buf (Elt F) ℓ) (lst : Buf (Elt F) (lstLoc d)) (hin : ∀ j : S2048.Idx, (lst j).toNat < 50257)
    (q : PosShare TreeShare) (O : CellTallies nD τ sig (HIx 1)) (W : Waits sig (HIx 1)) (hO : ∀ g, O g none = 0) :
    iprop(levAts (K (F := F)).L (K (F := F)).lev ∗ emp ∗ tileIn m d lst q L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tokM (Memref.isWhole_whole _) lstM (Memref.isWhole_whole _) rowsM (Memref.isWhole_whole _)
            (Memref.whole cc0_scratch0) (Memref.isWhole_whole _) (Memref.whole cc0_scratch1) (Memref.isWhole_whole _) cc0_scratch2 cc0_scoped0 cc0_scoped1)
          fun _ => iprop(tileOut m d lst q L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V facts d (cV L) (jV L), SparseCore.Cfg.scopedSems0_V (Val := Elt F) d (cV L) (jV L), ownSems0_V, ownBufs_V]
  unfold tileIn tileOut
  iintro ⟨#Hlv, -, ⟨Htok, Hlst, Hrows⟩, ⟨⟨%fi, Hsi⟩, ⟨%fr, Hsr⟩, Hbufs⟩, ⟨HsemA, HsemG, HsemB, Hsems⟩, HO⟩
  ihave Hmw := ((K (F := F)).mayWaits_none (thr := V d (cV L) (jV L)) hO) $$ Hlv
  ihave Htok' := (Entails.of_eq (pts_tok (F := F) d L q _).symm) $$ Htok
  ihave Hlst' := (Entails.of_eq (pts_lst (F := F) d L _).symm) $$ Hlst
  ihave Hrows' := (Entails.of_eq (pts_rows (F := F) d L _).symm) $$ Hrows
  ihave Hsi' := (Entails.of_eq (pts_sI (F := F) d L _).symm) $$ Hsi
  ihave Hsr' := (Entails.of_eq (pts_sR (F := F) d L _).symm) $$ Hsr
  have hin' := fetched_inb (F := F) d L lst hin
  sl_exec
  sl_step
  have hval : ∀ i ∈ rowSet L, ((rowsSl L).view.writes (Elt F) (m (rowsLoc d)) [⟨Rect.whole S64x128, tile_body.sl.dma0_1 d L m lst fr hin'⟩]) i
      = gathered (m (tokLoc d)) lst i := by
    intro i hi
    refine rows_value (F := F) d L m lst hin fr _ ?_ _ _ i hi
    exact fun x => read_writes_whole _ _ _ x
  isplitl [Htok' Hlst' Hrows']
  · isplitl [Htok']; · iexact Htok'
    isplitl [Hlst']; · iexact Hlst'
    ihave Hrows := (Entails.of_eq (pts_rows (F := F) d L _)) $$ Hrows'
    iapply (Entails.of_eq (pointsTo_congr hval)); iexact Hrows
  isplitl [Hsi' Hsr' Hbufs]
  · isplitl [Hsi']
    · iexists _; iapply (Entails.of_eq (pts_sI (F := F) d L _)); iexact Hsi'
    isplitl [Hsr']
    · iexists _; iapply (Entails.of_eq (pts_sR (F := F) d L _)); iexact Hsr'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Kernel.Pf

end
-- ==== Proof.BTileObl.lean ====
/-
  The tile kernel's obligation to the launch: every tile of the one call, handed its operands, runs the body and hands
  its results back.

  The body table's entry for a vector subcore is the lookup body at the subcore's own coordinates; a tile of the call is
  the subcore at those coordinates, and its operands and results are the body's at that place, the list at the reshaped
  index words, the table's share the tile's leaf. The body owes nothing of its own, and the waits it records are at no
  call's index.
-/
import proofs.«205851_g1529008357945_cont_week2b_587_25_alg».proof.Proof.BTileBody
import proofs.«205851_g1529008357945_cont_week2b_587_25_alg».proof.Proof.BPay

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.ScSplit (sh)

variable {F : FTy → Type}

local notation "𝕄" => MT nD τ sig (HIx 1) (Elt F) ℕ UU ℕ

/-- The body table at a vector subcore: the lookup body at the subcore's coordinates, over the whole arrays and the
    subcore's own scratch. -/
theorem defs₀_vector [FloatOps F] (c : Fin τ.nSC) (s : Fin τ.nSub) :
    defs₀ (F := F) (.scVector c s) 0 ()
      = SparseCore.onTile hcore0 hsub0 (fun c s => cc0__gather_body (coordsV c s)
          tokM (Memref.isWhole_whole _) lstM (Memref.isWhole_whole _) rowsM (Memref.isWhole_whole _)
          (Memref.whole cc0_scratch0) (Memref.isWhole_whole _) (Memref.whole cc0_scratch1) (Memref.isWhole_whole _)
          cc0_scratch2 cc0_scoped0 cc0_scoped1) ⟨⟩ c s := rfl

/-- Waits recorded at no call's index are among those the launch allows a task. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's tasks: each tile runs the body at its own place, from its operands to its results. -/
theorem tileObl [FloatOps F] (m : (ℓ : Loc nD τ sig) → Buf (Elt F) ℓ)
    (hin : ∀ (d : Dev nD) (j : S2048.Idx), ((lstOf m d : IVec S2048 32) j).toNat < 50257) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m (lstOf m d) (hin d) (sh c.val i.val) O W hO).trans (wp_mono frame _ _ fun _ => obl_post)

end Cert.Kernel.Pf

end
-- ==== Proof.BPipeBody.lean ====
/-
  The matrix-product body on any of the staging buffers its four windows may be on: three whole loads, the product of
  the sum of the first two with the third (contracted on the second axis of both), the dead load of the result's
  buffer, one whole store. The three operand buffers are left as found; the result's buffer ends holding the product.
-/
import proofs.«205851_g1529008357945_cont_week2b_587_25_alg».proof.Proof.BAlgebra
import proofs.«205851_g1529008357945_cont_week2b_587_25_alg».proof.Proof.BPipeData

noncomputable section

namespace Cert.Kernel.Pf

open Cert.Kernel Cert.Kernel.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

theorem sound_body (c : Dev nD) (E : Set ℕ) (i : grid1.Coords) (s0 : Fin 1) (s1 : Fin 1) (s2 : Fin 2) (s3 : Fin 2)
    (X0 X1 X2 : S2048x128.Idx → Elt F .f32) (X3 : S2048x2048.Idx → Elt F .f32) (K : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
                  ∗ owns (c : Thread nD τ) (stage1_2 s2) fullShare X2
                  ∗ owns (c : Thread nD τ) (stage1_3 s3) fullShare (k1_pay1 X0 X1 X2)) -∗ K ⟨⟩))
      ⊢ wp frame (wpE (defs₀ (F := F)) 𝒱₀ c none) E
          (cc1__matmul_body i (stage1_0 s0) (hstage1_0 s0) (stage1_1 s1) (hstage1_1 s1) (stage1_2 s2) (hstage1_2 s2)
            (stage1_3 s3) (hstage1_3 s3)) K := by
  -- every access is at offsets zero and the buffer's own sizes, the whole buffer: a load reads the contents, the
  -- unmasked store writes the payload
  have hz : (![0, 0] : Fin 2 → Nat) = fun _ => 0 := funext fun a => by fin_cases a <;> rfl
  fin_cases s0 <;> fin_cases s1 <;> fin_cases s2 <;> fin_cases s3
  · -- the staging buffers `cc1_stg0_0`, `cc1_stg1_0`, `cc1_stg2_0`, `cc1_stg3_0`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_0 : Memref sig .tc _ _ _).view.readAt (Elt F) (Rect.unit (s := S2048x128) ![0, 0] S2048x128.size
        inb_S2048x128_S2048x128_0_0).toLoadRect = id := funext (Memref.readAt_unit_zero (Elt F) cc1_stg2_0 hz _)
    have hw3 : ∀ f w, (((Memref.whole cc1_stg3_0).access (Rect.unit (s := S2048x2048) ![0, 0] S2048x2048.size inb_S2048x2048_S2048x2048_0_0)) :
        View sig .tc _ _ _).write (Elt F) f w Finset.univ = w := Memref.write_access_unit_zero_univ (Elt F) cc1_stg3_0 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3
  · -- the staging buffers `cc1_stg0_0`, `cc1_stg1_0`, `cc1_stg2_0`, `cc1_stg3_1`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_0 : Memref sig .tc _ _ _).view.readAt (Elt F) (Rect.unit (s := S2048x128) ![0, 0] S2048x128.size
        inb_S2048x128_S2048x128_0_0).toLoadRect = id := funext (Memref.readAt_unit_zero (Elt F) cc1_stg2_0 hz _)
    have hw3 : ∀ f w, (((Memref.whole cc1_stg3_1).access (Rect.unit (s := S2048x2048) ![0, 0] S2048x2048.size inb_S2048x2048_S2048x2048_0_0)) :
        View sig .tc _ _ _).write (Elt F) f w Finset.univ = w := Memref.write_access_unit_zero_univ (Elt F) cc1_stg3_1 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3
  · -- the staging buffers `cc1_stg0_0`, `cc1_stg1_0`, `cc1_stg2_1`, `cc1_stg3_0`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_1 : Memref sig .tc _ _ _).view.readAt (Elt F) (Rect.unit (s := S2048x128) ![0, 0] S2048x128.size
        inb_S2048x128_S2048x128_0_0).toLoadRect = id := funext (Memref.readAt_unit_zero (Elt F) cc1_stg2_1 hz _)
    have hw3 : ∀ f w, (((Memref.whole cc1_stg3_0).access (Rect.unit (s := S2048x2048) ![0, 0] S2048x2048.size inb_S2048x2048_S2048x2048_0_0)) :
        View sig .tc _ _ _).write (Elt F) f w Finset.univ = w := Memref.write_access_unit_zero_univ (Elt F) cc1_stg3_0 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3
  · -- the staging buffers `cc1_stg0_0`, `cc1_stg1_0`, `cc1_stg2_1`, `cc1_stg3_1`
    have hr0 : (Memref.whole cc1_stg0_0 : Memref sig .tc _ _ _).view.readAt (Elt F) (Rect.unit (s := S2048x128) ![0, 0] S2048x128.size
        inb_S2048x128_S2048x128_0_0).toLoadRect = id := funext (Memref.readAt_unit_zero (Elt F) cc1_stg0_0 hz _)
    have hr1 : (Memref.whole cc1_stg1_0 : Memref sig .tc _ _ _).view.readAt (Elt F) (Rect.unit (s := S2048x128) ![0, 0] S2048x128.size
        inb_S2048x128_S2048x128_0_0).toLoadRect = id := funext (Memref.readAt_unit_zero (Elt F) cc1_stg1_0 hz _)
    have hr2 : (Memref.whole cc1_stg2_1 : Memref sig .tc _ _ _).view.readAt (Elt F) (Rect.unit (s := S2048x128) ![0, 0] S2048x128.size
        inb_S2048x128_S2048x128_0_0).toLoadRect = id := funext (Memref.readAt_unit_zero (Elt F) cc1_stg2_1 hz _)
    have hw3 : ∀ f w, (((Memref.whole cc1_stg3_1).access (Rect.unit (s := S2048x2048) ![0, 0] S2048x2048.size inb_S2048x2048_S2048x2048_0_0)) :
        View sig .tc _ _ _).write (Elt F) f w Finset.univ = w := Memref.write_access_unit_zero_univ (Elt F) cc1_stg3_1 hz _
    simp only [owns_whole_eq, cc1__matmul_body_eq_skeleton]; unfold cc1__matmul_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3

end Cert.Kernel.Pf

end
-- ==== Proof.BPipeObl.lean ====
/-
  What the body finds in each window's staging buffer at a point, and the body's obligation with the result window
  handed over and taken back at contents nothing names.
-/
import proofs.«205851_g1529008357945_cont_week2b_587_25_alg».proof.Proof.BAlgebra
import proofs.«205851_g1529008357945_cont_week2b_587_25_alg».proof.Proof.BPipeBody
import Idealize.ShloMosaic.Lib.Pipeline.Frame
import Idealize.ShloMosaic.Lib.Pipeline.FrameBody
import Idealize.ShloMosaic.Lib.Pipeline.Value

noncomputable section

namespace Cert.Kernel.Pf

open Cert.Kernel Cert.Kernel.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-- The printed index maps, decided over the twenty-five points: the two whole-array operands sit at block (0, 0),
    the weight window at block (t, 0), the result window at block (0, t). -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val :=
  (by decide +kernel : ∀ t : Fin grid1.N, _)

/-- The one block of each whole-array operand is the array. -/
theorem read_blk0 (t : Fin cfg1.N) (G : S2048x128.Idx → Elt F .f32) : (win1_0.blk t).view.read (Elt F) G = G := by
  obtain ⟨e0, e1, -⟩ := idx_facts t
  funext j
  show G ((win1_0.blk t).view.emb j) = G j
  refine congrArg G (funext fun a => Fin.ext ?_)
  match a with
  | ⟨0, _⟩ => show win1_0.index t (0 : Fin 2) * 2048 + 1 * (j 0).val = (j 0).val; omega
  | ⟨1, _⟩ => show win1_0.index t (1 : Fin 2) * 128 + 1 * (j 1).val = (j 1).val; omega
theorem read_blk1 (t : Fin cfg1.N) (G : S2048x128.Idx → Elt F .f32) : (win1_1.blk t).view.read (Elt F) G = G := by
  obtain ⟨-, -, e0, e1, -⟩ := idx_facts t
  funext j
  show G ((win1_1.blk t).view.emb j) = G j
  refine congrArg G (funext fun a => Fin.ext ?_)
  match a with
  | ⟨0, _⟩ => show win1_1.index t (0 : Fin 2) * 2048 + 1 * (j 0).val = (j 0).val; omega
  | ⟨1, _⟩ => show win1_1.index t (1 : Fin 2) * 128 + 1 * (j 1).val = (j 1).val; omega

variable (Vv : (c : Dev nD) → (b : Ref sig .tc) → Buf (Elt F) ((c.tc : Thread nD τ).loc b)) (aft3 : (c : Dev nD) → Fin cfg1.N → (S2048x2048.Idx → Elt F .f32)) (rcd : (c : Dev nD) → Set (SemLoc sig × HIx 1))

/-- What the body finds: the two whole-array operands' buffers holding the arrays, fetched at the first point and
    left in place since; -/
theorem before_0 (c : Dev nD) (t : Fin cfg1.N) (d) : (dats Vv aft3 rcd 0 c).before (0 : Fin 4) t d = Vv c main_v1 := by
  rw [(dats Vv aft3 rcd 0 c).before_in_eq_fetched (0 : Fin 4) rfl (fun _ => rfl) (fun _ _ _ => rfl)
    (fun t' => (read_blk0 t' (Vv c main_v1)).symm) t d]
  exact read_blk0 t (Vv c main_v1)
theorem before_1 (c : Dev nD) (t : Fin cfg1.N) (d) : (dats Vv aft3 rcd 0 c).before (1 : Fin 4) t d = Vv c main_arg2 := by
  rw [(dats Vv aft3 rcd 0 c).before_in_eq_fetched (1 : Fin 4) rfl (fun _ => rfl) (fun _ _ _ => rfl)
    (fun t' => (read_blk1 t' (Vv c main_arg2)).symm) t d]
  exact read_blk1 t (Vv c main_arg2)
/-- the weight window's buffer just fetched: block `t` on the rows inside the matrix, `d` below them; -/
theorem before_2 (c : Dev nD) (t : Fin cfg1.N) (d) :
    (dats Vv aft3 rcd 0 c).before (2 : Fin 4) t d = win1_2.fill (grid1.coords t) d (wblk Vv c t) := by
  unfold Dat.before; rw [if_pos (fetch1_2 t)]; rfl
/-- the result's buffer at contents nothing names (every point writes it back). -/
theorem before_3 (c : Dev nD) (t : Fin cfg1.N) (d) : (dats Vv aft3 rcd 0 c).before (3 : Fin 4) t d = d := by
  refine (dats Vv aft3 rcd 0 c).before_out_reset (3 : Fin 4) rfl t ?_ d
  by_cases h : t.val = 0
  · exact .inl h
  · exact .inr ⟨h, flush1_3 _⟩

/-- The body's obligation with the result window forgotten: the two whole-array operands arrive holding the arrays and
    the weight window block `t` filled out with `d` (the three `before` lemmas), the result's buffer holding anything;
    the operands are left as found — which on the rows inside the weight matrix is all the loose weight window's
    obligation asks — and the result's buffer is handed back at whatever the product is. -/
theorem body_fgt (c : Dev nD) : BodyObligationLoose (dats Vv aft3 rcd 0 c) (defs₀ (F := F)) 𝒱₀ (none : HIx 1) Set.univ
    (fun w => decide (w = (3 : Fin 4))) := fun t => by
  rw [bigSep_W1, bigSep_W1]
  simp only [Fin.isValue, Fin.reduceEq, decide_false, decide_true]
  rw [show (dats Vv aft3 rcd 0 c).Φ t.succ = (dats Vv aft3 rcd 0 c).Φ t.castSucc from rfl,
    show (dats Vv aft3 rcd 0 c).owesAt (none : HIx 1) t.succ = (dats Vv aft3 rcd 0 c).owesAt (none : HIx 1) t.castSucc from rfl]
  iintro ⟨HΦ, Ho, ⟨%d0, H0⟩, ⟨%d1, H1⟩, ⟨%d2, H2⟩, ⟨%X3, H3⟩⟩
  rw [before_0 Vv aft3 rcd c t d0, before_1 Vv aft3 rcd c t d1, before_2 Vv aft3 rcd c t d2]
  iapply (sound_body (F := F) c Set.univ (grid1.coords t) (cfg1.slots t 0) (cfg1.slots t 1) (cfg1.slots t 2) (cfg1.slots t 3)
    (Vv c main_v1) (Vv c main_arg2) (win1_2.fill (grid1.coords t) d2 (wblk Vv c t)) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hw : win1_2.cut (grid1.coords t) (wblkF Vv c t) = wblk Vv c t := win1_2.cut_fill _ _ _
  isplitl [H0]
  · change _ ⊢ owns (c : Thread nD τ) (stage1_0 (cfg1.slots t 0)) fullShare (Vv c main_v1)
    rfl
  isplitl [H1]
  · change _ ⊢ owns (c : Thread nD τ) (stage1_1 (cfg1.slots t 1)) fullShare (Vv c main_arg2)
    rfl
  isplitl [H2]
  · iexists d2
    change _ ⊢ owns (c : Thread nD τ) (stage1_2 (cfg1.slots t 2)) fullShare
      (win1_2.fill (grid1.coords t) d2 (win1_2.cut (grid1.coords t) (wblkF Vv c t)))
    rw [hw]
  · iexists k1_pay1 (Vv c main_v1) (Vv c main_arg2) (win1_2.fill (grid1.coords t) d2 (wblk Vv c t))
    iexact H3

/-- The three operands are inputs: after the run they hold what they held. -/
theorem arrAt_in0 (c : Dev nD) (n : ℕ) : (dats Vv aft3 rcd 0 c).arrAt (0 : Fin 4) n = Vv c main_v1 :=
  (dats Vv aft3 rcd 0 c).arrAt_in (0 : Fin 4) rfl n
theorem arrAt_in1 (c : Dev nD) (n : ℕ) : (dats Vv aft3 rcd 0 c).arrAt (1 : Fin 4) n = Vv c main_arg2 :=
  (dats Vv aft3 rcd 0 c).arrAt_in (1 : Fin 4) rfl n
theorem arrAt_in2 (c : Dev nD) (n : ℕ) : (dats Vv aft3 rcd 0 c).arrAt (2 : Fin 4) n = Vv c main_arg3 :=
  (dats Vv aft3 rcd 0 c).arrAt_in (2 : Fin 4) rfl n

end Cert.Kernel.Pf

end
-- ==== Proof.BClaims.lean ====
/-
  The frame claim of the kernel as printed, at the bit-exact values.

  The kernel's run keeps its four argument arrays whatever the matrix product computes: the proof data is read with the
  result window of the product forgotten, so the body's obligation asks nothing of the product's value, and the
  SparseCore tiles only need every index word to name a row of the table, which the input-domain predicate gives.
-/
import proofs.«205851_g1529008357945_cont_week2b_587_25_alg».proof.Proof.BRun
import proofs.«205851_g1529008357945_cont_week2b_587_25_alg».proof.Proof.BTileObl
import proofs.«205851_g1529008357945_cont_week2b_587_25_alg».proof.Proof.BPipeObl
import proofs.«205851_g1529008357945_cont_week2b_587_25_alg».proof.Proof.KernelValue
import proofs.«205851_g1529008357945_cont_week2b_587_25_alg».proof.Defs

noncomputable section

namespace Cert.Kernel.Pf

open Cert.Kernel Idealize.ShloMosaic Idealize.ShloMosaic.ValueIdx Idealize.ShloMosaic.TcCoe Idealize.SL.Sem

/-- Under the predicate every word of the reshaped index list, read unsigned, is below the row count. -/
theorem hlst_of_pre (m : (ℓ : Loc nD τ sig) → Buf (Elt Bits) ℓ) (hpre : Cert.Pre_Kernel m) :
    ∀ (d : Dev nD) (j : S2048.Idx), (lstOf m d j).toNat < 50257 := by
  intro d j
  have hr := Cert.KernelIdeal.Pf.pre_range_bits m hpre d
  exact Cert.KernelIdeal.Pf.lst_range (m ((d.tc : Thread nD τ).loc main_arg0)) hr j

/-- Contents for the forgotten result window's staging buffer: never read. -/
def aft0 : (c : Dev nD) → Fin cfg1.N → (S2048x2048.Idx → Elt Bits .f32) := fun _ _ _ => (FloatOps.ofBits (F := Bits) .f32 0#32 : Bits .f32)

/-- The mask forgetting the result window. -/
def fgt3 : Fin 4 → Bool := fun w => decide (w = (3 : Fin 4))

/-- The kernel as printed runs and its argument arrays end unchanged. -/
theorem frame_k : Cert.frame_Kernel := by
  intro m g hpre
  have htile : (K (F := Bits)).TileObl (D (F := Bits)) 𝒱 (P m) v₀ 0 := tileObl (F := Bits) m (hlst_of_pre m hpre)
  have hb : ∀ c : Dev nD, Pipeline.BodyObligationLoose (dats (Vv m) aft0 (rcd (F := Bits)) 0 c) (defs₀ (F := Bits)) 𝒱₀
      (none : SparseCore.Cfg.HIx 1) Set.univ fgt3 := fun c => body_fgt (Vv m) aft0 (rcd (F := Bits)) c
  have hm := hmain (F := Bits) m g aft0 fgt3 hb
  exact frame_run (F := Bits) m g aft0 fgt3 hm htile

end Cert.Kernel.Pf

end
-- ==== Proof.lean ====
/-
  The proof of `Cert.Claim`: an embedding lookup followed by a matrix product,
      logits[0, s, v] = ∑ f, (tok[idx[0, s], f] + pos[s, f]) · W[v, f],
  computed by a SparseCore gather and a pipelined TensorCore matrix product, against its jnp reference.

  THE KERNEL. @main reshapes the index words to a list; the SparseCore call hands each of the 32 vector subcores
  (worker number 2 s + c) a share of the whole token table, its 64 list positions and its 64 result rows, and each copies
  its index words into its scratch, gathers the 64 table rows they name, and copies them out: after the call row r of the
  gathered array is the table's row idx[r] (the index words name rows, 0 ≤ idx ≤ 50256, by the precondition). The
  pipelined call then walks 25 blocks of 2048 vocabulary entries: at block t the body adds the gathered rows and the
  position rows and multiplies by block t of the output matrix, contracting the 128 features; the last block overhangs
  the vocabulary by 943 entries, whose staged rows are padding and whose result columns are never written back. A last
  reshape gives the result its leading unit axis.

  THE FRAMES. Every weakly fair execution of all 35 threads terminates without fault, the four arguments unchanged: the
  launch theorem for a SparseCore program, with the tile's task run once at a symbolic tile, and the pipelined call
  entered as a region of @main on the TensorCore, whose body obligation is the four whole loads, the product, the
  whole store. At a generic float instance the result window's contents are not named (a matrix product's columns past
  the array's end depend on the padding): the frame needs none of it. The same text is read at both instances, in two
  namespaces (the modules `B…` are the word-level program's).

  THE VALUE, at the extended reals. There the matrix product is a sum over the contracted axis, so column j of a result
  block depends on row j of the staged block only, the padding never enters a column that is written back, and the blocks
  written back piece together the whole product: logits as stated above. The reference's two `take`s wrap negative
  indices, mask out-of-range ones and gather with clamping: under the precondition the wrap is the identity and the mask
  all ones, the second `take` is over an iota, and its dot product is the same sum. No algebraic law beyond the two
  readings of a matrix product as a sum is used; finiteness of the floats is never opened.

  `preserves` is `True`: the ideal pass rewrote nothing.
-/
import proofs.«205851_g1529008357945_cont_week2b_587_25_alg».proof.Defs
import proofs.«205851_g1529008357945_cont_week2b_587_25_alg».proof.Proof.Gen.Kernel
import proofs.«205851_g1529008357945_cont_week2b_587_25_alg».proof.Proof.Gen.KernelIdeal
import proofs.«205851_g1529008357945_cont_week2b_587_25_alg».proof.Proof.Gen.ReferenceIdeal
import proofs.«205851_g1529008357945_cont_week2b_587_25_alg».proof.Proof.Gen.Pre_input_domain
import proofs.«205851_g1529008357945_cont_week2b_587_25_alg».proof.Proof.Claims
import proofs.«205851_g1529008357945_cont_week2b_587_25_alg».proof.Proof.BClaims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Kernel.Pf.frame_k, Cert.KernelIdeal.Pf.frame_ki, Cert.KernelIdeal.Pf.frame_ri, trivial, Cert.KernelIdeal.Pf.algebraic⟩

end Cert.Proof

end
